-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v108_0)) (v1 : (c : Dev Cert.KernelIdeal.nD) → Buf (Elt Ideal) ((c.tc : Thread Cert.KernelIdeal.nD Cert.KernelIdeal.τ).loc Cert.KernelIdeal.main_v108_1)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108_0) = v0 c
          ∧ r.2.mem ((c.tc : Thread Cert.KernelIdeal.nD Cert.KernelIdeal.τ).loc Cert.KernelIdeal.main_v108_1) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1000 : Shape := ⟨2, ![50000, 1000]⟩
abbrev S1000x256 : Shape := ⟨2, ![1000, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S2x800000 : Shape := ⟨2, ![2, 800000]⟩
abbrev S_ : Shape := ⟨0, ![]⟩

class Facts : Prop where
  bcast_S_S50000x1000 : S_.BroadcastsInDim S50000x1000 (![] : Fin 0 → Fin S50000x1000.rank)
  reducesTo_S50000x1000_S_d0_1 : S50000x1000.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg7 : FVec F S256x32 .f32) (main_arg8 : FVec F S32 .f32) (main_arg9 : FVec F S256x32 .f32) (main_arg10 : FVec F S32 .f32) (main_v33 : IVec S_ 1) : IVec S_ 1 :=
  let main_v34 : FVec F S256x32 .f32 := Host.absf main_arg7
  let main_cst_12 : FVec F S_ .f32 := constant S_ .f32 0x7F800000#32
  let main_v35 : FVec F S256x32 .f32 := broadcastInDim S256x32 ![] bcast_S_S256x32 main_cst_12
  let main_v36 : IVec S256x32 1 := cmpf .olt main_v34 main_v35
  let main_c_13 : IVec S_ 1 := constantI S_ 1 1#1
  let main_v37 : IVec S_ 1 := (fun x v => Host.reduce IntOp.andi x v reducesTo_S256x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S256x32 .f32 := Host.absf main_arg9
  let main_cst_16 : FVec F S_ .f32 := constant S_ .f32 0x7F800000#32
  let main_v45 : FVec F S256x32 .f32 := broadcastInDim S256x32 ![] bcast_S_S256x32 main_cst_16
  let main_v46 : IVec S256x32 1 := cmpf .olt main_v44 main_v45
  let main_c_17 : IVec S_ 1 := constantI S_ 1 1#1
  let main_v47 : IVec S_ 1 := (fun x v => Host.reduce IntOp.andi x v reducesTo_S256x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg4 : FVec F S256x256 .f32) (main_arg5 : FVec F S256 .f32) (main_arg6 : FVec F S256 .f32) (main_arg7 : FVec F S256x32 .f32) (main_arg8 : FVec F S32 .f32) (main_arg9 : FVec F S256x32 .f32) (main_arg10 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x1000 .f32) (main_arg1 : FVec F S1000x256 .f32) (main_arg2 : FVec F S256 .f32) (main_arg3 : FVec F S256 .f32) (main_arg4 : FVec F S256x256 .f32) (main_arg5 : FVec F S256 .f32) (main_arg6 : FVec F S256 .f32) (main_arg7 : FVec F S256x32 .f32) (main_arg8 : FVec F S32 .f32) (main_arg9 : FVec F S256x32 .f32) (main_arg10 : FVec F S32 .f32) (main_arg11 : IVec S2x800000 32) : IVec S_ 1 :=
  let main_v0 : FVec F S50000x1000 .f32 := Host.absf main_arg0
  let main_cst : FVec F S_ .f32 := constant S_ .f32 0x7F800000#32
  let main_v1 : FVec F S50000x1000 .f32 := broadcastInDim S50000x1000 ![] bcast_S_S50000x1000 main_cst
  let main_v2 : IVec S50000x1000 1 := cmpf .olt main_v0 main_v1
  let main_c : IVec S_ 1 := constantI S_ 1 1#1
  let main_v3 : IVec S_ 1 := (fun x v => Host.reduce IntOp.andi x v reducesTo_S50000x1000_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_v13 main_v16
-- ==== Kernel.lean ====
abbrev S50000x1000 : Shape := ⟨2, ![50000, 1000]⟩
abbrev S1000x256 : Shape := ⟨2, ![1000, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S50000x256 : Shape := ⟨2, ![50000, 256]⟩
abbrev S50000x1 : Shape := ⟨2, ![50000, 1]⟩
abbrev S2000x1000 : Shape := ⟨2, ![2000, 1000]⟩
abbrev S2000x256 : Shape := ⟨2, ![2000, 256]⟩
abbrev S2000x1 : Shape := ⟨2, ![2000, 1]⟩
abbrev S2000 : Shape := ⟨1, ![2000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S1x256 : Shape := ⟨2, ![1, 256]⟩
abbrev S1x32 : Shape := ⟨2, ![1, 32]⟩
abbrev S50000x32 : Shape := ⟨2, ![50000, 32]⟩
abbrev S2000x32 : Shape := ⟨2, ![2000, 32]⟩

abbrev nBuf : Space → Nat
  | .hbm => 191
  | .vmem => 30
  | .smem => 0
  | _ => 0

abbrev hbmTy0_0 (i : Nat) : BufTy := match i % 128 with
  | 0 => ⟨S50000x1000, .f32⟩
  | 1 => ⟨S1000x256, .f32⟩
  | 2 => ⟨S256, .f32⟩
  | 3 => ⟨S256, .f32⟩
  | 4 => ⟨S256x256, .f32⟩
  | 5 => ⟨S256, .f32⟩
  | 6 => ⟨S256, .f32⟩
  | 7 => ⟨S256x32, .f32⟩
  | 8 => ⟨S32, .f32⟩
  | 9 => ⟨S256x32, .f32⟩
  | 10 => ⟨S32, .f32⟩
  | 11 => ⟨S2x800000, .i32⟩
  | 12 => ⟨S1x800000, .i32⟩
  | 13 => ⟨S800000, .i32⟩
  | 14 => ⟨S1x800000, .i32⟩
  | 15 => ⟨S800000, .i32⟩
  | 16 => ⟨S1000x256, .bf16⟩
  | 17 => ⟨S256x256, .bf16⟩
  | 18 => ⟨S256x32, .bf16⟩
  | 19 => ⟨S256x32, .bf16⟩
  | 20 => ⟨S50000x256, .f32⟩
  | 21 => ⟨S50000x1, .f32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x256, .f32⟩
  | 60 => ⟨S800000x1, .f32⟩
  | 61 => ⟨S800000x256, .f32⟩
  | 62 => ⟨S800000x256, .f32⟩
  | 63 => ⟨S_, .f32⟩
  | 64 => ⟨S50000x256, .f32⟩
  | 65 => ⟨S800000x1, .i32⟩
  | 66 => ⟨S50000x256, .f32⟩
  | 67 => ⟨S50000, .f32⟩
  | 68 => ⟨S50000x1, .f32⟩
  | 69 => ⟨S50000x256, .f32⟩
  | 70 => ⟨S50000x256, .f32⟩
  | 71 => ⟨S50000x256, .f32⟩
  | 72 => ⟨S_, .f32⟩
  | 73 => ⟨S256, .f32⟩
  | 74 => ⟨S_, .f32⟩
  | 75 => ⟨S256, .f32⟩
  | 76 => ⟨S256, .f32⟩
  | 77 => ⟨S_, .i32⟩
  | 78 => ⟨S_, .f32⟩
  | 79 => ⟨S256, .f32⟩
  | 80 => ⟨S1x256, .f32⟩
  | 81 => ⟨S_, .f32⟩
  | 82 => ⟨S1x256, .f32⟩
  | 83 => ⟨S1x256, .f32⟩
  | 84 => ⟨S50000x256, .f32⟩
  | 85 => ⟨S50000x256, .f32⟩
  | 86 => ⟨S50000x256, .f32⟩
  | 87 => ⟨S_, .f32⟩
  | 88 => ⟨S_, .f32⟩
  | 89 => ⟨S_, .f32⟩
  | 90 => ⟨S_, .f32⟩
  | 91 => ⟨S256, .f32⟩
  | 92 => ⟨S256, .f32⟩
  | 93 => ⟨S256, .f32⟩
  | 94 => ⟨S_, .f32⟩
  | 95 => ⟨S_, .i1⟩
  | 96 => ⟨S_, .f32⟩
  | 97 => ⟨S_, .f32⟩
  | 98 => ⟨S256, .f32⟩
  | 99 => ⟨S256, .f32⟩
  | 100 => ⟨S1x256, .f32⟩
  | 101 => ⟨S1x256, .f32⟩
  | 102 => ⟨S1x256, .f32⟩
  | 103 => ⟨S1x256, .f32⟩
  | 104 => ⟨S50000x256, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000, .f32⟩
  | 124 => ⟨S_, .i32⟩
  | 125 => ⟨S800000, .i32⟩
  | 126 => ⟨S800000, .i1⟩
  | 127 => ⟨S_, .i32⟩
  | _ => ⟨S50000x1000, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S800000, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x256, .f32⟩
  | 15 => ⟨S800000x1, .f32⟩
  | 16 => ⟨S800000x256, .f32⟩
  | 17 => ⟨S800000x256, .f32⟩
  | 18 => ⟨S_, .f32⟩
  | 19 => ⟨S50000x256, .f32⟩
  | 20 => ⟨S800000x1, .i32⟩
  | 21 => ⟨S50000x256, .f32⟩
  | 22 => ⟨S50000, .f32⟩
  | 23 => ⟨S50000x1, .f32⟩
  | 24 => ⟨S50000x256, .f32⟩
  | 25 => ⟨S50000x256, .f32⟩
  | 26 => ⟨S50000x256, .f32⟩
  | 27 => ⟨S_, .f32⟩
  | 28 => ⟨S256, .f32⟩
  | 29 => ⟨S_, .f32⟩
  | 30 => ⟨S256, .f32⟩
  | 31 => ⟨S256, .f32⟩
  | 32 => ⟨S_, .i32⟩
  | 33 => ⟨S_, .f32⟩
  | 34 => ⟨S256, .f32⟩
  | 35 => ⟨S1x256, .f32⟩
  | 36 => ⟨S_, .f32⟩
  | 37 => ⟨S1x256, .f32⟩
  | 38 => ⟨S1x256, .f32⟩
  | 39 => ⟨S50000x256, .f32⟩
  | 40 => ⟨S50000x256, .f32⟩
  | 41 => ⟨S50000x256, .f32⟩
  | 42 => ⟨S_, .f32⟩
  | 43 => ⟨S_, .f32⟩
  | 44 => ⟨S_, .f32⟩
  | 45 => ⟨S_, .f32⟩
  | 46 => ⟨S256, .f32⟩
  | 47 => ⟨S256, .f32⟩
  | 48 => ⟨S256, .f32⟩
  | 49 => ⟨S_, .f32⟩
  | 50 => ⟨S_, .i1⟩
  | 51 => ⟨S_, .f32⟩
  | 52 => ⟨S_, .f32⟩
  | 53 => ⟨S256, .f32⟩
  | 54 => ⟨S256, .f32⟩
  | 55 => ⟨S1x256, .f32⟩
  | 56 => ⟨S1x256, .f32⟩
  | 57 => ⟨S1x256, .f32⟩
  | 58 => ⟨S1x256, .f32⟩
  | 59 => ⟨S1x32, .f32⟩
  | 60 => ⟨S1x32, .f32⟩
  | 61 => ⟨S50000x32, .f32⟩
  | 62 => ⟨S50000x32, .f32⟩
  | _ => ⟨S50000x1000, .f32⟩

abbrev hbmTy (i : Nat) : BufTy := match i / 128 with
  | 0 => hbmTy0_0 i
  | 1 => hbmTy0_1 i
  | _ => ⟨S50000x1000, .f32⟩

abbrev bufTy : (tb : Table) → Fin (tcTables nBuf tb) → BufTy
  | .hbm, ⟨i, _⟩ => hbmTy i
  | .local _ .vmem, ⟨0, _⟩ => ⟨S2000x1000, .f32⟩
  | .local _ .vmem, ⟨1, _⟩ => ⟨S2000x1000, .f32⟩
  | .local _ .vmem, ⟨2, _⟩ => ⟨S1000x256, .bf16⟩
  | .local _ .vmem, ⟨3, _⟩ => ⟨S2000x256, .f32⟩
  | .local _ .vmem, ⟨4, _⟩ => ⟨S2000x256, .f32⟩
  | .local _ .vmem, ⟨5, _⟩ => ⟨S2000x1, .f32⟩
  | .local _ .vmem, ⟨6, _⟩ => ⟨S2000x1, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x256, .bf16⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x32, .bf16⟩
  | .local _ .vmem, ⟨23, _⟩ => ⟨S1x32, .f32⟩
  | .local _ .vmem, ⟨24, _⟩ => ⟨S256x32, .bf16⟩
  | .local _ .vmem, ⟨25, _⟩ => ⟨S1x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_cst_3 : Ref sig .tc := ⟨.hbm, 94, rfl⟩
abbrev main_call0_v12 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_11 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_13 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_c_14 : Ref sig .tc := ⟨.hbm, 115, rfl⟩
abbrev main_v65 : Ref sig .tc := ⟨.hbm, 116, rfl⟩
abbrev main_v66 : Ref sig .tc := ⟨.hbm, 117, rfl⟩
abbrev main_c_15 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_c_16 : Ref sig .tc := ⟨.hbm, 124, rfl⟩
abbrev main_v72 : Ref sig .tc := ⟨.hbm, 125, rfl⟩
abbrev main_v73 : Ref sig .tc := ⟨.hbm, 126, rfl⟩
abbrev main_c_17 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_18 : Ref sig .tc := ⟨.hbm, 134, rfl⟩
abbrev main_v80 : Ref sig .tc := ⟨.hbm, 135, rfl⟩
abbrev main_v81 : Ref sig .tc := ⟨.hbm, 136, rfl⟩
abbrev main_c_19 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_20 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_21 : Ref sig .tc := ⟨.hbm, 155, rfl⟩
abbrev main_v98 : Ref sig .tc := ⟨.hbm, 156, rfl⟩
abbrev main_cst_22 : Ref sig .tc := ⟨.hbm, 157, rfl⟩
abbrev main_v99 : Ref sig .tc := ⟨.hbm, 158, rfl⟩
abbrev main_v100 : Ref sig .tc := ⟨.hbm, 159, rfl⟩
abbrev main_c_23 : Ref sig .tc := ⟨.hbm, 160, rfl⟩
abbrev main_call1_cst : Ref sig .tc := ⟨.hbm, 161, rfl⟩
abbrev main_call1_v0 : Ref sig .tc := ⟨.hbm, 162, rfl⟩
abbrev main_call1_v1 : Ref sig .tc := ⟨.hbm, 163, rfl⟩
abbrev main_call1_cst_0 : Ref sig .tc := ⟨.hbm, 164, rfl⟩
abbrev main_call1_v2 : Ref sig .tc := ⟨.hbm, 165, rfl⟩
abbrev main_call1_v3 : Ref sig .tc := ⟨.hbm, 166, rfl⟩
abbrev main_call1_v4 : Ref sig .tc := ⟨.hbm, 167, rfl⟩
abbrev main_call1_v5 : Ref sig .tc := ⟨.hbm, 168, rfl⟩
abbrev main_call1_v6 : Ref sig .tc := ⟨.hbm, 169, rfl⟩
abbrev main_call1_v7 : Ref sig .tc := ⟨.hbm, 170, rfl⟩
abbrev main_call1_cst_1 : Ref sig .tc := ⟨.hbm, 171, rfl⟩
abbrev main_call1_v8 : Ref sig .tc := ⟨.hbm, 172, rfl⟩
abbrev main_call1_cst_2 : Ref sig .tc := ⟨.hbm, 173, rfl⟩
abbrev main_call1_v9 : Ref sig .tc := ⟨.hbm, 174, rfl⟩
abbrev main_call1_v10 : Ref sig .tc := ⟨.hbm, 175, rfl⟩
abbrev main_call1_v11 : Ref sig .tc := ⟨.hbm, 176, rfl⟩
abbrev main_call1_cst_3 : Ref sig .tc := ⟨.hbm, 177, rfl⟩
abbrev main_call1_v12 : Ref sig .tc := ⟨.hbm, 178, rfl⟩
abbrev main_call1_cst_4 : Ref sig .tc := ⟨.hbm, 179, rfl⟩
abbrev main_call1_call0_v0 : Ref sig .tc := ⟨.hbm, 180, rfl⟩
abbrev main_call1_call0_v1 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108_0 : Ref sig .tc := ⟨.hbm, 189, rfl⟩
abbrev main_v108_1 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc2_stg10_0 : Ref sig .tc := ⟨.vmem, 28, rfl⟩
abbrev cc2_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc2_sem10_0 : DmaSem sig := 28
abbrev cc2_sem10_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x32 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x32 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  inb_S2000x1000_S2000x1000_0_0 : ∀ a, (![0, 0] : Fin 2 → Nat) a + S2000x1000.size a ≤ S2000x1000.size a
  h_S2000x1000 : 0 < S2000x1000.numel
  reduces_S2000x1000_S2000 : S2000x1000.Reduces [1] S2000
  shapeCasts_S2000_S2000x1 : S2000.ShapeCasts S2000x1
  broadcasts_S2000x1_S2000x1000 : S2000x1.Broadcasts S2000x1000
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S32_S1x32 : S32.ShapeCasts S1x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  dot_S2000x1000_S1000x256_S2000x256_1_0_0_1_n_n_wf : DotDims.WF S2000x1000 S1000x256 S2000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x32_S2000x32_1_0_0_1_n_n_wf : DotDims.WF S2000x256 S256x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1000.size a ≤ S50000x1000.size a
  hwx0_0 : ∀ i : grid0.Coords, EltTy.bits .f32 = 32 ∨ (Rect.block (s := S50000x1000) S2000x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S1000x256.size a
  hwx0_1 : ∀ i : grid0.Coords, EltTy.bits .bf16 = 32 ∨ (Rect.block (s := S1000x256) S1000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x32.size a ≤ S256x32.size a
  hwx2_5 : ∀ i : grid2.Coords, EltTy.bits .bf16 = 32 ∨ (Rect.block (s := S256x32) S256x32.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x32.size a ≤ S256x32.size a
  hwx2_7 : ∀ i : grid2.Coords, EltTy.bits .bf16 = 32 ∨ (Rect.block (s := S256x32) S256x32.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x32.size a ≤ S50000x32.size a
  hwx2_9 : ∀ i : grid2.Coords, EltTy.bits .f32 = 32 ∨ (Rect.block (s := S50000x32) S2000x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x32.size a ≤ S50000x32.size a
  hwx2_10 : ∀ i : grid2.Coords, EltTy.bits .f32 = 32 ∨ (Rect.block (s := S50000x32) S2000x32.size (cc2_transform_10 i) (hinb2_10 i)).WholeWords (EltTy.packing .f32)

variable [Facts₀]

def dot_S2000x1000_S1000x256_S2000x256_1_0_0_1_n_n : DotDims S2000x1000 S1000x256 S2000x256 where
  lhsContracting := [1]
  rhsContracting := [0]
  lhsNonContracting := [0]
  rhsNonContracting := [1]
  lhsBatch := []
  rhsBatch := []
  wf := dot_S2000x1000_S1000x256_S2000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf

abbrev win0_0 : Pipeline.Window sig grid0 :=
  Pipeline.Window.ofSpec (Memref.whole main_arg0) S2000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S2000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v97) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v102) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v104) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v105) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S256x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v106) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S256x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v107) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v108_0) S2000x32.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v108_1) S2000x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x1000 : Shape := ⟨2, ![50000, 1000]⟩
abbrev S1000x256 : Shape := ⟨2, ![1000, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S50000x1 : Shape := ⟨2, ![50000, 1]⟩
abbrev S50000x256 : Shape := ⟨2, ![50000, 256]⟩
abbrev S800000x1 : Shape := ⟨2, ![800000, 1]⟩
abbrev S800000x256 : Shape := ⟨2, ![800000, 256]⟩
abbrev S1x256 : Shape := ⟨2, ![1, 256]⟩
abbrev S50000x32 : Shape := ⟨2, ![50000, 32]⟩
abbrev S1x32 : Shape := ⟨2, ![1, 32]⟩

abbrev nBuf : Space → Nat
  | .hbm => 254
  | .vmem => 0
  | .smem => 0
  | _ => 0

abbrev hbmTy0_0 (i : Nat) : BufTy := match i % 128 with
  | 0 => ⟨S50000x1000, .f32⟩
  | 1 => ⟨S1000x256, .f32⟩
  | 2 => ⟨S256, .f32⟩
  | 3 => ⟨S256, .f32⟩
  | 4 => ⟨S256x256, .f32⟩
  | 5 => ⟨S256, .f32⟩
  | 6 => ⟨S256, .f32⟩
  | 7 => ⟨S256x32, .f32⟩
  | 8 => ⟨S32, .f32⟩
  | 9 => ⟨S256x32, .f32⟩
  | 10 => ⟨S32, .f32⟩
  | 11 => ⟨S2x800000, .i32⟩
  | 12 => ⟨S1x800000, .i32⟩
  | 13 => ⟨S800000, .i32⟩
  | 14 => ⟨S1x800000, .i32⟩
  | 15 => ⟨S800000, .i32⟩
  | 16 => ⟨S_, .f32⟩
  | 17 => ⟨S50000, .f32⟩
  | 18 => ⟨S50000x1, .f32⟩
  | 19 => ⟨S_, .f32⟩
  | 20 => ⟨S50000x1, .f32⟩
  | 21 => ⟨S50000x1, .f32⟩
  | 22 => ⟨S50000x1000, .f32⟩
  | 23 => ⟨S50000x1000, .f32⟩
  | 24 => ⟨S50000x1000, .f32⟩
  | 25 => ⟨S50000x256, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x256, .f32⟩
  | 64 => ⟨S800000x1, .f32⟩
  | 65 => ⟨S800000x256, .f32⟩
  | 66 => ⟨S800000x256, .f32⟩
  | 67 => ⟨S_, .f32⟩
  | 68 => ⟨S50000x256, .f32⟩
  | 69 => ⟨S800000x1, .i32⟩
  | 70 => ⟨S50000x256, .f32⟩
  | 71 => ⟨S50000, .f32⟩
  | 72 => ⟨S50000x1, .f32⟩
  | 73 => ⟨S50000x256, .f32⟩
  | 74 => ⟨S50000x256, .f32⟩
  | 75 => ⟨S50000x256, .f32⟩
  | 76 => ⟨S_, .f32⟩
  | 77 => ⟨S256, .f32⟩
  | 78 => ⟨S_, .f32⟩
  | 79 => ⟨S256, .f32⟩
  | 80 => ⟨S256, .f32⟩
  | 81 => ⟨S_, .i32⟩
  | 82 => ⟨S_, .f32⟩
  | 83 => ⟨S256, .f32⟩
  | 84 => ⟨S1x256, .f32⟩
  | 85 => ⟨S_, .f32⟩
  | 86 => ⟨S1x256, .f32⟩
  | 87 => ⟨S1x256, .f32⟩
  | 88 => ⟨S50000x256, .f32⟩
  | 89 => ⟨S50000x256, .f32⟩
  | 90 => ⟨S50000x256, .f32⟩
  | 91 => ⟨S_, .f32⟩
  | 92 => ⟨S_, .f32⟩
  | 93 => ⟨S_, .f32⟩
  | 94 => ⟨S_, .f32⟩
  | 95 => ⟨S256, .f32⟩
  | 96 => ⟨S256, .f32⟩
  | 97 => ⟨S256, .f32⟩
  | 98 => ⟨S_, .f32⟩
  | 99 => ⟨S_, .i1⟩
  | 100 => ⟨S_, .f32⟩
  | 101 => ⟨S_, .f32⟩
  | 102 => ⟨S256, .f32⟩
  | 103 => ⟨S256, .f32⟩
  | 104 => ⟨S1x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S_, .f32⟩
  | 111 => ⟨S256, .f32⟩
  | 112 => ⟨S256, .f32⟩
  | 113 => ⟨S256, .f32⟩
  | 114 => ⟨S1x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .i1⟩
  | 123 => ⟨S_, .f32⟩
  | 124 => ⟨S50000x256, .f32⟩
  | 125 => ⟨S50000x256, .f32⟩
  | 126 => ⟨S50000x256, .f32⟩
  | 127 => ⟨S50000x256, .f32⟩
  | _ => ⟨S50000x1000, .f32⟩

abbrev hbmTy0_1 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S_, .f32⟩
  | 7 => ⟨S50000, .f32⟩
  | 8 => ⟨S50000, .f32⟩
  | 9 => ⟨S50000, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x256, .f32⟩
  | 38 => ⟨S800000x1, .f32⟩
  | 39 => ⟨S800000x256, .f32⟩
  | 40 => ⟨S800000x256, .f32⟩
  | 41 => ⟨S_, .f32⟩
  | 42 => ⟨S50000x256, .f32⟩
  | 43 => ⟨S800000x1, .i32⟩
  | 44 => ⟨S50000x256, .f32⟩
  | 45 => ⟨S50000, .f32⟩
  | 46 => ⟨S50000x1, .f32⟩
  | 47 => ⟨S50000x256, .f32⟩
  | 48 => ⟨S50000x256, .f32⟩
  | 49 => ⟨S50000x256, .f32⟩
  | 50 => ⟨S_, .f32⟩
  | 51 => ⟨S256, .f32⟩
  | 52 => ⟨S_, .f32⟩
  | 53 => ⟨S256, .f32⟩
  | 54 => ⟨S256, .f32⟩
  | 55 => ⟨S_, .i32⟩
  | 56 => ⟨S_, .f32⟩
  | 57 => ⟨S256, .f32⟩
  | 58 => ⟨S1x256, .f32⟩
  | 59 => ⟨S_, .f32⟩
  | 60 => ⟨S1x256, .f32⟩
  | 61 => ⟨S1x256, .f32⟩
  | 62 => ⟨S50000x256, .f32⟩
  | 63 => ⟨S50000x256, .f32⟩
  | 64 => ⟨S50000x256, .f32⟩
  | 65 => ⟨S_, .f32⟩
  | 66 => ⟨S_, .f32⟩
  | 67 => ⟨S_, .f32⟩
  | 68 => ⟨S_, .f32⟩
  | 69 => ⟨S256, .f32⟩
  | 70 => ⟨S256, .f32⟩
  | 71 => ⟨S256, .f32⟩
  | 72 => ⟨S_, .f32⟩
  | 73 => ⟨S_, .i1⟩
  | 74 => ⟨S_, .f32⟩
  | 75 => ⟨S_, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S256, .f32⟩
  | 86 => ⟨S256, .f32⟩
  | 87 => ⟨S256, .f32⟩
  | 88 => ⟨S1x256, .f32⟩
  | 89 => ⟨S50000x256, .f32⟩
  | 90 => ⟨S50000x256, .f32⟩
  | 91 => ⟨S1x256, .f32⟩
  | 92 => ⟨S50000x256, .f32⟩
  | 93 => ⟨S50000x256, .f32⟩
  | 94 => ⟨S_, .f32⟩
  | 95 => ⟨S50000x256, .f32⟩
  | 96 => ⟨S50000x256, .i1⟩
  | 97 => ⟨S_, .f32⟩
  | 98 => ⟨S50000x256, .f32⟩
  | 99 => ⟨S50000x256, .f32⟩
  | 100 => ⟨S50000x256, .f32⟩
  | 101 => ⟨S50000x32, .f32⟩
  | 102 => ⟨S1x32, .f32⟩
  | 103 => ⟨S50000x32, .f32⟩
  | 104 => ⟨S50000x32, .f32⟩
  | 105 => ⟨S50000x32, .f32⟩
  | 106 => ⟨S1x32, .f32⟩
  | 107 => ⟨S50000x32, .f32⟩
  | 108 => ⟨S50000x32, .f32⟩
  | 109 => ⟨S_, .f32⟩
  | 110 => ⟨S50000x32, .f32⟩
  | 111 => ⟨S50000x32, .f32⟩
  | 112 => ⟨S50000x32, .f32⟩
  | 113 => ⟨S50000x32, .f32⟩
  | 114 => ⟨S50000x32, .i1⟩
  | 115 => ⟨S50000x32, .f32⟩
  | 116 => ⟨S50000x32, .f32⟩
  | 117 => ⟨S50000x32, .f32⟩
  | 118 => ⟨S50000x32, .f32⟩
  | 119 => ⟨S50000x32, .f32⟩
  | 120 => ⟨S50000x32, .f32⟩
  | 121 => ⟨S50000x32, .f32⟩
  | 122 => ⟨S50000x32, .f32⟩
  | 123 => ⟨S_, .f32⟩
  | 124 => ⟨S50000x32, .f32⟩
  | 125 => ⟨S50000x32, .f32⟩
  | _ => ⟨S50000x1000, .f32⟩

abbrev hbmTy (i : Nat) : BufTy := match i / 128 with
  | 0 => hbmTy0_0 i
  | 1 => hbmTy0_1 i
  | _ => ⟨S50000x1000, .f32⟩

abbrev bufTy : (tb : Table) → Fin (tcTables nBuf tb) → BufTy
  | .hbm, ⟨i, _⟩ => hbmTy i
  | _, _ => ⟨S50000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_cst_3 : Ref sig .tc := ⟨.hbm, 98, rfl⟩
abbrev main_call0_v12 : Ref sig .tc := ⟨.hbm, 99, rfl⟩
abbrev main_call0_cst_4 : Ref sig .tc := ⟨.hbm, 100, rfl⟩
abbrev main_call0_call0_v0 : Ref sig .tc := ⟨.hbm, 101, rfl⟩
abbrev main_call0_call0_v1 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_13 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_14 : Ref sig .tc := ⟨.hbm, 120, rfl⟩
abbrev main_v71 : Ref sig .tc := ⟨.hbm, 121, rfl⟩
abbrev main_v72 : Ref sig .tc := ⟨.hbm, 122, rfl⟩
abbrev main_cst_15 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_16 : Ref sig .tc := ⟨.hbm, 128, rfl⟩
abbrev main_v77 : Ref sig .tc := ⟨.hbm, 129, rfl⟩
abbrev main_cst_17 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_18 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_19 : Ref sig .tc := ⟨.hbm, 138, rfl⟩
abbrev main_v84 : Ref sig .tc := ⟨.hbm, 139, rfl⟩
abbrev main_v85 : Ref sig .tc := ⟨.hbm, 140, rfl⟩
abbrev main_c_20 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_21 : Ref sig .tc := ⟨.hbm, 147, rfl⟩
abbrev main_v91 : Ref sig .tc := ⟨.hbm, 148, rfl⟩
abbrev main_v92 : Ref sig .tc := ⟨.hbm, 149, rfl⟩
abbrev main_c_22 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_c_23 : Ref sig .tc := ⟨.hbm, 157, rfl⟩
abbrev main_v99 : Ref sig .tc := ⟨.hbm, 158, rfl⟩
abbrev main_v100 : Ref sig .tc := ⟨.hbm, 159, rfl⟩
abbrev main_c_24 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_25 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_26 : Ref sig .tc := ⟨.hbm, 178, rfl⟩
abbrev main_v117 : Ref sig .tc := ⟨.hbm, 179, rfl⟩
abbrev main_cst_27 : Ref sig .tc := ⟨.hbm, 180, rfl⟩
abbrev main_v118 : Ref sig .tc := ⟨.hbm, 181, rfl⟩
abbrev main_v119 : Ref sig .tc := ⟨.hbm, 182, rfl⟩
abbrev main_c_28 : Ref sig .tc := ⟨.hbm, 183, rfl⟩
abbrev main_call2_cst : Ref sig .tc := ⟨.hbm, 184, rfl⟩
abbrev main_call2_v0 : Ref sig .tc := ⟨.hbm, 185, rfl⟩
abbrev main_call2_v1 : Ref sig .tc := ⟨.hbm, 186, rfl⟩
abbrev main_call2_cst_0 : Ref sig .tc := ⟨.hbm, 187, rfl⟩
abbrev main_call2_v2 : Ref sig .tc := ⟨.hbm, 188, rfl⟩
abbrev main_call2_v3 : Ref sig .tc := ⟨.hbm, 189, rfl⟩
abbrev main_call2_v4 : Ref sig .tc := ⟨.hbm, 190, rfl⟩
abbrev main_call2_v5 : Ref sig .tc := ⟨.hbm, 191, rfl⟩
abbrev main_call2_v6 : Ref sig .tc := ⟨.hbm, 192, rfl⟩
abbrev main_call2_v7 : Ref sig .tc := ⟨.hbm, 193, rfl⟩
abbrev main_call2_cst_1 : Ref sig .tc := ⟨.hbm, 194, rfl⟩
abbrev main_call2_v8 : Ref sig .tc := ⟨.hbm, 195, rfl⟩
abbrev main_call2_cst_2 : Ref sig .tc := ⟨.hbm, 196, rfl⟩
abbrev main_call2_v9 : Ref sig .tc := ⟨.hbm, 197, rfl⟩
abbrev main_call2_v10 : Ref sig .tc := ⟨.hbm, 198, rfl⟩
abbrev main_call2_v11 : Ref sig .tc := ⟨.hbm, 199, rfl⟩
abbrev main_call2_cst_3 : Ref sig .tc := ⟨.hbm, 200, rfl⟩
abbrev main_call2_v12 : Ref sig .tc := ⟨.hbm, 201, rfl⟩
abbrev main_call2_cst_4 : Ref sig .tc := ⟨.hbm, 202, rfl⟩
abbrev main_call2_call0_v0 : Ref sig .tc := ⟨.hbm, 203, rfl⟩
abbrev main_call2_call0_v1 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_cst_29 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_cst_30 : Ref sig .tc := ⟨.hbm, 222, rfl⟩
abbrev main_v136 : Ref sig .tc := ⟨.hbm, 223, rfl⟩
abbrev main_v137 : Ref sig .tc := ⟨.hbm, 224, rfl⟩
abbrev main_cst_31 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_call4_cst : Ref sig .tc := ⟨.hbm, 237, rfl⟩
abbrev main_call4_v0 : Ref sig .tc := ⟨.hbm, 238, rfl⟩
abbrev main_call4_v1 : Ref sig .tc := ⟨.hbm, 239, rfl⟩
abbrev main_call4_v2 : Ref sig .tc := ⟨.hbm, 240, rfl⟩
abbrev main_call4_v3 : Ref sig .tc := ⟨.hbm, 241, rfl⟩
abbrev main_call4_v4 : Ref sig .tc := ⟨.hbm, 242, rfl⟩
abbrev main_call4_v5 : Ref sig .tc := ⟨.hbm, 243, rfl⟩
abbrev main_call4_v6 : Ref sig .tc := ⟨.hbm, 244, rfl⟩
abbrev main_call4_v7 : Ref sig .tc := ⟨.hbm, 245, rfl⟩
abbrev main_call4_v8 : Ref sig .tc := ⟨.hbm, 246, rfl⟩
abbrev main_call4_v9 : Ref sig .tc := ⟨.hbm, 247, rfl⟩
abbrev main_call4_v10 : Ref sig .tc := ⟨.hbm, 248, rfl⟩
abbrev main_call4_v11 : Ref sig .tc := ⟨.hbm, 249, rfl⟩
abbrev main_v149 : Ref sig .tc := ⟨.hbm, 250, rfl⟩
abbrev main_cst_32 : Ref sig .tc := ⟨.hbm, 251, rfl⟩
abbrev main_v150 : Ref sig .tc := ⟨.hbm, 252, rfl⟩
abbrev main_v151 : Ref sig .tc := ⟨.hbm, 253, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x1000_S50000_d1 : S50000x1000.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x1000_0_1 : S50000x1.BroadcastsInDim S50000x1000 (![0, 1] : Fin 2 → Fin S50000x1000.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  dot_S50000x1000_S1000x256_S50000x256_1_0_0_1_n_n_wf : DotDims.WF S50000x1000 S1000x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x32_S50000x32_1_0_0_1_n_n_wf : DotDims.WF S50000x256 S256x32 S50000x32 [1] [0] [0] [1] [] []

variable [Facts₀]

def dot_S50000x1000_S1000x256_S50000x256_1_0_0_1_n_n : DotDims S50000x1000 S1000x256 S50000x256 where
  lhsContracting := [1]
  rhsContracting := [0]
  lhsNonContracting := [0]
  rhsNonContracting := [1]
  lhsBatch := []
  rhsBatch := []
  wf := dot_S50000x1000_S1000x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf

class Facts : Prop extends Facts₀ where

variable [Facts]
-- ==== Proof.KRunHand.lean ====
/-
  The kernel program's run with every buffer's final contents named. The program is three kernel regions among
  stretches of host operations; run as that list of segments from the launch, each segment entered from what the one
  before it left, every weakly fair execution terminates, and at the end every unscoped buffer of every core holds
  the last boundary's contents: the fold of the host stretches and the regions' exits through the whole program.
  The start: the launch deals each core its unscoped buffers at the launch memory, its generator register and an
  empty debt, which is the first segment's thread state. The end: the last thread state holds every unscoped buffer
  whole at the last contents, and a buffer held whole beside the state's interpretation is what the memory holds.
-/
import proofs.«166412_j21423296872856_1_alg».proof.Proof.Gen.KernelIdeal.Frame
import Idealize.ShloMosaic.Lib.Pipeline.Regions

noncomputable section

namespace Cert.KernelIdeal.KRunHand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first thread state: every unscoped buffer at the launch contents, the generator register and the debt riding along. -/
abbrev T₀ (c : Dev nD) : sProp 𝕄 :=
  iprop(StableHlo.held (c : Thread nD τ) (Pipeline.ucRefs τ sig) (W0 m ρ c) ∗ R (F := F) c)

/-- What is read of core `c` at the end: every unscoped buffer holds the last boundary's contents. -/
abbrev QY (c : Dev nD) (s : MemSt nD τ sig (Elt F)) : Prop :=
  ∀ b ∈ Pipeline.ucRefs τ sig, s.mem ((c : Thread nD τ).1, b) = W10 m ρ c b

/-- The start on one core: what the launch deals it is the first thread state. -/
theorem start_core (c : Dev nD) :
    iprop((unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv)
      ⊢ (|={Set.univ}=> T₀ m ρ c : sProp 𝕄) := by
  rw [show (unscopedBufs c (fun b => m ((c : Thread nD τ).loc b)) : sProp 𝕄)
      = StableHlo.held (c : Thread nD τ) (Pipeline.ucRefs τ sig) (W0 m ρ c) from Pipeline.unscopedBufs_held c (W0 m ρ c)]
  iintro ⟨⟨Hh, -, HO, -, Hp, -⟩, -⟩
  imodintro
  isplitl [Hh]; · iexact Hh
  isplitl [Hp]; · iexists _; iexact Hp
  iexists ∅; iexact HO

/-- The end on one core: the last thread state beside a final state's interpretation says what the memory holds. -/
theorem final_core (c : Dev nD) (s' : Phys nD τ sig (Elt F)) :
    iprop(Tₙ m ρ c ∗ SI s') ⊢ (|={Set.univ}=> iprop(⌜QY m ρ c s'.mem⌝ ∗ SI s') : sProp 𝕄) := by
  dsimp only [Tₙ]
  unfold StableHlo.held
  iintro ⟨⟨Hh, -⟩, HSI⟩
  ihave H := (pointsTo_read_all (Pipeline.ucRefs τ sig) (fun b => ((c : Thread nD τ).1, b)) (fun b => W10 m ρ c b) s') $$ [Hh HSI]
  · isplitl [Hh]; · iexact Hh
    iexact HSI
  icases H with ⟨%h, HSI⟩
  imodintro
  isplitr; · ipureintro; exact h
  iexact HSI

-- the library theorem's implicit arguments are found by unifying its conclusion with this one, which takes unfolding
-- plain definitions in a metavariable's type
set_option backward.isDefEq.respectTransparency.types false in
/-- At the compiled mesh, for any float values, from any memory with zero counters: every weakly fair execution of the
    main function on the TensorCores terminates, and every final state has each unscoped TensorCore buffer at the last
    boundary's contents. -/
theorem run_all : θ_run defs (onTc (τ := τ) (main (F := F))) ⟨m, fun _ => 0, ρ⟩
    (fun r => ∀ (c : Dev nD) (b : Ref sig .tc), ¬ (Proc.devRef .tc b : DevRef τ sig).isScoped →
      r.2.mem ((c.tc : Thread nD τ).loc b) = Gen.W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := T₀ m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := Pipeline.initEach L lv fun c => start_core m ρ c)
    (QY := QY m ρ)
    (hfin := fun c s' => final_core m ρ c s')
    (hQ := fun _ h c b hb => h c _ (mem_uc b hb))

end Cert.KernelIdeal.KRunHand

end
-- ==== Proof.RefOps0.lean ====
/-
  The reference program's operations 1 … 60 (statements of its main function, window 0), as lists of host operations cut at the
  program's named stages; a called function's operations stand in its call's place, over the call's own buffers.
  For each list: every buffer it touches is a device buffer, no operation allocates, the buffers it writes, and
  that any other buffer keeps its contents through it.
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table, each as a vector: sources, destinations. -/
def segSrcDst : List (HloOp τ sig (Elt F)) :=
  [
    StableHlo.unary main_arg11 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg11 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

set_option maxRecDepth 8192 in
theorem segSrcDst_sub : (segSrcDst : List (HloOp τ sig (Elt F))).Forall fun op => op.bufs ⊆ tcRefs τ sig := by
  unfold segSrcDst
  exact ⟨unary_bufs_sub .., reshape_bufs_sub .., unary_bufs_sub .., reshape_bufs_sub ..⟩

set_option maxRecDepth 8192 in
theorem segSrcDst_fresh : ∀ op ∈ (segSrcDst : List (HloOp τ sig (Elt F))), op.fresh = ∅ := by
  unfold segSrcDst
  intro _ h; (repeat (cases h with | head => rfl | tail _ h => ?_)); exact nomatch h

/-- The buffers that `segSrcDst` writes, in order. -/
abbrev segSrcDst_W : List (Ref sig .tc) := [main_v0, main_v1, main_v2, main_v3]

set_option maxRecDepth 8192 in
theorem segSrcDst_writes : (segSrcDst : List (HloOp τ sig (Elt F))).Forall fun op => op.writes ⊆ (segSrcDst_W.map (Proc.devRef (τ := τ) .tc)).toFinset := by
  unfold segSrcDst
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segSrcDst` does not write keeps its contents through it. -/
theorem segSrcDst_keep (W : Valuation τ sig (Elt F)) (r : Ref sig .tc) (h : r ∉ segSrcDst_W) :
    after segSrcDst W (Proc.devRef .tc r) = W (Proc.devRef .tc r) :=
  after_of_writes_sub segSrcDst W segSrcDst_writes h

/-- Each row's total of the input, kept as a column. -/
def segRowTotal : List (HloOp τ sig (Elt F)) :=
  [
    StableHlo.nullary main_cst (constant S_ .f32 0x00000000#32),
    StableHlo.binary main_arg0 main_cst main_v4 ((fun x v => Host.reduceAdd x v reducesTo_S50000x1000_S50000_d1 h_S_) : (⟨S50000x1000, .f32⟩ : BufTy).Contents (Elt F) → (⟨S_, .f32⟩ : BufTy).Contents (Elt F) → (⟨S50000, .f32⟩ : BufTy).Contents (Elt F)),
    StableHlo.unary main_v4 main_v5 (broadcastInDim S50000x1 ![0] bcast_S50000_S50000x1_0 : (⟨S50000, .f32⟩ : BufTy).Contents (Elt F) → (⟨S50000x1, .f32⟩ : BufTy).Contents (Elt F)) ]

set_option maxRecDepth 8192 in
theorem segRowTotal_sub : (segRowTotal : List (HloOp τ sig (Elt F))).Forall fun op => op.bufs ⊆ tcRefs τ sig := by
  unfold segRowTotal
  exact ⟨nullary_bufs_sub .., binary_bufs_sub .., unary_bufs_sub ..⟩

set_option maxRecDepth 8192 in
theorem segRowTotal_fresh : ∀ op ∈ (segRowTotal : List (HloOp τ sig (Elt F))), op.fresh = ∅ := by
  unfold segRowTotal
  intro _ h; (repeat (cases h with | head => rfl | tail _ h => ?_)); exact nomatch h

/-- The buffers that `segRowTotal` writes, in order. -/
abbrev segRowTotal_W : List (Ref sig .tc) := [main_cst, main_v4, main_v5]

set_option maxRecDepth 8192 in
theorem segRowTotal_writes : (segRowTotal : List (HloOp τ sig (Elt F))).Forall fun op => op.writes ⊆ (segRowTotal_W.map (Proc.devRef (τ := τ) .tc)).toFinset := by
  unfold segRowTotal
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segRowTotal` does not write keeps its contents through it. -/
theorem segRowTotal_keep (W : Valuation τ sig (Elt F)) (r : Ref sig .tc) (h : r ∉ segRowTotal_W) :
    after segRowTotal W (Proc.devRef .tc r) = W (Proc.devRef .tc r) :=
  after_of_writes_sub segRowTotal W segRowTotal_writes h

/-- The input scaled to ten thousand per row, its log1p, projected by the first weight matrix. -/
def segProj1 : List (HloOp τ sig (Elt F)) :=
  [
    StableHlo.nullary main_cst_0 (constant S_ .f32 0x461C4000#32),
    StableHlo.unary main_cst_0 main_v6 (broadcastInDim S50000x1 ![] bcast_S_S50000x1 : (⟨S_, .f32⟩ : BufTy).Contents (Elt F) → (⟨S50000x1, .f32⟩ : BufTy).Contents (Elt F)),
    StableHlo.binary main_v6 main_v5 main_v7 (Host.divf : (⟨S50000x1, .f32⟩ : BufTy).Contents (Elt F) → (⟨S50000x1, .f32⟩ : BufTy).Contents (Elt F) → (⟨S50000x1, .f32⟩ : BufTy).Contents (Elt F)),
    StableHlo.unary main_v7 main_v8 (broadcastInDim S50000x1000 ![0, 1] bcast_S50000x1_S50000x1000_0_1 : (⟨S50000x1, .f32⟩ : BufTy).Contents (Elt F) → (⟨S50000x1000, .f32⟩ : BufTy).Contents (Elt F)),
    StableHlo.binary main_arg0 main_v8 main_v9 (mulf : (⟨S50000x1000, .f32⟩ : BufTy).Contents (Elt F) → (⟨S50000x1000, .f32⟩ : BufTy).Contents (Elt F) → (⟨S50000x1000, .f32⟩ : BufTy).Contents (Elt F)),
    StableHlo.unary main_v9 main_v10 (Host.log1p : (⟨S50000x1000, .f32⟩ : BufTy).Contents (Elt F) → (⟨S50000x1000, .f32⟩ : BufTy).Contents (Elt F)),
    StableHlo.binary main_v10 main_arg1 main_v11 ((fun l r => Host.dotGeneral dot_S50000x1000_S1000x256_S50000x256_1_0_0_1_n_n none l r) : (⟨S50000x1000, .f32⟩ : BufTy).Contents (Elt F) → (⟨S1000x256, .f32⟩ : BufTy).Contents (Elt F) → (⟨S50000x256, .f32⟩ : BufTy).Contents (Elt F)) ]

set_option maxRecDepth 8192 in
theorem segProj1_sub : (segProj1 : List (HloOp τ sig (Elt F))).Forall fun op => op.bufs ⊆ tcRefs τ sig := by
  unfold segProj1
  exact ⟨nullary_bufs_sub .., unary_bufs_sub .., binary_bufs_sub .., unary_bufs_sub .., binary_bufs_sub .., unary_bufs_sub .., binary_bufs_sub ..⟩

set_option maxRecDepth 8192 in
theorem segProj1_fresh : ∀ op ∈ (segProj1 : List (HloOp τ sig (Elt F))), op.fresh = ∅ := by
  unfold segProj1
  intro _ h; (repeat (cases h with | head => rfl | tail _ h => ?_)); exact nomatch h

/-- The buffers that `segProj1` writes, in order. -/
abbrev segProj1_W : List (Ref sig .tc) := [main_cst_0, main_v6, main_v7, main_v8, main_v9, main_v10, main_v11]

set_option maxRecDepth 8192 in
theorem segProj1_writes : (segProj1 : List (HloOp τ sig (Elt F))).Forall fun op => op.writes ⊆ (segProj1_W.map (Proc.devRef (τ := τ) .tc)).toFinset := by
  unfold segProj1
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segProj1` does not write keeps its contents through it. -/
theorem segProj1_keep (W : Valuation τ sig (Elt F)) (r : Ref sig .tc) (h : r ∉ segProj1_W) :
    after segProj1 W (Proc.devRef .tc r) = W (Proc.devRef .tc r) :=
  after_of_writes_sub segProj1 W segProj1_writes h

/-- First graph convolution, first part: degrees by scatter-add of ones, their rsqrt, the edge weights, the gathered rows scaled and scatter-added, the squared self weight. -/
def segGcn1a : List (HloOp τ sig (Elt F)) :=
  [
    StableHlo.nullary main_cst_1 (constant S_ .f32 0x3F800000#32),
    StableHlo.unary main_cst_1 main_v12 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_v3 main_v14 (broadcastInDim S800000x1 ![0] bcast_S800000_S800000x1_0 : (⟨S800000, .i32⟩ : BufTy).Contents (Elt F) → (⟨S800000x1, .i32⟩ : BufTy).Contents (Elt F)),
    StableHlo.ternary main_v13 main_v14 main_v12 main_v15 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v15 main_v16 main_v17 (addf : (⟨S50000, .f32⟩ : BufTy).Contents (Elt F) → (⟨S50000, .f32⟩ : BufTy).Contents (Elt F) → (⟨S50000, .f32⟩ : BufTy).Contents (Elt F)),
    StableHlo.unary main_v17 main_v18 (Host.rsqrt : (⟨S50000, .f32⟩ : BufTy).Contents (Elt F) → (⟨S50000, .f32⟩ : BufTy).Contents (Elt F)),
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_v1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v21 (broadcastInDim S800000 ![] bcast_S_S800000 : (⟨S_, .i32⟩ : BufTy).Contents (Elt F) → (⟨S800000, .i32⟩ : BufTy).Contents (Elt F)),
    StableHlo.binary main_v1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v18 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_5 (constantI S_ 32 0#32),
    StableHlo.unary main_c_5 main_v26 (broadcastInDim S800000 ![] bcast_S_S800000 : (⟨S_, .i32⟩ : BufTy).Contents (Elt F) → (⟨S800000, .i32⟩ : BufTy).Contents (Elt F)),
    StableHlo.binary main_v3 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v28 (broadcastInDim S800000 ![] bcast_S_S800000 : (⟨S_, .i32⟩ : BufTy).Contents (Elt F) → (⟨S800000, .i32⟩ : BufTy).Contents (Elt F)),
    StableHlo.binary main_v3 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v3 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_v18 main_v31 main_v32 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v25 main_v32 main_v33 (mulf : (⟨S800000, .f32⟩ : BufTy).Contents (Elt F) → (⟨S800000, .f32⟩ : BufTy).Contents (Elt F) → (⟨S800000, .f32⟩ : BufTy).Contents (Elt F)),
    StableHlo.nullary main_c_7 (constantI S_ 32 0#32),
    StableHlo.unary main_c_7 main_v34 (broadcastInDim S800000 ![] bcast_S_S800000 : (⟨S_, .i32⟩ : BufTy).Contents (Elt F) → (⟨S800000, .i32⟩ : BufTy).Contents (Elt F)),
    StableHlo.binary main_v1 main_v34 main_v35 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v36 (broadcastInDim S800000 ![] bcast_S_S800000 : (⟨S_, .i32⟩ : BufTy).Contents (Elt F) → (⟨S800000, .i32⟩ : BufTy).Contents (Elt F)),
    StableHlo.binary main_v1 main_v36 main_v37 (addi : (⟨S800000, .i32⟩ : BufTy).Contents (Elt F) → (⟨S800000, .i32⟩ : BufTy).Contents (Elt F) → (⟨S800000, .i32⟩ : BufTy).Contents (Elt F)),
    StableHlo.ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v38 main_v39 (broadcastInDim S800000x1 ![0] bcast_S800000_S800000x1_0 : (⟨S800000, .i32⟩ : BufTy).Contents (Elt F) → (⟨S800000x1, .i32⟩ : BufTy).Contents (Elt F)),
    StableHlo.binary main_v11 main_v39 main_v40 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v33 main_v41 (broadcastInDim S800000x1 ![0] bcast_S800000_S800000x1_0 : (⟨S800000, .f32⟩ : BufTy).Contents (Elt F) → (⟨S800000x1, .f32⟩ : BufTy).Contents (Elt F)),
    StableHlo.unary main_v41 main_v42 (broadcastInDim S800000x256 ![0, 1] bcast_S800000x1_S800000x256_0_1 : (⟨S800000x1, .f32⟩ : BufTy).Contents (Elt F) → (⟨S800000x256, .f32⟩ : BufTy).Contents (Elt F)),
    StableHlo.binary main_v40 main_v42 main_v43 (mulf : (⟨S800000x256, .f32⟩ : BufTy).Contents (Elt F) → (⟨S800000x256, .f32⟩ : BufTy).Contents (Elt F) → (⟨S800000x256, .f32⟩ : BufTy).Contents (Elt F)),
    StableHlo.nullary main_cst_9 (constant S_ .f32 0x00000000#32),
    StableHlo.unary main_cst_9 main_v44 (broadcastInDim S50000x256 ![] bcast_S_S50000x256 : (⟨S_, .f32⟩ : BufTy).Contents (Elt F) → (⟨S50000x256, .f32⟩ : BufTy).Contents (Elt F)),
    StableHlo.unary main_v3 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v18 main_v18 main_v47 (mulf : (⟨S50000, .f32⟩ : BufTy).Contents (Elt F) → (⟨S50000, .f32⟩ : BufTy).Contents (Elt F) → (⟨S50000, .f32⟩ : BufTy).Contents (Elt F)) ]

set_option maxRecDepth 8192 in
theorem segGcn1a_sub : (segGcn1a : List (HloOp τ sig (Elt F))).Forall fun op => op.bufs ⊆ tcRefs τ sig := by
  unfold segGcn1a
  exact ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub ..⟩

set_option maxRecDepth 8192 in
theorem segGcn1a_fresh : ∀ op ∈ (segGcn1a : List (HloOp τ sig (Elt F))), op.fresh = ∅ := by
  unfold segGcn1a
  intro _ h; (repeat (cases h with | head => rfl | tail _ h => ?_)); exact nomatch h

/-- The buffers that `segGcn1a` writes, in order. -/
abbrev segGcn1a_W : List (Ref sig .tc) := [main_cst_1, main_v12, main_cst_2, main_v13, main_v14, main_v15, main_cst_3, main_v16, main_v17, main_v18, main_c, main_v19, main_v20, main_c_4, main_v21, main_v22, main_v23, main_v24, main_v25, main_c_5, main_v26, main_v27, main_c_6, main_v28, main_v29, main_v30, main_v31, main_v32, main_v33, main_c_7, main_v34, main_v35, main_c_8, main_v36, main_v37, main_v38, main_v39, main_v40, main_v41, main_v42, main_v43, main_cst_9, main_v44, main_v45, main_v46, main_v47]

set_option maxRecDepth 8192 in
theorem segGcn1a_writes : (segGcn1a : List (HloOp τ sig (Elt F))).Forall fun op => op.writes ⊆ (segGcn1a_W.map (Proc.devRef (τ := τ) .tc)).toFinset := by
  unfold segGcn1a
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segGcn1a` does not write keeps its contents through it. -/
theorem segGcn1a_keep (W : Valuation τ sig (Elt F)) (r : Ref sig .tc) (h : r ∉ segGcn1a_W) :
    after segGcn1a W (Proc.devRef .tc r) = W (Proc.devRef .tc r) :=
  after_of_writes_sub segGcn1a W segGcn1a_writes h

/-- Window 0 of the program: its stages' lists, in order. -/
def ops0 : List (HloOp τ sig (Elt F)) := segSrcDst ++ (segRowTotal ++ (segProj1 ++ (segGcn1a)))

set_option maxRecDepth 8192 in
set_option maxHeartbeats 4000000 in
/-- The window is that straight line. -/
theorem part0_eq (c : Dev nD) : main_part0 (F := F) c = seq ops0 := by
  rfl

theorem ops0_sub : (ops0 : List (HloOp τ sig (Elt F))).Forall fun op => op.bufs ⊆ tcRefs τ sig :=
  List.forall_iff_forall_mem.mpr fun op h => by
    simp only [ops0, List.mem_append] at h
    rcases h with h | h | h | h
    exacts [List.forall_iff_forall_mem.mp segSrcDst_sub op h, List.forall_iff_forall_mem.mp segRowTotal_sub op h, List.forall_iff_forall_mem.mp segProj1_sub op h, List.forall_iff_forall_mem.mp segGcn1a_sub op h]

theorem ops0_fresh : ∀ op ∈ (ops0 : List (HloOp τ sig (Elt F))), op.fresh = ∅ := fun op h => by
  simp only [ops0, List.mem_append] at h
  rcases h with h | h | h | h
  exacts [segSrcDst_fresh op h, segRowTotal_fresh op h, segProj1_fresh op h, segGcn1a_fresh op h]

end Cert.ReferenceIdeal.RefRun

end
-- ==== Proof.RefOps1.lean ====
/-
  The reference program's operations 61 … 120 (statements of its main function, window 1), as lists of host operations cut at the
  program's named stages; a called function's operations stand in its call's place, over the call's own buffers.
  For each list: every buffer it touches is a device buffer, no operation allocates, the buffers it writes, and
  that any other buffer keeps its contents through it.
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- First graph convolution, last part: the self term added. -/
def segGcn1b : List (HloOp τ sig (Elt F)) :=
  [
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (broadcastInDim S50000x256 ![0, 1] bcast_S50000x1_S50000x256_0_1 : (⟨S50000x1, .f32⟩ : BufTy).Contents (Elt F) → (⟨S50000x256, .f32⟩ : BufTy).Contents (Elt F)),
    StableHlo.binary main_v49 main_v11 main_v50 (mulf : (⟨S50000x256, .f32⟩ : BufTy).Contents (Elt F) → (⟨S50000x256, .f32⟩ : BufTy).Contents (Elt F) → (⟨S50000x256, .f32⟩ : BufTy).Contents (Elt F)),
    StableHlo.binary main_v46 main_v50 main_v51 (addf : (⟨S50000x256, .f32⟩ : BufTy).Contents (Elt F) → (⟨S50000x256, .f32⟩ : BufTy).Contents (Elt F) → (⟨S50000x256, .f32⟩ : BufTy).Contents (Elt F)) ]

set_option maxRecDepth 8192 in
theorem segGcn1b_sub : (segGcn1b : List (HloOp τ sig (Elt F))).Forall fun op => op.bufs ⊆ tcRefs τ sig := by
  unfold segGcn1b
  exact ⟨unary_bufs_sub .., unary_bufs_sub .., binary_bufs_sub .., binary_bufs_sub ..⟩

set_option maxRecDepth 8192 in
theorem segGcn1b_fresh : ∀ op ∈ (segGcn1b : List (HloOp τ sig (Elt F))), op.fresh = ∅ := by
  unfold segGcn1b
  intro _ h; (repeat (cases h with | head => rfl | tail _ h => ?_)); exact nomatch h

/-- The buffers that `segGcn1b` writes, in order. -/
abbrev segGcn1b_W : List (Ref sig .tc) := [main_v48, main_v49, main_v50, main_v51]

set_option maxRecDepth 8192 in
theorem segGcn1b_writes : (segGcn1b : List (HloOp τ sig (Elt F))).Forall fun op => op.writes ⊆ (segGcn1b_W.map (Proc.devRef (τ := τ) .tc)).toFinset := by
  unfold segGcn1b
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segGcn1b` does not write keeps its contents through it. -/
theorem segGcn1b_keep (W : Valuation τ sig (Elt F)) (r : Ref sig .tc) (h : r ∉ segGcn1b_W) :
    after segGcn1b W (Proc.devRef .tc r) = W (Proc.devRef .tc r) :=
  after_of_writes_sub segGcn1b W segGcn1b_writes h

/-- Column means of the first convolution. -/
def segMean1 : List (HloOp τ sig (Elt F)) :=
  [
    StableHlo.nullary main_cst_10 (constant S_ .f32 0x00000000#32),
    StableHlo.binary main_v51 main_cst_10 main_v52 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_11 (constant S_ .f32 0x47435000#32),
    StableHlo.unary main_cst_11 main_v53 (broadcastInDim S256 ![] bcast_S_S256 : (⟨S_, .f32⟩ : BufTy).Contents (Elt F) → (⟨S256, .f32⟩ : BufTy).Contents (Elt F)),
    StableHlo.binary main_v52 main_v53 main_v54 (Host.divf : (⟨S256, .f32⟩ : BufTy).Contents (Elt F) → (⟨S256, .f32⟩ : BufTy).Contents (Elt F) → (⟨S256, .f32⟩ : BufTy).Contents (Elt F)) ]

set_option maxRecDepth 8192 in
theorem segMean1_sub : (segMean1 : List (HloOp τ sig (Elt F))).Forall fun op => op.bufs ⊆ tcRefs τ sig := by
  unfold segMean1
  exact ⟨nullary_bufs_sub .., binary_bufs_sub .., nullary_bufs_sub .., unary_bufs_sub .., binary_bufs_sub ..⟩

set_option maxRecDepth 8192 in
theorem segMean1_fresh : ∀ op ∈ (segMean1 : List (HloOp τ sig (Elt F))), op.fresh = ∅ := by
  unfold segMean1
  intro _ h; (repeat (cases h with | head => rfl | tail _ h => ?_)); exact nomatch h

/-- The buffers that `segMean1` writes, in order. -/
abbrev segMean1_W : List (Ref sig .tc) := [main_cst_10, main_v52, main_cst_11, main_v53, main_v54]

set_option maxRecDepth 8192 in
theorem segMean1_writes : (segMean1 : List (HloOp τ sig (Elt F))).Forall fun op => op.writes ⊆ (segMean1_W.map (Proc.devRef (τ := τ) .tc)).toFinset := by
  unfold segMean1
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segMean1` does not write keeps its contents through it. -/
theorem segMean1_keep (W : Valuation τ sig (Elt F)) (r : Ref sig .tc) (h : r ∉ segMean1_W) :
    after segMean1 W (Proc.devRef .tc r) = W (Proc.devRef .tc r) :=
  after_of_writes_sub segMean1 W segMean1_writes h

/-- Column variances of the first convolution (the called variance function's operations, then the called select's). -/
def segVar1 : List (HloOp τ sig (Elt F)) :=
  [
    StableHlo.nullary main_c_12 (constantI S_ 32 0#32),
    StableHlo.TRef.nullary main_call0.cst (constant S_ .f32 0x00000000#32),
    StableHlo.TRef.binary (.of main_v51 : TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v51 : TRef sig ⟨S50000x256, .f32⟩) main_call0.v4 main_call0.v5 subf,
    StableHlo.TRef.binary main_call0.v5 main_call0.v5 main_call0.v6 mulf,
    StableHlo.TRef.unary (.of main_c_12 : TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

set_option maxRecDepth 8192 in
theorem segVar1_sub : (segVar1 : List (HloOp τ sig (Elt F))).Forall fun op => op.bufs ⊆ tcRefs τ sig := by
  unfold segVar1
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem segVar1_fresh : ∀ op ∈ (segVar1 : List (HloOp τ sig (Elt F))), op.fresh = ∅ := by
  unfold segVar1
  intro _ h; (repeat (cases h with | head => rfl | tail _ h => ?_)); exact nomatch h

/-- The buffers that `segVar1` writes, in order. -/
abbrev segVar1_W : List (Ref sig .tc) := [main_c_12, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]

set_option maxRecDepth 8192 in
theorem segVar1_writes : (segVar1 : List (HloOp τ sig (Elt F))).Forall fun op => op.writes ⊆ (segVar1_W.map (Proc.devRef (τ := τ) .tc)).toFinset := by
  unfold segVar1
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segVar1` does not write keeps its contents through it. -/
theorem segVar1_keep (W : Valuation τ sig (Elt F)) (r : Ref sig .tc) (h : r ∉ segVar1_W) :
    after segVar1 W (Proc.devRef .tc r) = W (Proc.devRef .tc r) :=
  after_of_writes_sub segVar1 W segVar1_writes h

/-- First normalization, affine map and leaky activation (the called select's one operation last). -/
def segBn1 : List (HloOp τ sig (Elt F)) :=
  [
    StableHlo.unary main_v54 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v51 main_v57 main_v58 (subf : (⟨S50000x256, .f32⟩ : BufTy).Contents (Elt F) → (⟨S50000x256, .f32⟩ : BufTy).Contents (Elt F) → (⟨S50000x256, .f32⟩ : BufTy).Contents (Elt F)),
    StableHlo.unary main_arg2 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S50000x256 ![0, 1] bcast_S1x256_S50000x256_0_1 : (⟨S1x256, .f32⟩ : BufTy).Contents (Elt F) → (⟨S50000x256, .f32⟩ : BufTy).Contents (Elt F)),
    StableHlo.binary main_v60 main_v58 main_v61 (mulf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3727C5AC#32),
    StableHlo.unary main_cst_13 main_v62 (broadcastInDim S256 ![] bcast_S_S256 : (⟨S_, .f32⟩ : BufTy).Contents (Elt F) → (⟨S256, .f32⟩ : BufTy).Contents (Elt F)),
    StableHlo.binary main_v55 main_v62 main_v63 (addf : (⟨S256, .f32⟩ : BufTy).Contents (Elt F) → (⟨S256, .f32⟩ : BufTy).Contents (Elt F) → (⟨S256, .f32⟩ : BufTy).Contents (Elt F)),
    StableHlo.unary main_v63 main_v64 (Host.rsqrt : (⟨S256, .f32⟩ : BufTy).Contents (Elt F) → (⟨S256, .f32⟩ : BufTy).Contents (Elt F)),
    StableHlo.unary main_v64 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v66 main_v67 (mulf : (⟨S50000x256, .f32⟩ : BufTy).Contents (Elt F) → (⟨S50000x256, .f32⟩ : BufTy).Contents (Elt F) → (⟨S50000x256, .f32⟩ : BufTy).Contents (Elt F)),
    StableHlo.unary main_arg3 main_v68 (broadcastInDim S1x256 ![1] bcast_S256_S1x256_1 : (⟨S256, .f32⟩ : BufTy).Contents (Elt F) → (⟨S1x256, .f32⟩ : BufTy).Contents (Elt F)),
    StableHlo.unary main_v68 main_v69 (broadcastInDim S50000x256 ![0, 1] bcast_S1x256_S50000x256_0_1 : (⟨S1x256, .f32⟩ : BufTy).Contents (Elt F) → (⟨S50000x256, .f32⟩ : BufTy).Contents (Elt F)),
    StableHlo.binary main_v67 main_v69 main_v70 (addf : (⟨S50000x256, .f32⟩ : BufTy).Contents (Elt F) → (⟨S50000x256, .f32⟩ : BufTy).Contents (Elt F) → (⟨S50000x256, .f32⟩ : BufTy).Contents (Elt F)),
    StableHlo.nullary main_cst_14 (constant S_ .f32 0x00000000#32),
    StableHlo.unary main_cst_14 main_v71 (broadcastInDim S50000x256 ![] bcast_S_S50000x256 : (⟨S_, .f32⟩ : BufTy).Contents (Elt F) → (⟨S50000x256, .f32⟩ : BufTy).Contents (Elt F)),
    StableHlo.binary main_v70 main_v71 main_v72 (cmpf .oge : (⟨S50000x256, .f32⟩ : BufTy).Contents (Elt F) → (⟨S50000x256, .f32⟩ : BufTy).Contents (Elt F) → (⟨S50000x256, .i1⟩ : BufTy).Contents (Elt F)),
    StableHlo.nullary main_cst_15 (constant S_ .f32 0x3E4CCCCD#32),
    StableHlo.unary main_cst_15 main_v73 (broadcastInDim S50000x256 ![] bcast_S_S50000x256 : (⟨S_, .f32⟩ : BufTy).Contents (Elt F) → (⟨S50000x256, .f32⟩ : BufTy).Contents (Elt F)),
    StableHlo.binary main_v73 main_v70 main_v74 (mulf : (⟨S50000x256, .f32⟩ : BufTy).Contents (Elt F) → (⟨S50000x256, .f32⟩ : BufTy).Contents (Elt F) → (⟨S50000x256, .f32⟩ : BufTy).Contents (Elt F)),
    StableHlo.TRef.ternary (.of main_v72 : TRef sig ⟨S50000x256, .i1⟩) (.of main_v70 : TRef sig ⟨S50000x256, .f32⟩) (.of main_v74 : TRef sig ⟨S50000x256, .f32⟩) main_call1.v0 select ]

set_option maxRecDepth 8192 in
theorem segBn1_sub : (segBn1 : List (HloOp τ sig (Elt F))).Forall fun op => op.bufs ⊆ tcRefs τ sig := by
  unfold segBn1
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
theorem segBn1_fresh : ∀ op ∈ (segBn1 : List (HloOp τ sig (Elt F))), op.fresh = ∅ := by
  unfold segBn1
  intro _ h; (repeat (cases h with | head => rfl | tail _ h => ?_)); exact nomatch h

/-- The buffers that `segBn1` writes, in order. -/
abbrev segBn1_W : List (Ref sig .tc) := [main_v56, main_v57, main_v58, main_v59, main_v60, main_v61, main_cst_13, main_v62, main_v63, main_v64, main_v65, main_v66, main_v67, main_v68, main_v69, main_v70, main_cst_14, main_v71, main_v72, main_cst_15, main_v73, main_v74, main_call1.v0.ref]

set_option maxRecDepth 8192 in
theorem segBn1_writes : (segBn1 : List (HloOp τ sig (Elt F))).Forall fun op => op.writes ⊆ (segBn1_W.map (Proc.devRef (τ := τ) .tc)).toFinset := by
  unfold segBn1
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segBn1` does not write keeps its contents through it. -/
theorem segBn1_keep (W : Valuation τ sig (Elt F)) (r : Ref sig .tc) (h : r ∉ segBn1_W) :
    after segBn1 W (Proc.devRef .tc r) = W (Proc.devRef .tc r) :=
  after_of_writes_sub segBn1 W segBn1_writes h

/-- Projection by the second weight matrix. -/
def segProj2 : List (HloOp τ sig (Elt F)) :=
  [
    StableHlo.binary main_v75 main_arg4 main_v76 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

set_option maxRecDepth 8192 in
theorem segProj2_sub : (segProj2 : List (HloOp τ sig (Elt F))).Forall fun op => op.bufs ⊆ tcRefs τ sig := by
  unfold segProj2
  exact (binary_bufs_sub ..)

set_option maxRecDepth 8192 in
theorem segProj2_fresh : ∀ op ∈ (segProj2 : List (HloOp τ sig (Elt F))), op.fresh = ∅ := by
  unfold segProj2
  intro _ h; (repeat (cases h with | head => rfl | tail _ h => ?_)); exact nomatch h

/-- The buffers that `segProj2` writes, in order. -/
abbrev segProj2_W : List (Ref sig .tc) := [main_v76]

set_option maxRecDepth 8192 in
theorem segProj2_writes : (segProj2 : List (HloOp τ sig (Elt F))).Forall fun op => op.writes ⊆ (segProj2_W.map (Proc.devRef (τ := τ) .tc)).toFinset := by
  unfold segProj2
  simp only [List.Forall]
  exact (by simp only [nullary_writes, unary_writes, binary_writes, ternary_writes, reshape_writes, Finset.singleton_subset_iff, List.mem_toFinset]; exact List.mem_map_of_mem (by decide))

/-- A buffer that `segProj2` does not write keeps its contents through it. -/
theorem segProj2_keep (W : Valuation τ sig (Elt F)) (r : Ref sig .tc) (h : r ∉ segProj2_W) :
    after segProj2 W (Proc.devRef .tc r) = W (Proc.devRef .tc r) :=
  after_of_writes_sub segProj2 W segProj2_writes h

/-- Second graph convolution, first part. -/
def segGcn2a : List (HloOp τ sig (Elt F)) :=
  [
    StableHlo.nullary main_cst_16 (constant S_ .f32 0x3F800000#32),
    StableHlo.unary main_cst_16 main_v77 (broadcastInDim S800000 ![] bcast_S_S800000 : (⟨S_, .f32⟩ : BufTy).Contents (Elt F) → (⟨S800000, .f32⟩ : BufTy).Contents (Elt F)),
    StableHlo.nullary main_cst_17 (constant S_ .f32 0x00000000#32),
    StableHlo.unary main_cst_17 main_v78 (broadcastInDim S50000 ![] bcast_S_S50000 : (⟨S_, .f32⟩ : BufTy).Contents (Elt F) → (⟨S50000, .f32⟩ : BufTy).Contents (Elt F)),
    StableHlo.unary main_v3 main_v79 (broadcastInDim S800000x1 ![0] bcast_S800000_S800000x1_0 : (⟨S800000, .i32⟩ : BufTy).Contents (Elt F) → (⟨S800000x1, .i32⟩ : BufTy).Contents (Elt F)),
    StableHlo.ternary main_v78 main_v79 main_v77 main_v80 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_18 (constant S_ .f32 0x3F800000#32),
    StableHlo.unary main_cst_18 main_v81 (broadcastInDim S50000 ![] bcast_S_S50000 : (⟨S_, .f32⟩ : BufTy).Contents (Elt F) → (⟨S50000, .f32⟩ : BufTy).Contents (Elt F)),
    StableHlo.binary main_v80 main_v81 main_v82 (addf : (⟨S50000, .f32⟩ : BufTy).Contents (Elt F) → (⟨S50000, .f32⟩ : BufTy).Contents (Elt F) → (⟨S50000, .f32⟩ : BufTy).Contents (Elt F)),
    StableHlo.unary main_v82 main_v83 (Host.rsqrt : (⟨S50000, .f32⟩ : BufTy).Contents (Elt F) → (⟨S50000, .f32⟩ : BufTy).Contents (Elt F)),
    StableHlo.nullary main_c_19 (constantI S_ 32 0#32),
    StableHlo.unary main_c_19 main_v84 (broadcastInDim S800000 ![] bcast_S_S800000 : (⟨S_, .i32⟩ : BufTy).Contents (Elt F) → (⟨S800000, .i32⟩ : BufTy).Contents (Elt F)),
    StableHlo.binary main_v1 main_v84 main_v85 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v86 (broadcastInDim S800000 ![] bcast_S_S800000 : (⟨S_, .i32⟩ : BufTy).Contents (Elt F) → (⟨S800000, .i32⟩ : BufTy).Contents (Elt F)),
    StableHlo.binary main_v1 main_v86 main_v87 (addi : (⟨S800000, .i32⟩ : BufTy).Contents (Elt F) → (⟨S800000, .i32⟩ : BufTy).Contents (Elt F) → (⟨S800000, .i32⟩ : BufTy).Contents (Elt F)),
    StableHlo.ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v88 main_v89 (broadcastInDim S800000x1 ![0] bcast_S800000_S800000x1_0 : (⟨S800000, .i32⟩ : BufTy).Contents (Elt F) → (⟨S800000x1, .i32⟩ : BufTy).Contents (Elt F)),
    StableHlo.binary main_v83 main_v89 main_v90 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_21 (constantI S_ 32 0#32),
    StableHlo.unary main_c_21 main_v91 (broadcastInDim S800000 ![] bcast_S_S800000 : (⟨S_, .i32⟩ : BufTy).Contents (Elt F) → (⟨S800000, .i32⟩ : BufTy).Contents (Elt F)),
    StableHlo.binary main_v3 main_v91 main_v92 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v93 (broadcastInDim S800000 ![] bcast_S_S800000 : (⟨S_, .i32⟩ : BufTy).Contents (Elt F) → (⟨S800000, .i32⟩ : BufTy).Contents (Elt F)),
    StableHlo.binary main_v3 main_v93 main_v94 (addi : (⟨S800000, .i32⟩ : BufTy).Contents (Elt F) → (⟨S800000, .i32⟩ : BufTy).Contents (Elt F) → (⟨S800000, .i32⟩ : BufTy).Contents (Elt F)) ]

set_option maxRecDepth 8192 in
theorem segGcn2a_sub : (segGcn2a : List (HloOp τ sig (Elt F))).Forall fun op => op.bufs ⊆ tcRefs τ sig := by
  unfold segGcn2a
  exact ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩

set_option maxRecDepth 8192 in
theorem segGcn2a_fresh : ∀ op ∈ (segGcn2a : List (HloOp τ sig (Elt F))), op.fresh = ∅ := by
  unfold segGcn2a
  intro _ h; (repeat (cases h with | head => rfl | tail _ h => ?_)); exact nomatch h

/-- The buffers that `segGcn2a` writes, in order. -/
abbrev segGcn2a_W : List (Ref sig .tc) := [main_cst_16, main_v77, main_cst_17, main_v78, main_v79, main_v80, main_cst_18, main_v81, main_v82, main_v83, main_c_19, main_v84, main_v85, main_c_20, main_v86, main_v87, main_v88, main_v89, main_v90, main_c_21, main_v91, main_v92, main_c_22, main_v93, main_v94]

set_option maxRecDepth 8192 in
theorem segGcn2a_writes : (segGcn2a : List (HloOp τ sig (Elt F))).Forall fun op => op.writes ⊆ (segGcn2a_W.map (Proc.devRef (τ := τ) .tc)).toFinset := by
  unfold segGcn2a
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segGcn2a` does not write keeps its contents through it. -/
theorem segGcn2a_keep (W : Valuation τ sig (Elt F)) (r : Ref sig .tc) (h : r ∉ segGcn2a_W) :
    after segGcn2a W (Proc.devRef .tc r) = W (Proc.devRef .tc r) :=
  after_of_writes_sub segGcn2a W segGcn2a_writes h

/-- Window 1 of the program: its stages' lists, in order. -/
def ops1 : List (HloOp τ sig (Elt F)) := segGcn1b ++ (segMean1 ++ (segVar1 ++ (segBn1 ++ (segProj2 ++ (segGcn2a)))))

set_option maxRecDepth 8192 in
set_option maxHeartbeats 4000000 in
/-- The window is that straight line: the called functions' definitions unfolded at their calls and the records at their fields, both sides are one chain of steps once sequencing is reassociated. -/
theorem part1_eq (c : Dev nD) : main_part1 (F := F) c = seq ops1 := by
  simp only [main_part1, fn_var.body, fn_where.body, fn_where_0.body, bind_assoc, pure_bind]
  rfl

theorem ops1_sub : (ops1 : List (HloOp τ sig (Elt F))).Forall fun op => op.bufs ⊆ tcRefs τ sig :=
  List.forall_iff_forall_mem.mpr fun op h => by
    simp only [ops1, List.mem_append] at h
    rcases h with h | h | h | h | h | h
    exacts [List.forall_iff_forall_mem.mp segGcn1b_sub op h, List.forall_iff_forall_mem.mp segMean1_sub op h, List.forall_iff_forall_mem.mp segVar1_sub op h, List.forall_iff_forall_mem.mp segBn1_sub op h, List.forall_iff_forall_mem.mp segProj2_sub op h, List.forall_iff_forall_mem.mp segGcn2a_sub op h]

theorem ops1_fresh : ∀ op ∈ (ops1 : List (HloOp τ sig (Elt F))), op.fresh = ∅ := fun op h => by
  simp only [ops1, List.mem_append] at h
  rcases h with h | h | h | h | h | h
  exacts [segGcn1b_fresh op h, segMean1_fresh op h, segVar1_fresh op h, segBn1_fresh op h, segProj2_fresh op h, segGcn2a_fresh op h]

end Cert.ReferenceIdeal.RefRun

end
-- ==== Proof.RefOps2.lean ====
/-
  The reference program's operations 121 … 180 (statements of its main function, window 2), as lists of host operations cut at the
  program's named stages; a called function's operations stand in its call's place, over the call's own buffers.
  For each list: every buffer it touches is a device buffer, no operation allocates, the buffers it writes, and
  that any other buffer keeps its contents through it.
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Second graph convolution, last part. -/
def segGcn2b : List (HloOp τ sig (Elt F)) :=
  [
    StableHlo.ternary main_v92 main_v94 main_v3 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v95 main_v96 (broadcastInDim S800000x1 ![0] bcast_S800000_S800000x1_0 : (⟨S800000, .i32⟩ : BufTy).Contents (Elt F) → (⟨S800000x1, .i32⟩ : BufTy).Contents (Elt F)),
    StableHlo.binary main_v83 main_v96 main_v97 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v90 main_v97 main_v98 (mulf : (⟨S800000, .f32⟩ : BufTy).Contents (Elt F) → (⟨S800000, .f32⟩ : BufTy).Contents (Elt F) → (⟨S800000, .f32⟩ : BufTy).Contents (Elt F)),
    StableHlo.nullary main_c_23 (constantI S_ 32 0#32),
    StableHlo.unary main_c_23 main_v99 (broadcastInDim S800000 ![] bcast_S_S800000 : (⟨S_, .i32⟩ : BufTy).Contents (Elt F) → (⟨S800000, .i32⟩ : BufTy).Contents (Elt F)),
    StableHlo.binary main_v1 main_v99 main_v100 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v101 (broadcastInDim S800000 ![] bcast_S_S800000 : (⟨S_, .i32⟩ : BufTy).Contents (Elt F) → (⟨S800000, .i32⟩ : BufTy).Contents (Elt F)),
    StableHlo.binary main_v1 main_v101 main_v102 (addi : (⟨S800000, .i32⟩ : BufTy).Contents (Elt F) → (⟨S800000, .i32⟩ : BufTy).Contents (Elt F) → (⟨S800000, .i32⟩ : BufTy).Contents (Elt F)),
    StableHlo.ternary main_v100 main_v102 main_v1 main_v103 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v103 main_v104 (broadcastInDim S800000x1 ![0] bcast_S800000_S800000x1_0 : (⟨S800000, .i32⟩ : BufTy).Contents (Elt F) → (⟨S800000x1, .i32⟩ : BufTy).Contents (Elt F)),
    StableHlo.binary main_v76 main_v104 main_v105 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v98 main_v106 (broadcastInDim S800000x1 ![0] bcast_S800000_S800000x1_0 : (⟨S800000, .f32⟩ : BufTy).Contents (Elt F) → (⟨S800000x1, .f32⟩ : BufTy).Contents (Elt F)),
    StableHlo.unary main_v106 main_v107 (broadcastInDim S800000x256 ![0, 1] bcast_S800000x1_S800000x256_0_1 : (⟨S800000x1, .f32⟩ : BufTy).Contents (Elt F) → (⟨S800000x256, .f32⟩ : BufTy).Contents (Elt F)),
    StableHlo.binary main_v105 main_v107 main_v108 (mulf : (⟨S800000x256, .f32⟩ : BufTy).Contents (Elt F) → (⟨S800000x256, .f32⟩ : BufTy).Contents (Elt F) → (⟨S800000x256, .f32⟩ : BufTy).Contents (Elt F)),
    StableHlo.nullary main_cst_25 (constant S_ .f32 0x00000000#32),
    StableHlo.unary main_cst_25 main_v109 (broadcastInDim S50000x256 ![] bcast_S_S50000x256 : (⟨S_, .f32⟩ : BufTy).Contents (Elt F) → (⟨S50000x256, .f32⟩ : BufTy).Contents (Elt F)),
    StableHlo.unary main_v3 main_v110 (broadcastInDim S800000x1 ![0] bcast_S800000_S800000x1_0 : (⟨S800000, .i32⟩ : BufTy).Contents (Elt F) → (⟨S800000x1, .i32⟩ : BufTy).Contents (Elt F)),
    StableHlo.ternary main_v109 main_v110 main_v108 main_v111 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v83 main_v83 main_v112 (mulf : (⟨S50000, .f32⟩ : BufTy).Contents (Elt F) → (⟨S50000, .f32⟩ : BufTy).Contents (Elt F) → (⟨S50000, .f32⟩ : BufTy).Contents (Elt F)),
    StableHlo.unary main_v112 main_v113 (broadcastInDim S50000x1 ![0] bcast_S50000_S50000x1_0 : (⟨S50000, .f32⟩ : BufTy).Contents (Elt F) → (⟨S50000x1, .f32⟩ : BufTy).Contents (Elt F)),
    StableHlo.unary main_v113 main_v114 (broadcastInDim S50000x256 ![0, 1] bcast_S50000x1_S50000x256_0_1 : (⟨S50000x1, .f32⟩ : BufTy).Contents (Elt F) → (⟨S50000x256, .f32⟩ : BufTy).Contents (Elt F)),
    StableHlo.binary main_v114 main_v76 main_v115 (mulf : (⟨S50000x256, .f32⟩ : BufTy).Contents (Elt F) → (⟨S50000x256, .f32⟩ : BufTy).Contents (Elt F) → (⟨S50000x256, .f32⟩ : BufTy).Contents (Elt F)),
    StableHlo.binary main_v111 main_v115 main_v116 (addf : (⟨S50000x256, .f32⟩ : BufTy).Contents (Elt F) → (⟨S50000x256, .f32⟩ : BufTy).Contents (Elt F) → (⟨S50000x256, .f32⟩ : BufTy).Contents (Elt F)) ]

set_option maxRecDepth 8192 in
theorem segGcn2b_sub : (segGcn2b : List (HloOp τ sig (Elt F))).Forall fun op => op.bufs ⊆ tcRefs τ sig := by
  unfold segGcn2b
  exact ⟨ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub ..⟩

set_option maxRecDepth 8192 in
theorem segGcn2b_fresh : ∀ op ∈ (segGcn2b : List (HloOp τ sig (Elt F))), op.fresh = ∅ := by
  unfold segGcn2b
  intro _ h; (repeat (cases h with | head => rfl | tail _ h => ?_)); exact nomatch h

/-- The buffers that `segGcn2b` writes, in order. -/
abbrev segGcn2b_W : List (Ref sig .tc) := [main_v95, main_v96, main_v97, main_v98, main_c_23, main_v99, main_v100, main_c_24, main_v101, main_v102, main_v103, main_v104, main_v105, main_v106, main_v107, main_v108, main_cst_25, main_v109, main_v110, main_v111, main_v112, main_v113, main_v114, main_v115, main_v116]

set_option maxRecDepth 8192 in
theorem segGcn2b_writes : (segGcn2b : List (HloOp τ sig (Elt F))).Forall fun op => op.writes ⊆ (segGcn2b_W.map (Proc.devRef (τ := τ) .tc)).toFinset := by
  unfold segGcn2b
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segGcn2b` does not write keeps its contents through it. -/
theorem segGcn2b_keep (W : Valuation τ sig (Elt F)) (r : Ref sig .tc) (h : r ∉ segGcn2b_W) :
    after segGcn2b W (Proc.devRef .tc r) = W (Proc.devRef .tc r) :=
  after_of_writes_sub segGcn2b W segGcn2b_writes h

/-- Column means of the second convolution. -/
def segMean2 : List (HloOp τ sig (Elt F)) :=
  [
    StableHlo.nullary main_cst_26 (constant S_ .f32 0x00000000#32),
    StableHlo.binary main_v116 main_cst_26 main_v117 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_27 (constant S_ .f32 0x47435000#32),
    StableHlo.unary main_cst_27 main_v118 (broadcastInDim S256 ![] bcast_S_S256 : (⟨S_, .f32⟩ : BufTy).Contents (Elt F) → (⟨S256, .f32⟩ : BufTy).Contents (Elt F)),
    StableHlo.binary main_v117 main_v118 main_v119 (Host.divf : (⟨S256, .f32⟩ : BufTy).Contents (Elt F) → (⟨S256, .f32⟩ : BufTy).Contents (Elt F) → (⟨S256, .f32⟩ : BufTy).Contents (Elt F)) ]

set_option maxRecDepth 8192 in
theorem segMean2_sub : (segMean2 : List (HloOp τ sig (Elt F))).Forall fun op => op.bufs ⊆ tcRefs τ sig := by
  unfold segMean2
  exact ⟨nullary_bufs_sub .., binary_bufs_sub .., nullary_bufs_sub .., unary_bufs_sub .., binary_bufs_sub ..⟩

set_option maxRecDepth 8192 in
theorem segMean2_fresh : ∀ op ∈ (segMean2 : List (HloOp τ sig (Elt F))), op.fresh = ∅ := by
  unfold segMean2
  intro _ h; (repeat (cases h with | head => rfl | tail _ h => ?_)); exact nomatch h

/-- The buffers that `segMean2` writes, in order. -/
abbrev segMean2_W : List (Ref sig .tc) := [main_cst_26, main_v117, main_cst_27, main_v118, main_v119]

set_option maxRecDepth 8192 in
theorem segMean2_writes : (segMean2 : List (HloOp τ sig (Elt F))).Forall fun op => op.writes ⊆ (segMean2_W.map (Proc.devRef (τ := τ) .tc)).toFinset := by
  unfold segMean2
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segMean2` does not write keeps its contents through it. -/
theorem segMean2_keep (W : Valuation τ sig (Elt F)) (r : Ref sig .tc) (h : r ∉ segMean2_W) :
    after segMean2 W (Proc.devRef .tc r) = W (Proc.devRef .tc r) :=
  after_of_writes_sub segMean2 W segMean2_writes h

/-- Column variances of the second convolution. -/
def segVar2 : List (HloOp τ sig (Elt F)) :=
  [
    StableHlo.nullary main_c_28 (constantI S_ 32 0#32),
    StableHlo.TRef.nullary main_call2.cst (constant S_ .f32 0x00000000#32),
    StableHlo.TRef.binary (.of main_v116 : TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v116 : TRef sig ⟨S50000x256, .f32⟩) main_call2.v4 main_call2.v5 subf,
    StableHlo.TRef.binary main_call2.v5 main_call2.v5 main_call2.v6 mulf,
    StableHlo.TRef.unary (.of main_c_28 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

set_option maxRecDepth 8192 in
theorem segVar2_sub : (segVar2 : List (HloOp τ sig (Elt F))).Forall fun op => op.bufs ⊆ tcRefs τ sig := by
  unfold segVar2
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem segVar2_fresh : ∀ op ∈ (segVar2 : List (HloOp τ sig (Elt F))), op.fresh = ∅ := by
  unfold segVar2
  intro _ h; (repeat (cases h with | head => rfl | tail _ h => ?_)); exact nomatch h

/-- The buffers that `segVar2` writes, in order. -/
abbrev segVar2_W : List (Ref sig .tc) := [main_c_28, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]

set_option maxRecDepth 8192 in
theorem segVar2_writes : (segVar2 : List (HloOp τ sig (Elt F))).Forall fun op => op.writes ⊆ (segVar2_W.map (Proc.devRef (τ := τ) .tc)).toFinset := by
  unfold segVar2
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segVar2` does not write keeps its contents through it. -/
theorem segVar2_keep (W : Valuation τ sig (Elt F)) (r : Ref sig .tc) (h : r ∉ segVar2_W) :
    after segVar2 W (Proc.devRef .tc r) = W (Proc.devRef .tc r) :=
  after_of_writes_sub segVar2 W segVar2_writes h

/-- Second normalization, affine map and leaky activation. -/
def segBn2 : List (HloOp τ sig (Elt F)) :=
  [
    StableHlo.unary main_v119 main_v121 (broadcastInDim S1x256 ![1] bcast_S256_S1x256_1 : (⟨S256, .f32⟩ : BufTy).Contents (Elt F) → (⟨S1x256, .f32⟩ : BufTy).Contents (Elt F)),
    StableHlo.unary main_v121 main_v122 (broadcastInDim S50000x256 ![0, 1] bcast_S1x256_S50000x256_0_1 : (⟨S1x256, .f32⟩ : BufTy).Contents (Elt F) → (⟨S50000x256, .f32⟩ : BufTy).Contents (Elt F)),
    StableHlo.binary main_v116 main_v122 main_v123 (subf : (⟨S50000x256, .f32⟩ : BufTy).Contents (Elt F) → (⟨S50000x256, .f32⟩ : BufTy).Contents (Elt F) → (⟨S50000x256, .f32⟩ : BufTy).Contents (Elt F)),
    StableHlo.unary main_arg5 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v125 main_v123 main_v126 (mulf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x3727C5AC#32),
    StableHlo.unary main_cst_29 main_v127 (broadcastInDim S256 ![] bcast_S_S256 : (⟨S_, .f32⟩ : BufTy).Contents (Elt F) → (⟨S256, .f32⟩ : BufTy).Contents (Elt F)),
    StableHlo.binary main_v120 main_v127 main_v128 (addf : (⟨S256, .f32⟩ : BufTy).Contents (Elt F) → (⟨S256, .f32⟩ : BufTy).Contents (Elt F) → (⟨S256, .f32⟩ : BufTy).Contents (Elt F)),
    StableHlo.unary main_v128 main_v129 (Host.rsqrt : (⟨S256, .f32⟩ : BufTy).Contents (Elt F) → (⟨S256, .f32⟩ : BufTy).Contents (Elt F)),
    StableHlo.unary main_v129 main_v130 (broadcastInDim S1x256 ![1] bcast_S256_S1x256_1 : (⟨S256, .f32⟩ : BufTy).Contents (Elt F) → (⟨S1x256, .f32⟩ : BufTy).Contents (Elt F)),
    StableHlo.unary main_v130 main_v131 (broadcastInDim S50000x256 ![0, 1] bcast_S1x256_S50000x256_0_1 : (⟨S1x256, .f32⟩ : BufTy).Contents (Elt F) → (⟨S50000x256, .f32⟩ : BufTy).Contents (Elt F)),
    StableHlo.binary main_v126 main_v131 main_v132 (mulf : (⟨S50000x256, .f32⟩ : BufTy).Contents (Elt F) → (⟨S50000x256, .f32⟩ : BufTy).Contents (Elt F) → (⟨S50000x256, .f32⟩ : BufTy).Contents (Elt F)),
    StableHlo.unary main_arg6 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S50000x256 ![0, 1] bcast_S1x256_S50000x256_0_1 : (⟨S1x256, .f32⟩ : BufTy).Contents (Elt F) → (⟨S50000x256, .f32⟩ : BufTy).Contents (Elt F)),
    StableHlo.binary main_v132 main_v134 main_v135 (addf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x00000000#32),
    StableHlo.unary main_cst_30 main_v136 (broadcastInDim S50000x256 ![] bcast_S_S50000x256 : (⟨S_, .f32⟩ : BufTy).Contents (Elt F) → (⟨S50000x256, .f32⟩ : BufTy).Contents (Elt F)),
    StableHlo.binary main_v135 main_v136 main_v137 (cmpf .oge : (⟨S50000x256, .f32⟩ : BufTy).Contents (Elt F) → (⟨S50000x256, .f32⟩ : BufTy).Contents (Elt F) → (⟨S50000x256, .i1⟩ : BufTy).Contents (Elt F)),
    StableHlo.nullary main_cst_31 (constant S_ .f32 0x3E4CCCCD#32),
    StableHlo.unary main_cst_31 main_v138 (broadcastInDim S50000x256 ![] bcast_S_S50000x256 : (⟨S_, .f32⟩ : BufTy).Contents (Elt F) → (⟨S50000x256, .f32⟩ : BufTy).Contents (Elt F)),
    StableHlo.binary main_v138 main_v135 main_v139 (mulf : (⟨S50000x256, .f32⟩ : BufTy).Contents (Elt F) → (⟨S50000x256, .f32⟩ : BufTy).Contents (Elt F) → (⟨S50000x256, .f32⟩ : BufTy).Contents (Elt F)),
    StableHlo.TRef.ternary (.of main_v137 : TRef sig ⟨S50000x256, .i1⟩) (.of main_v135 : TRef sig ⟨S50000x256, .f32⟩) (.of main_v139 : TRef sig ⟨S50000x256, .f32⟩) main_call3.v0 select ]

set_option maxRecDepth 8192 in
theorem segBn2_sub : (segBn2 : List (HloOp τ sig (Elt F))).Forall fun op => op.bufs ⊆ tcRefs τ sig := by
  unfold segBn2
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
theorem segBn2_fresh : ∀ op ∈ (segBn2 : List (HloOp τ sig (Elt F))), op.fresh = ∅ := by
  unfold segBn2
  intro _ h; (repeat (cases h with | head => rfl | tail _ h => ?_)); exact nomatch h

/-- The buffers that `segBn2` writes, in order. -/
abbrev segBn2_W : List (Ref sig .tc) := [main_v121, main_v122, main_v123, main_v124, main_v125, main_v126, main_cst_29, main_v127, main_v128, main_v129, main_v130, main_v131, main_v132, main_v133, main_v134, main_v135, main_cst_30, main_v136, main_v137, main_cst_31, main_v138, main_v139, main_call3.v0.ref]

set_option maxRecDepth 8192 in
theorem segBn2_writes : (segBn2 : List (HloOp τ sig (Elt F))).Forall fun op => op.writes ⊆ (segBn2_W.map (Proc.devRef (τ := τ) .tc)).toFinset := by
  unfold segBn2
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segBn2` does not write keeps its contents through it. -/
theorem segBn2_keep (W : Valuation τ sig (Elt F)) (r : Ref sig .tc) (h : r ∉ segBn2_W) :
    after segBn2 W (Proc.devRef .tc r) = W (Proc.devRef .tc r) :=
  after_of_writes_sub segBn2 W segBn2_writes h

/-- The location head: a projection plus a bias row. -/
def segLoc : List (HloOp τ sig (Elt F)) :=
  [
    StableHlo.binary main_v140 main_arg7 main_v141 ((fun l r => Host.dotGeneral dot_S50000x256_S256x32_S50000x32_1_0_0_1_n_n none l r) : (⟨S50000x256, .f32⟩ : BufTy).Contents (Elt F) → (⟨S256x32, .f32⟩ : BufTy).Contents (Elt F) → (⟨S50000x32, .f32⟩ : BufTy).Contents (Elt F)),
    StableHlo.unary main_arg8 main_v142 (broadcastInDim S1x32 ![1] bcast_S32_S1x32_1 : (⟨S32, .f32⟩ : BufTy).Contents (Elt F) → (⟨S1x32, .f32⟩ : BufTy).Contents (Elt F)),
    StableHlo.unary main_v142 main_v143 (broadcastInDim S50000x32 ![0, 1] bcast_S1x32_S50000x32_0_1 : (⟨S1x32, .f32⟩ : BufTy).Contents (Elt F) → (⟨S50000x32, .f32⟩ : BufTy).Contents (Elt F)),
    StableHlo.binary main_v141 main_v143 main_v144 (addf : (⟨S50000x32, .f32⟩ : BufTy).Contents (Elt F) → (⟨S50000x32, .f32⟩ : BufTy).Contents (Elt F) → (⟨S50000x32, .f32⟩ : BufTy).Contents (Elt F)) ]

set_option maxRecDepth 8192 in
theorem segLoc_sub : (segLoc : List (HloOp τ sig (Elt F))).Forall fun op => op.bufs ⊆ tcRefs τ sig := by
  unfold segLoc
  exact ⟨binary_bufs_sub .., unary_bufs_sub .., unary_bufs_sub .., binary_bufs_sub ..⟩

set_option maxRecDepth 8192 in
theorem segLoc_fresh : ∀ op ∈ (segLoc : List (HloOp τ sig (Elt F))), op.fresh = ∅ := by
  unfold segLoc
  intro _ h; (repeat (cases h with | head => rfl | tail _ h => ?_)); exact nomatch h

/-- The buffers that `segLoc` writes, in order. -/
abbrev segLoc_W : List (Ref sig .tc) := [main_v141, main_v142, main_v143, main_v144]

set_option maxRecDepth 8192 in
theorem segLoc_writes : (segLoc : List (HloOp τ sig (Elt F))).Forall fun op => op.writes ⊆ (segLoc_W.map (Proc.devRef (τ := τ) .tc)).toFinset := by
  unfold segLoc
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segLoc` does not write keeps its contents through it. -/
theorem segLoc_keep (W : Valuation τ sig (Elt F)) (r : Ref sig .tc) (h : r ∉ segLoc_W) :
    after segLoc W (Proc.devRef .tc r) = W (Proc.devRef .tc r) :=
  after_of_writes_sub segLoc W segLoc_writes h

/-- The scale head's projection. -/
def segStdA : List (HloOp τ sig (Elt F)) :=
  [
    StableHlo.binary main_v140 main_arg9 main_v145 ((fun l r => Host.dotGeneral dot_S50000x256_S256x32_S50000x32_1_0_0_1_n_n none l r) : (⟨S50000x256, .f32⟩ : BufTy).Contents (Elt F) → (⟨S256x32, .f32⟩ : BufTy).Contents (Elt F) → (⟨S50000x32, .f32⟩ : BufTy).Contents (Elt F)) ]

set_option maxRecDepth 8192 in
theorem segStdA_sub : (segStdA : List (HloOp τ sig (Elt F))).Forall fun op => op.bufs ⊆ tcRefs τ sig := by
  unfold segStdA
  exact (binary_bufs_sub ..)

set_option maxRecDepth 8192 in
theorem segStdA_fresh : ∀ op ∈ (segStdA : List (HloOp τ sig (Elt F))), op.fresh = ∅ := by
  unfold segStdA
  intro _ h; (repeat (cases h with | head => rfl | tail _ h => ?_)); exact nomatch h

/-- The buffers that `segStdA` writes, in order. -/
abbrev segStdA_W : List (Ref sig .tc) := [main_v145]

set_option maxRecDepth 8192 in
theorem segStdA_writes : (segStdA : List (HloOp τ sig (Elt F))).Forall fun op => op.writes ⊆ (segStdA_W.map (Proc.devRef (τ := τ) .tc)).toFinset := by
  unfold segStdA
  simp only [List.Forall]
  exact (by simp only [nullary_writes, unary_writes, binary_writes, ternary_writes, reshape_writes, Finset.singleton_subset_iff, List.mem_toFinset]; exact List.mem_map_of_mem (by decide))

/-- A buffer that `segStdA` does not write keeps its contents through it. -/
theorem segStdA_keep (W : Valuation τ sig (Elt F)) (r : Ref sig .tc) (h : r ∉ segStdA_W) :
    after segStdA W (Proc.devRef .tc r) = W (Proc.devRef .tc r) :=
  after_of_writes_sub segStdA W segStdA_writes h

/-- Window 2 of the program: its stages' lists, in order. -/
def ops2 : List (HloOp τ sig (Elt F)) := segGcn2b ++ (segMean2 ++ (segVar2 ++ (segBn2 ++ (segLoc ++ (segStdA)))))

set_option maxRecDepth 8192 in
set_option maxHeartbeats 4000000 in
/-- The window is that straight line: the called functions' definitions unfolded at their calls and the records at their fields, both sides are one chain of steps once sequencing is reassociated. -/
theorem part2_eq (c : Dev nD) : main_part2 (F := F) c = seq ops2 := by
  simp only [main_part2, fn_var.body, fn_where.body, fn_where_0.body, bind_assoc, pure_bind]
  rfl

theorem ops2_sub : (ops2 : List (HloOp τ sig (Elt F))).Forall fun op => op.bufs ⊆ tcRefs τ sig :=
  List.forall_iff_forall_mem.mpr fun op h => by
    simp only [ops2, List.mem_append] at h
    rcases h with h | h | h | h | h | h
    exacts [List.forall_iff_forall_mem.mp segGcn2b_sub op h, List.forall_iff_forall_mem.mp segMean2_sub op h, List.forall_iff_forall_mem.mp segVar2_sub op h, List.forall_iff_forall_mem.mp segBn2_sub op h, List.forall_iff_forall_mem.mp segLoc_sub op h, List.forall_iff_forall_mem.mp segStdA_sub op h]

theorem ops2_fresh : ∀ op ∈ (ops2 : List (HloOp τ sig (Elt F))), op.fresh = ∅ := fun op h => by
  simp only [ops2, List.mem_append] at h
  rcases h with h | h | h | h | h | h
  exacts [segGcn2b_fresh op h, segMean2_fresh op h, segVar2_fresh op h, segBn2_fresh op h, segLoc_fresh op h, segStdA_fresh op h]

end Cert.ReferenceIdeal.RefRun

end
-- ==== Proof.RefOps3.lean ====
/-
  The reference program's operations 181 … 188 (statements of its main function, window 3), as lists of host operations cut at the
  program's named stages; a called function's operations stand in its call's place, over the call's own buffers.
  For each list: every buffer it touches is a device buffer, no operation allocates, the buffers it writes, and
  that any other buffer keeps its contents through it.
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The scale head: bias row, softplus (the called function's operations), plus a small constant. -/
def segStdB : List (HloOp τ sig (Elt F)) :=
  [
    StableHlo.unary main_arg10 main_v146 (broadcastInDim S1x32 ![1] bcast_S32_S1x32_1 : (⟨S32, .f32⟩ : BufTy).Contents (Elt F) → (⟨S1x32, .f32⟩ : BufTy).Contents (Elt F)),
    StableHlo.unary main_v146 main_v147 (broadcastInDim S50000x32 ![0, 1] bcast_S1x32_S50000x32_0_1 : (⟨S1x32, .f32⟩ : BufTy).Contents (Elt F) → (⟨S50000x32, .f32⟩ : BufTy).Contents (Elt F)),
    StableHlo.binary main_v145 main_v147 main_v148 (addf : (⟨S50000x32, .f32⟩ : BufTy).Contents (Elt F) → (⟨S50000x32, .f32⟩ : BufTy).Contents (Elt F) → (⟨S50000x32, .f32⟩ : BufTy).Contents (Elt F)),
    StableHlo.TRef.nullary main_call4.cst (constant S_ .f32 0x00000000#32),
    StableHlo.TRef.unary main_call4.cst main_call4.v0 (broadcastInDim S50000x32 ![] bcast_S_S50000x32),
    StableHlo.TRef.binary (.of main_v148 : TRef sig ⟨S50000x32, .f32⟩) main_call4.v0 main_call4.v1 maximumf,
    StableHlo.TRef.unary main_call4.cst main_call4.v2 (broadcastInDim S50000x32 ![] bcast_S_S50000x32),
    StableHlo.TRef.binary (.of main_v148 : TRef sig ⟨S50000x32, .f32⟩) main_call4.v2 main_call4.v3 subf,
    StableHlo.TRef.binary main_call4.v3 main_call4.v3 main_call4.v4 (cmpf .une),
    StableHlo.TRef.unary main_call4.cst main_call4.v5 (broadcastInDim S50000x32 ![] bcast_S_S50000x32),
    StableHlo.TRef.binary (.of main_v148 : TRef sig ⟨S50000x32, .f32⟩) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.nullary main_cst_32 (constant S_ .f32 0x33D6BF95#32),
    StableHlo.unary main_cst_32 main_v150 (broadcastInDim S50000x32 ![] bcast_S_S50000x32 : (⟨S_, .f32⟩ : BufTy).Contents (Elt F) → (⟨S50000x32, .f32⟩ : BufTy).Contents (Elt F)),
    StableHlo.binary main_v149 main_v150 main_v151 (addf : (⟨S50000x32, .f32⟩ : BufTy).Contents (Elt F) → (⟨S50000x32, .f32⟩ : BufTy).Contents (Elt F) → (⟨S50000x32, .f32⟩ : BufTy).Contents (Elt F)) ]

set_option maxRecDepth 8192 in
theorem segStdB_sub : (segStdB : List (HloOp τ sig (Elt F))).Forall fun op => op.bufs ⊆ tcRefs τ sig := by
  unfold segStdB
  exact ⟨unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub ..⟩

set_option maxRecDepth 8192 in
theorem segStdB_fresh : ∀ op ∈ (segStdB : List (HloOp τ sig (Elt F))), op.fresh = ∅ := by
  unfold segStdB
  intro _ h; (repeat (cases h with | head => rfl | tail _ h => ?_)); exact nomatch h

/-- The buffers that `segStdB` writes, in order. -/
abbrev segStdB_W : List (Ref sig .tc) := [main_v146, main_v147, main_v148, main_call4.cst.ref, main_call4.v0.ref, main_call4.v1.ref, main_call4.v2.ref, main_call4.v3.ref, main_call4.v4.ref, main_call4.v5.ref, main_call4.v6.ref, main_call4.v7.ref, main_call4.v8.ref, main_call4.v9.ref, main_call4.v10.ref, main_call4.v11.ref, main_call4.v12.ref, main_cst_32, main_v150, main_v151]

set_option maxRecDepth 8192 in
theorem segStdB_writes : (segStdB : List (HloOp τ sig (Elt F))).Forall fun op => op.writes ⊆ (segStdB_W.map (Proc.devRef (τ := τ) .tc)).toFinset := by
  unfold segStdB
  simp only [List.Forall]
  exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer that `segStdB` does not write keeps its contents through it. -/
theorem segStdB_keep (W : Valuation τ sig (Elt F)) (r : Ref sig .tc) (h : r ∉ segStdB_W) :
    after segStdB W (Proc.devRef .tc r) = W (Proc.devRef .tc r) :=
  after_of_writes_sub segStdB W segStdB_writes h

/-- Window 3 of the program: its stages' lists, in order. -/
def ops3 : List (HloOp τ sig (Elt F)) := segStdB

set_option maxRecDepth 8192 in
set_option maxHeartbeats 4000000 in
/-- The window is that straight line: the called functions' definitions unfolded at their calls and the records at their fields, both sides are one chain of steps once sequencing is reassociated. -/
theorem part3_eq (c : Dev nD) : main_part3 (F := F) c = seq ops3 := by
  simp only [main_part3, fn_softplus.body, bind_assoc, pure_bind]
  rfl

theorem ops3_sub : (ops3 : List (HloOp τ sig (Elt F))).Forall fun op => op.bufs ⊆ tcRefs τ sig :=
  List.forall_iff_forall_mem.mpr fun op h => by
    simp only [ops3, List.mem_append] at h
    rcases h with h
    exacts [List.forall_iff_forall_mem.mp segStdB_sub op h]

theorem ops3_fresh : ∀ op ∈ (ops3 : List (HloOp τ sig (Elt F))), op.fresh = ∅ := fun op h => by
  simp only [ops3, List.mem_append] at h
  rcases h with h
  exacts [segStdB_fresh op h]

end Cert.ReferenceIdeal.RefRun

end
-- ==== Proof.RefOpsSeg0.lean ====
/-
  Stage 0 of the reference program as a list of host operations, in program order (a called function's operations
  stand in its call's place, over the call's own buffers).
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations %0 … %11: the edge table's two rows as vectors, each row's total of the input, the input scaled per row, its log1p, the first projection. -/
abbrev seg0 : List (HloOp τ sig (Elt F)) :=
  [
    StableHlo.unary main_arg11 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg11 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x00000000#32),
    StableHlo.binary main_arg0 main_cst main_v4 ((fun x v => Host.reduceAdd x v reducesTo_S50000x1000_S50000_d1 h_S_) : (⟨S50000x1000, .f32⟩ : BufTy).Contents (Elt F) → (⟨S_, .f32⟩ : BufTy).Contents (Elt F) → (⟨S50000, .f32⟩ : BufTy).Contents (Elt F)),
    StableHlo.unary main_v4 main_v5 (broadcastInDim S50000x1 ![0] bcast_S50000_S50000x1_0 : (⟨S50000, .f32⟩ : BufTy).Contents (Elt F) → (⟨S50000x1, .f32⟩ : BufTy).Contents (Elt F)),
    StableHlo.nullary main_cst_0 (constant S_ .f32 0x461C4000#32),
    StableHlo.unary main_cst_0 main_v6 (broadcastInDim S50000x1 ![] bcast_S_S50000x1 : (⟨S_, .f32⟩ : BufTy).Contents (Elt F) → (⟨S50000x1, .f32⟩ : BufTy).Contents (Elt F)),
    StableHlo.binary main_v6 main_v5 main_v7 (Host.divf : (⟨S50000x1, .f32⟩ : BufTy).Contents (Elt F) → (⟨S50000x1, .f32⟩ : BufTy).Contents (Elt F) → (⟨S50000x1, .f32⟩ : BufTy).Contents (Elt F)),
    StableHlo.unary main_v7 main_v8 (broadcastInDim S50000x1000 ![0, 1] bcast_S50000x1_S50000x1000_0_1 : (⟨S50000x1, .f32⟩ : BufTy).Contents (Elt F) → (⟨S50000x1000, .f32⟩ : BufTy).Contents (Elt F)),
    StableHlo.binary main_arg0 main_v8 main_v9 (mulf : (⟨S50000x1000, .f32⟩ : BufTy).Contents (Elt F) → (⟨S50000x1000, .f32⟩ : BufTy).Contents (Elt F) → (⟨S50000x1000, .f32⟩ : BufTy).Contents (Elt F)),
    StableHlo.unary main_v9 main_v10 (Host.log1p : (⟨S50000x1000, .f32⟩ : BufTy).Contents (Elt F) → (⟨S50000x1000, .f32⟩ : BufTy).Contents (Elt F)),
    StableHlo.binary main_v10 main_arg1 main_v11 ((fun l r => Host.dotGeneral dot_S50000x1000_S1000x256_S50000x256_1_0_0_1_n_n none l r) : (⟨S50000x1000, .f32⟩ : BufTy).Contents (Elt F) → (⟨S1000x256, .f32⟩ : BufTy).Contents (Elt F) → (⟨S50000x256, .f32⟩ : BufTy).Contents (Elt F)) ]

end Cert.ReferenceIdeal.RefRun

end
-- ==== Proof.RefOpsSeg1.lean ====
/-
  Stage 1 of the reference program as a list of host operations, in program order (a called function's operations
  stand in its call's place, over the call's own buffers).
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From %cst_1 through the first variance call: the first graph convolution (%12 … %51), its column means (%52 … %54), the zero correction %c_12 and the called variance function's operations (with the called select's). -/
abbrev seg1 : List (HloOp τ sig (Elt F)) :=
  [
    StableHlo.nullary main_cst_1 (constant S_ .f32 0x3F800000#32),
    StableHlo.unary main_cst_1 main_v12 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_v3 main_v14 (broadcastInDim S800000x1 ![0] bcast_S800000_S800000x1_0 : (⟨S800000, .i32⟩ : BufTy).Contents (Elt F) → (⟨S800000x1, .i32⟩ : BufTy).Contents (Elt F)),
    StableHlo.ternary main_v13 main_v14 main_v12 main_v15 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v15 main_v16 main_v17 (addf : (⟨S50000, .f32⟩ : BufTy).Contents (Elt F) → (⟨S50000, .f32⟩ : BufTy).Contents (Elt F) → (⟨S50000, .f32⟩ : BufTy).Contents (Elt F)),
    StableHlo.unary main_v17 main_v18 (Host.rsqrt : (⟨S50000, .f32⟩ : BufTy).Contents (Elt F) → (⟨S50000, .f32⟩ : BufTy).Contents (Elt F)),
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_v1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v21 (broadcastInDim S800000 ![] bcast_S_S800000 : (⟨S_, .i32⟩ : BufTy).Contents (Elt F) → (⟨S800000, .i32⟩ : BufTy).Contents (Elt F)),
    StableHlo.binary main_v1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v18 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_5 (constantI S_ 32 0#32),
    StableHlo.unary main_c_5 main_v26 (broadcastInDim S800000 ![] bcast_S_S800000 : (⟨S_, .i32⟩ : BufTy).Contents (Elt F) → (⟨S800000, .i32⟩ : BufTy).Contents (Elt F)),
    StableHlo.binary main_v3 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v28 (broadcastInDim S800000 ![] bcast_S_S800000 : (⟨S_, .i32⟩ : BufTy).Contents (Elt F) → (⟨S800000, .i32⟩ : BufTy).Contents (Elt F)),
    StableHlo.binary main_v3 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v3 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_v18 main_v31 main_v32 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v25 main_v32 main_v33 (mulf : (⟨S800000, .f32⟩ : BufTy).Contents (Elt F) → (⟨S800000, .f32⟩ : BufTy).Contents (Elt F) → (⟨S800000, .f32⟩ : BufTy).Contents (Elt F)),
    StableHlo.nullary main_c_7 (constantI S_ 32 0#32),
    StableHlo.unary main_c_7 main_v34 (broadcastInDim S800000 ![] bcast_S_S800000 : (⟨S_, .i32⟩ : BufTy).Contents (Elt F) → (⟨S800000, .i32⟩ : BufTy).Contents (Elt F)),
    StableHlo.binary main_v1 main_v34 main_v35 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v36 (broadcastInDim S800000 ![] bcast_S_S800000 : (⟨S_, .i32⟩ : BufTy).Contents (Elt F) → (⟨S800000, .i32⟩ : BufTy).Contents (Elt F)),
    StableHlo.binary main_v1 main_v36 main_v37 (addi : (⟨S800000, .i32⟩ : BufTy).Contents (Elt F) → (⟨S800000, .i32⟩ : BufTy).Contents (Elt F) → (⟨S800000, .i32⟩ : BufTy).Contents (Elt F)),
    StableHlo.ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v38 main_v39 (broadcastInDim S800000x1 ![0] bcast_S800000_S800000x1_0 : (⟨S800000, .i32⟩ : BufTy).Contents (Elt F) → (⟨S800000x1, .i32⟩ : BufTy).Contents (Elt F)),
    StableHlo.binary main_v11 main_v39 main_v40 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v33 main_v41 (broadcastInDim S800000x1 ![0] bcast_S800000_S800000x1_0 : (⟨S800000, .f32⟩ : BufTy).Contents (Elt F) → (⟨S800000x1, .f32⟩ : BufTy).Contents (Elt F)),
    StableHlo.unary main_v41 main_v42 (broadcastInDim S800000x256 ![0, 1] bcast_S800000x1_S800000x256_0_1 : (⟨S800000x1, .f32⟩ : BufTy).Contents (Elt F) → (⟨S800000x256, .f32⟩ : BufTy).Contents (Elt F)),
    StableHlo.binary main_v40 main_v42 main_v43 (mulf : (⟨S800000x256, .f32⟩ : BufTy).Contents (Elt F) → (⟨S800000x256, .f32⟩ : BufTy).Contents (Elt F) → (⟨S800000x256, .f32⟩ : BufTy).Contents (Elt F)),
    StableHlo.nullary main_cst_9 (constant S_ .f32 0x00000000#32),
    StableHlo.unary main_cst_9 main_v44 (broadcastInDim S50000x256 ![] bcast_S_S50000x256 : (⟨S_, .f32⟩ : BufTy).Contents (Elt F) → (⟨S50000x256, .f32⟩ : BufTy).Contents (Elt F)),
    StableHlo.unary main_v3 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v18 main_v18 main_v47 (mulf : (⟨S50000, .f32⟩ : BufTy).Contents (Elt F) → (⟨S50000, .f32⟩ : BufTy).Contents (Elt F) → (⟨S50000, .f32⟩ : BufTy).Contents (Elt F)),
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (broadcastInDim S50000x256 ![0, 1] bcast_S50000x1_S50000x256_0_1 : (⟨S50000x1, .f32⟩ : BufTy).Contents (Elt F) → (⟨S50000x256, .f32⟩ : BufTy).Contents (Elt F)),
    StableHlo.binary main_v49 main_v11 main_v50 (mulf : (⟨S50000x256, .f32⟩ : BufTy).Contents (Elt F) → (⟨S50000x256, .f32⟩ : BufTy).Contents (Elt F) → (⟨S50000x256, .f32⟩ : BufTy).Contents (Elt F)),
    StableHlo.binary main_v46 main_v50 main_v51 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x00000000#32),
    StableHlo.binary main_v51 main_cst_10 main_v52 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_11 (constant S_ .f32 0x47435000#32),
    StableHlo.unary main_cst_11 main_v53 (broadcastInDim S256 ![] bcast_S_S256 : (⟨S_, .f32⟩ : BufTy).Contents (Elt F) → (⟨S256, .f32⟩ : BufTy).Contents (Elt F)),
    StableHlo.binary main_v52 main_v53 main_v54 (Host.divf : (⟨S256, .f32⟩ : BufTy).Contents (Elt F) → (⟨S256, .f32⟩ : BufTy).Contents (Elt F) → (⟨S256, .f32⟩ : BufTy).Contents (Elt F)),
    StableHlo.nullary main_c_12 (constantI S_ 32 0#32),
    StableHlo.TRef.nullary main_call0.cst (constant S_ .f32 0x00000000#32),
    StableHlo.TRef.binary (.of main_v51 : TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v51 : TRef sig ⟨S50000x256, .f32⟩) main_call0.v4 main_call0.v5 subf,
    StableHlo.TRef.binary main_call0.v5 main_call0.v5 main_call0.v6 mulf,
    StableHlo.TRef.unary (.of main_c_12 : TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

end Cert.ReferenceIdeal.RefRun

end
-- ==== Proof.RefOpsSeg2.lean ====
/-
  Stage 2 of the reference program as a list of host operations, in program order (a called function's operations
  stand in its call's place, over the call's own buffers).
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations %56 … %76: the first normalization, affine map and leaky activation (the called select's one operation), the second projection. -/
abbrev seg2 : List (HloOp τ sig (Elt F)) :=
  [
    StableHlo.unary main_v54 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v51 main_v57 main_v58 (subf : (⟨S50000x256, .f32⟩ : BufTy).Contents (Elt F) → (⟨S50000x256, .f32⟩ : BufTy).Contents (Elt F) → (⟨S50000x256, .f32⟩ : BufTy).Contents (Elt F)),
    StableHlo.unary main_arg2 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S50000x256 ![0, 1] bcast_S1x256_S50000x256_0_1 : (⟨S1x256, .f32⟩ : BufTy).Contents (Elt F) → (⟨S50000x256, .f32⟩ : BufTy).Contents (Elt F)),
    StableHlo.binary main_v60 main_v58 main_v61 (mulf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3727C5AC#32),
    StableHlo.unary main_cst_13 main_v62 (broadcastInDim S256 ![] bcast_S_S256 : (⟨S_, .f32⟩ : BufTy).Contents (Elt F) → (⟨S256, .f32⟩ : BufTy).Contents (Elt F)),
    StableHlo.binary main_v55 main_v62 main_v63 (addf : (⟨S256, .f32⟩ : BufTy).Contents (Elt F) → (⟨S256, .f32⟩ : BufTy).Contents (Elt F) → (⟨S256, .f32⟩ : BufTy).Contents (Elt F)),
    StableHlo.unary main_v63 main_v64 (Host.rsqrt : (⟨S256, .f32⟩ : BufTy).Contents (Elt F) → (⟨S256, .f32⟩ : BufTy).Contents (Elt F)),
    StableHlo.unary main_v64 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v66 main_v67 (mulf : (⟨S50000x256, .f32⟩ : BufTy).Contents (Elt F) → (⟨S50000x256, .f32⟩ : BufTy).Contents (Elt F) → (⟨S50000x256, .f32⟩ : BufTy).Contents (Elt F)),
    StableHlo.unary main_arg3 main_v68 (broadcastInDim S1x256 ![1] bcast_S256_S1x256_1 : (⟨S256, .f32⟩ : BufTy).Contents (Elt F) → (⟨S1x256, .f32⟩ : BufTy).Contents (Elt F)),
    StableHlo.unary main_v68 main_v69 (broadcastInDim S50000x256 ![0, 1] bcast_S1x256_S50000x256_0_1 : (⟨S1x256, .f32⟩ : BufTy).Contents (Elt F) → (⟨S50000x256, .f32⟩ : BufTy).Contents (Elt F)),
    StableHlo.binary main_v67 main_v69 main_v70 (addf : (⟨S50000x256, .f32⟩ : BufTy).Contents (Elt F) → (⟨S50000x256, .f32⟩ : BufTy).Contents (Elt F) → (⟨S50000x256, .f32⟩ : BufTy).Contents (Elt F)),
    StableHlo.nullary main_cst_14 (constant S_ .f32 0x00000000#32),
    StableHlo.unary main_cst_14 main_v71 (broadcastInDim S50000x256 ![] bcast_S_S50000x256 : (⟨S_, .f32⟩ : BufTy).Contents (Elt F) → (⟨S50000x256, .f32⟩ : BufTy).Contents (Elt F)),
    StableHlo.binary main_v70 main_v71 main_v72 (cmpf .oge : (⟨S50000x256, .f32⟩ : BufTy).Contents (Elt F) → (⟨S50000x256, .f32⟩ : BufTy).Contents (Elt F) → (⟨S50000x256, .i1⟩ : BufTy).Contents (Elt F)),
    StableHlo.nullary main_cst_15 (constant S_ .f32 0x3E4CCCCD#32),
    StableHlo.unary main_cst_15 main_v73 (broadcastInDim S50000x256 ![] bcast_S_S50000x256 : (⟨S_, .f32⟩ : BufTy).Contents (Elt F) → (⟨S50000x256, .f32⟩ : BufTy).Contents (Elt F)),
    StableHlo.binary main_v73 main_v70 main_v74 (mulf : (⟨S50000x256, .f32⟩ : BufTy).Contents (Elt F) → (⟨S50000x256, .f32⟩ : BufTy).Contents (Elt F) → (⟨S50000x256, .f32⟩ : BufTy).Contents (Elt F)),
    StableHlo.TRef.ternary (.of main_v72 : TRef sig ⟨S50000x256, .i1⟩) (.of main_v70 : TRef sig ⟨S50000x256, .f32⟩) (.of main_v74 : TRef sig ⟨S50000x256, .f32⟩) main_call1.v0 select,
    StableHlo.binary main_v75 main_arg4 main_v76 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

end Cert.ReferenceIdeal.RefRun

end
-- ==== Proof.RefOpsSeg3.lean ====
/-
  Stage 3 of the reference program as a list of host operations, in program order (a called function's operations
  stand in its call's place, over the call's own buffers).
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From %cst_16 through the second variance call: the second graph convolution (%77 … %116), its column means (%117 … %119), %c_28 and the called variance function's operations. -/
abbrev seg3 : List (HloOp τ sig (Elt F)) :=
  [
    StableHlo.nullary main_cst_16 (constant S_ .f32 0x3F800000#32),
    StableHlo.unary main_cst_16 main_v77 (broadcastInDim S800000 ![] bcast_S_S800000 : (⟨S_, .f32⟩ : BufTy).Contents (Elt F) → (⟨S800000, .f32⟩ : BufTy).Contents (Elt F)),
    StableHlo.nullary main_cst_17 (constant S_ .f32 0x00000000#32),
    StableHlo.unary main_cst_17 main_v78 (broadcastInDim S50000 ![] bcast_S_S50000 : (⟨S_, .f32⟩ : BufTy).Contents (Elt F) → (⟨S50000, .f32⟩ : BufTy).Contents (Elt F)),
    StableHlo.unary main_v3 main_v79 (broadcastInDim S800000x1 ![0] bcast_S800000_S800000x1_0 : (⟨S800000, .i32⟩ : BufTy).Contents (Elt F) → (⟨S800000x1, .i32⟩ : BufTy).Contents (Elt F)),
    StableHlo.ternary main_v78 main_v79 main_v77 main_v80 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_18 (constant S_ .f32 0x3F800000#32),
    StableHlo.unary main_cst_18 main_v81 (broadcastInDim S50000 ![] bcast_S_S50000 : (⟨S_, .f32⟩ : BufTy).Contents (Elt F) → (⟨S50000, .f32⟩ : BufTy).Contents (Elt F)),
    StableHlo.binary main_v80 main_v81 main_v82 (addf : (⟨S50000, .f32⟩ : BufTy).Contents (Elt F) → (⟨S50000, .f32⟩ : BufTy).Contents (Elt F) → (⟨S50000, .f32⟩ : BufTy).Contents (Elt F)),
    StableHlo.unary main_v82 main_v83 (Host.rsqrt : (⟨S50000, .f32⟩ : BufTy).Contents (Elt F) → (⟨S50000, .f32⟩ : BufTy).Contents (Elt F)),
    StableHlo.nullary main_c_19 (constantI S_ 32 0#32),
    StableHlo.unary main_c_19 main_v84 (broadcastInDim S800000 ![] bcast_S_S800000 : (⟨S_, .i32⟩ : BufTy).Contents (Elt F) → (⟨S800000, .i32⟩ : BufTy).Contents (Elt F)),
    StableHlo.binary main_v1 main_v84 main_v85 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v86 (broadcastInDim S800000 ![] bcast_S_S800000 : (⟨S_, .i32⟩ : BufTy).Contents (Elt F) → (⟨S800000, .i32⟩ : BufTy).Contents (Elt F)),
    StableHlo.binary main_v1 main_v86 main_v87 (addi : (⟨S800000, .i32⟩ : BufTy).Contents (Elt F) → (⟨S800000, .i32⟩ : BufTy).Contents (Elt F) → (⟨S800000, .i32⟩ : BufTy).Contents (Elt F)),
    StableHlo.ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v88 main_v89 (broadcastInDim S800000x1 ![0] bcast_S800000_S800000x1_0 : (⟨S800000, .i32⟩ : BufTy).Contents (Elt F) → (⟨S800000x1, .i32⟩ : BufTy).Contents (Elt F)),
    StableHlo.binary main_v83 main_v89 main_v90 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_21 (constantI S_ 32 0#32),
    StableHlo.unary main_c_21 main_v91 (broadcastInDim S800000 ![] bcast_S_S800000 : (⟨S_, .i32⟩ : BufTy).Contents (Elt F) → (⟨S800000, .i32⟩ : BufTy).Contents (Elt F)),
    StableHlo.binary main_v3 main_v91 main_v92 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v93 (broadcastInDim S800000 ![] bcast_S_S800000 : (⟨S_, .i32⟩ : BufTy).Contents (Elt F) → (⟨S800000, .i32⟩ : BufTy).Contents (Elt F)),
    StableHlo.binary main_v3 main_v93 main_v94 (addi : (⟨S800000, .i32⟩ : BufTy).Contents (Elt F) → (⟨S800000, .i32⟩ : BufTy).Contents (Elt F) → (⟨S800000, .i32⟩ : BufTy).Contents (Elt F)),
    StableHlo.ternary main_v92 main_v94 main_v3 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v95 main_v96 (broadcastInDim S800000x1 ![0] bcast_S800000_S800000x1_0 : (⟨S800000, .i32⟩ : BufTy).Contents (Elt F) → (⟨S800000x1, .i32⟩ : BufTy).Contents (Elt F)),
    StableHlo.binary main_v83 main_v96 main_v97 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v90 main_v97 main_v98 (mulf : (⟨S800000, .f32⟩ : BufTy).Contents (Elt F) → (⟨S800000, .f32⟩ : BufTy).Contents (Elt F) → (⟨S800000, .f32⟩ : BufTy).Contents (Elt F)),
    StableHlo.nullary main_c_23 (constantI S_ 32 0#32),
    StableHlo.unary main_c_23 main_v99 (broadcastInDim S800000 ![] bcast_S_S800000 : (⟨S_, .i32⟩ : BufTy).Contents (Elt F) → (⟨S800000, .i32⟩ : BufTy).Contents (Elt F)),
    StableHlo.binary main_v1 main_v99 main_v100 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v101 (broadcastInDim S800000 ![] bcast_S_S800000 : (⟨S_, .i32⟩ : BufTy).Contents (Elt F) → (⟨S800000, .i32⟩ : BufTy).Contents (Elt F)),
    StableHlo.binary main_v1 main_v101 main_v102 (addi : (⟨S800000, .i32⟩ : BufTy).Contents (Elt F) → (⟨S800000, .i32⟩ : BufTy).Contents (Elt F) → (⟨S800000, .i32⟩ : BufTy).Contents (Elt F)),
    StableHlo.ternary main_v100 main_v102 main_v1 main_v103 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v103 main_v104 (broadcastInDim S800000x1 ![0] bcast_S800000_S800000x1_0 : (⟨S800000, .i32⟩ : BufTy).Contents (Elt F) → (⟨S800000x1, .i32⟩ : BufTy).Contents (Elt F)),
    StableHlo.binary main_v76 main_v104 main_v105 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v98 main_v106 (broadcastInDim S800000x1 ![0] bcast_S800000_S800000x1_0 : (⟨S800000, .f32⟩ : BufTy).Contents (Elt F) → (⟨S800000x1, .f32⟩ : BufTy).Contents (Elt F)),
    StableHlo.unary main_v106 main_v107 (broadcastInDim S800000x256 ![0, 1] bcast_S800000x1_S800000x256_0_1 : (⟨S800000x1, .f32⟩ : BufTy).Contents (Elt F) → (⟨S800000x256, .f32⟩ : BufTy).Contents (Elt F)),
    StableHlo.binary main_v105 main_v107 main_v108 (mulf : (⟨S800000x256, .f32⟩ : BufTy).Contents (Elt F) → (⟨S800000x256, .f32⟩ : BufTy).Contents (Elt F) → (⟨S800000x256, .f32⟩ : BufTy).Contents (Elt F)),
    StableHlo.nullary main_cst_25 (constant S_ .f32 0x00000000#32),
    StableHlo.unary main_cst_25 main_v109 (broadcastInDim S50000x256 ![] bcast_S_S50000x256 : (⟨S_, .f32⟩ : BufTy).Contents (Elt F) → (⟨S50000x256, .f32⟩ : BufTy).Contents (Elt F)),
    StableHlo.unary main_v3 main_v110 (broadcastInDim S800000x1 ![0] bcast_S800000_S800000x1_0 : (⟨S800000, .i32⟩ : BufTy).Contents (Elt F) → (⟨S800000x1, .i32⟩ : BufTy).Contents (Elt F)),
    StableHlo.ternary main_v109 main_v110 main_v108 main_v111 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v83 main_v83 main_v112 (mulf : (⟨S50000, .f32⟩ : BufTy).Contents (Elt F) → (⟨S50000, .f32⟩ : BufTy).Contents (Elt F) → (⟨S50000, .f32⟩ : BufTy).Contents (Elt F)),
    StableHlo.unary main_v112 main_v113 (broadcastInDim S50000x1 ![0] bcast_S50000_S50000x1_0 : (⟨S50000, .f32⟩ : BufTy).Contents (Elt F) → (⟨S50000x1, .f32⟩ : BufTy).Contents (Elt F)),
    StableHlo.unary main_v113 main_v114 (broadcastInDim S50000x256 ![0, 1] bcast_S50000x1_S50000x256_0_1 : (⟨S50000x1, .f32⟩ : BufTy).Contents (Elt F) → (⟨S50000x256, .f32⟩ : BufTy).Contents (Elt F)),
    StableHlo.binary main_v114 main_v76 main_v115 (mulf : (⟨S50000x256, .f32⟩ : BufTy).Contents (Elt F) → (⟨S50000x256, .f32⟩ : BufTy).Contents (Elt F) → (⟨S50000x256, .f32⟩ : BufTy).Contents (Elt F)),
    StableHlo.binary main_v111 main_v115 main_v116 (addf : (⟨S50000x256, .f32⟩ : BufTy).Contents (Elt F) → (⟨S50000x256, .f32⟩ : BufTy).Contents (Elt F) → (⟨S50000x256, .f32⟩ : BufTy).Contents (Elt F)),
    StableHlo.nullary main_cst_26 (constant S_ .f32 0x00000000#32),
    StableHlo.binary main_v116 main_cst_26 main_v117 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_27 (constant S_ .f32 0x47435000#32),
    StableHlo.unary main_cst_27 main_v118 (broadcastInDim S256 ![] bcast_S_S256 : (⟨S_, .f32⟩ : BufTy).Contents (Elt F) → (⟨S256, .f32⟩ : BufTy).Contents (Elt F)),
    StableHlo.binary main_v117 main_v118 main_v119 (Host.divf : (⟨S256, .f32⟩ : BufTy).Contents (Elt F) → (⟨S256, .f32⟩ : BufTy).Contents (Elt F) → (⟨S256, .f32⟩ : BufTy).Contents (Elt F)),
    StableHlo.nullary main_c_28 (constantI S_ 32 0#32),
    StableHlo.TRef.nullary main_call2.cst (constant S_ .f32 0x00000000#32),
    StableHlo.TRef.binary (.of main_v116 : TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v116 : TRef sig ⟨S50000x256, .f32⟩) main_call2.v4 main_call2.v5 subf,
    StableHlo.TRef.binary main_call2.v5 main_call2.v5 main_call2.v6 mulf,
    StableHlo.TRef.unary (.of main_c_28 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

end Cert.ReferenceIdeal.RefRun

end
-- ==== Proof.RefOpsSeg4.lean ====
/-
  Stage 4 of the reference program as a list of host operations, in program order (a called function's operations
  stand in its call's place, over the call's own buffers).
-/
import proofs.«166412_j21423296872856_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations %121 … %151: the second normalization and activation, the location head, the scale head with the called softplus's operations and the final small constant. -/
abbrev seg4 : List (HloOp τ sig (Elt F)) :=
  [
    StableHlo.unary main_v119 main_v121 (broadcastInDim S1x256 ![1] bcast_S256_S1x256_1 : (⟨S256, .f32⟩ : BufTy).Contents (Elt F) → (⟨S1x256, .f32⟩ : BufTy).Contents (Elt F)),
    StableHlo.unary main_v121 main_v122 (broadcastInDim S50000x256 ![0, 1] bcast_S1x256_S50000x256_0_1 : (⟨S1x256, .f32⟩ : BufTy).Contents (Elt F) → (⟨S50000x256, .f32⟩ : BufTy).Contents (Elt F)),
    StableHlo.binary main_v116 main_v122 main_v123 (subf : (⟨S50000x256, .f32⟩ : BufTy).Contents (Elt F) → (⟨S50000x256, .f32⟩ : BufTy).Contents (Elt F) → (⟨S50000x256, .f32⟩ : BufTy).Contents (Elt F)),
    StableHlo.unary main_arg5 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v125 main_v123 main_v126 (mulf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x3727C5AC#32),
    StableHlo.unary main_cst_29 main_v127 (broadcastInDim S256 ![] bcast_S_S256 : (⟨S_, .f32⟩ : BufTy).Contents (Elt F) → (⟨S256, .f32⟩ : BufTy).Contents (Elt F)),
    StableHlo.binary main_v120 main_v127 main_v128 (addf : (⟨S256, .f32⟩ : BufTy).Contents (Elt F) → (⟨S256, .f32⟩ : BufTy).Contents (Elt F) → (⟨S256, .f32⟩ : BufTy).Contents (Elt F)),
    StableHlo.unary main_v128 main_v129 (Host.rsqrt : (⟨S256, .f32⟩ : BufTy).Contents (Elt F) → (⟨S256, .f32⟩ : BufTy).Contents (Elt F)),
    StableHlo.unary main_v129 main_v130 (broadcastInDim S1x256 ![1] bcast_S256_S1x256_1 : (⟨S256, .f32⟩ : BufTy).Contents (Elt F) → (⟨S1x256, .f32⟩ : BufTy).Contents (Elt F)),
    StableHlo.unary main_v130 main_v131 (broadcastInDim S50000x256 ![0, 1] bcast_S1x256_S50000x256_0_1 : (⟨S1x256, .f32⟩ : BufTy).Contents (Elt F) → (⟨S50000x256, .f32⟩ : BufTy).Contents (Elt F)),
    StableHlo.binary main_v126 main_v131 main_v132 (mulf : (⟨S50000x256, .f32⟩ : BufTy).Contents (Elt F) → (⟨S50000x256, .f32⟩ : BufTy).Contents (Elt F) → (⟨S50000x256, .f32⟩ : BufTy).Contents (Elt F)),
    StableHlo.unary main_arg6 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S50000x256 ![0, 1] bcast_S1x256_S50000x256_0_1 : (⟨S1x256, .f32⟩ : BufTy).Contents (Elt F) → (⟨S50000x256, .f32⟩ : BufTy).Contents (Elt F)),
    StableHlo.binary main_v132 main_v134 main_v135 (addf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x00000000#32),
    StableHlo.unary main_cst_30 main_v136 (broadcastInDim S50000x256 ![] bcast_S_S50000x256 : (⟨S_, .f32⟩ : BufTy).Contents (Elt F) → (⟨S50000x256, .f32⟩ : BufTy).Contents (Elt F)),
    StableHlo.binary main_v135 main_v136 main_v137 (cmpf .oge : (⟨S50000x256, .f32⟩ : BufTy).Contents (Elt F) → (⟨S50000x256, .f32⟩ : BufTy).Contents (Elt F) → (⟨S50000x256, .i1⟩ : BufTy).Contents (Elt F)),
    StableHlo.nullary main_cst_31 (constant S_ .f32 0x3E4CCCCD#32),
    StableHlo.unary main_cst_31 main_v138 (broadcastInDim S50000x256 ![] bcast_S_S50000x256 : (⟨S_, .f32⟩ : BufTy).Contents (Elt F) → (⟨S50000x256, .f32⟩ : BufTy).Contents (Elt F)),
    StableHlo.binary main_v138 main_v135 main_v139 (mulf : (⟨S50000x256, .f32⟩ : BufTy).Contents (Elt F) → (⟨S50000x256, .f32⟩ : BufTy).Contents (Elt F) → (⟨S50000x256, .f32⟩ : BufTy).Contents (Elt F)),
    StableHlo.TRef.ternary (.of main_v137 : TRef sig ⟨S50000x256, .i1⟩) (.of main_v135 : TRef sig ⟨S50000x256, .f32⟩) (.of main_v139 : TRef sig ⟨S50000x256, .f32⟩) main_call3.v0 select,
    StableHlo.binary main_v140 main_arg7 main_v141 ((fun l r => Host.dotGeneral dot_S50000x256_S256x32_S50000x32_1_0_0_1_n_n none l r) : (⟨S50000x256, .f32⟩ : BufTy).Contents (Elt F) → (⟨S256x32, .f32⟩ : BufTy).Contents (Elt F) → (⟨S50000x32, .f32⟩ : BufTy).Contents (Elt F)),
    StableHlo.unary main_arg8 main_v142 (broadcastInDim S1x32 ![1] bcast_S32_S1x32_1 : (⟨S32, .f32⟩ : BufTy).Contents (Elt F) → (⟨S1x32, .f32⟩ : BufTy).Contents (Elt F)),
    StableHlo.unary main_v142 main_v143 (broadcastInDim S50000x32 ![0, 1] bcast_S1x32_S50000x32_0_1 : (⟨S1x32, .f32⟩ : BufTy).Contents (Elt F) → (⟨S50000x32, .f32⟩ : BufTy).Contents (Elt F)),
    StableHlo.binary main_v141 main_v143 main_v144 (addf : (⟨S50000x32, .f32⟩ : BufTy).Contents (Elt F) → (⟨S50000x32, .f32⟩ : BufTy).Contents (Elt F) → (⟨S50000x32, .f32⟩ : BufTy).Contents (Elt F)),
    StableHlo.binary main_v140 main_arg9 main_v145 ((fun l r => Host.dotGeneral dot_S50000x256_S256x32_S50000x32_1_0_0_1_n_n none l r) : (⟨S50000x256, .f32⟩ : BufTy).Contents (Elt F) → (⟨S256x32, .f32⟩ : BufTy).Contents (Elt F) → (⟨S50000x32, .f32⟩ : BufTy).Contents (Elt F)),
    StableHlo.unary main_arg10 main_v146 (broadcastInDim S1x32 ![1] bcast_S32_S1x32_1 : (⟨S32, .f32⟩ : BufTy).Contents (Elt F) → (⟨S1x32, .f32⟩ : BufTy).Contents (Elt F)),
    StableHlo.unary main_v146 main_v147 (broadcastInDim S50000x32 ![0, 1] bcast_S1x32_S50000x32_0_1 : (⟨S1x32, .f32⟩ : BufTy).Contents (Elt F) → (⟨S50000x32, .f32⟩ : BufTy).Contents (Elt F)),
    StableHlo.binary main_v145 main_v147 main_v148 (addf : (⟨S50000x32, .f32⟩ : BufTy).Contents (Elt F) → (⟨S50000x32, .f32⟩ : BufTy).Contents (Elt F) → (⟨S50000x32, .f32⟩ : BufTy).Contents (Elt F)),
    StableHlo.TRef.nullary main_call4.cst (constant S_ .f32 0x00000000#32),
    StableHlo.TRef.unary main_call4.cst main_call4.v0 (broadcastInDim S50000x32 ![] bcast_S_S50000x32),
    StableHlo.TRef.binary (.of main_v148 : TRef sig ⟨S50000x32, .f32⟩) main_call4.v0 main_call4.v1 maximumf,
    StableHlo.TRef.unary main_call4.cst main_call4.v2 (broadcastInDim S50000x32 ![] bcast_S_S50000x32),
    StableHlo.TRef.binary (.of main_v148 : TRef sig ⟨S50000x32, .f32⟩) main_call4.v2 main_call4.v3 subf,
    StableHlo.TRef.binary main_call4.v3 main_call4.v3 main_call4.v4 (cmpf .une),
    StableHlo.TRef.unary main_call4.cst main_call4.v5 (broadcastInDim S50000x32 ![] bcast_S_S50000x32),
    StableHlo.TRef.binary (.of main_v148 : TRef sig ⟨S50000x32, .f32⟩) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.nullary main_cst_32 (constant S_ .f32 0x33D6BF95#32),
    StableHlo.unary main_cst_32 main_v150 (broadcastInDim S50000x32 ![] bcast_S_S50000x32 : (⟨S_, .f32⟩ : BufTy).Contents (Elt F) → (⟨S50000x32, .f32⟩ : BufTy).Contents (Elt F)),
    StableHlo.binary main_v149 main_v150 main_v151 (addf : (⟨S50000x32, .f32⟩ : BufTy).Contents (Elt F) → (⟨S50000x32, .f32⟩ : BufTy).Contents (Elt F) → (⟨S50000x32, .f32⟩ : BufTy).Contents (Elt F)) ]

end Cert.ReferenceIdeal.RefRun

end
-- ==== Proof.RefRun.lean ====
/-
  The reference program's run. Its main function is four windows run in order, each a straight line of host
  operations (a called function's operations inlined at its call). The same operations, in the same order, cut
  at the program's five stages are the list `ops`; the whole program is `ops` run as one line, every buffer it
  touches is a device buffer, and from any memory with zero counters every weakly fair execution terminates with
  each buffer at the fold of the operations' results over the launch contents. The fold over `ops` is the five
  stages' folds one after the other, and the program's arguments keep their contents.
-/
import proofs.«166412_j21423296872856_1_alg».proof.Proof.RefOps0
import proofs.«166412_j21423296872856_1_alg».proof.Proof.RefOps1
import proofs.«166412_j21423296872856_1_alg».proof.Proof.RefOps2
import proofs.«166412_j21423296872856_1_alg».proof.Proof.RefOps3
import proofs.«166412_j21423296872856_1_alg».proof.Proof.RefOpsSeg0
import proofs.«166412_j21423296872856_1_alg».proof.Proof.RefOpsSeg1
import proofs.«166412_j21423296872856_1_alg».proof.Proof.RefOpsSeg2
import proofs.«166412_j21423296872856_1_alg».proof.Proof.RefOpsSeg3
import proofs.«166412_j21423296872856_1_alg».proof.Proof.RefOpsSeg4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order: the five stages. -/
def ops : List (HloOp τ sig (Elt F)) := seg0 ++ seg1 ++ seg2 ++ seg3 ++ seg4

/-- Two lines folded one after the other are their concatenation folded as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole program is the five stages' folds, one after the other. -/
theorem after_ops (V : Valuation τ sig (Elt F)) :
    after ops V = after seg4 (after seg3 (after seg2 (after seg1 (after seg0 V)))) := by
  unfold ops
  rw [after_append, after_append, after_append, after_append]

set_option maxRecDepth 65536 in
set_option maxHeartbeats 4000000 in
/-- Cut at the stages or at the printed windows, it is one list: the same operations in the same order. -/
theorem ops_eq_windows : (ops : List (HloOp τ sig (Elt F))) = ops0 ++ (ops1 ++ (ops2 ++ ops3)) := rfl

/-- The main function is the four windows in order, each its list run as a line; lines run one after the
    other are their concatenation run as one. -/
theorem main_eq (c : Dev nD) : main (F := F) c = seq ops := by
  rw [ops_eq_windows]
  simp only [seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rw [ops_eq_windows] at h
    simp only [List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

theorem ops_fresh : ∀ op ∈ (ops : List (HloOp τ sig (Elt F))), op.fresh = ∅ := fun op h => by
  rw [ops_eq_windows] at h
  simp only [List.mem_append] at h
  rcases h with h | h | h | h
  exacts [ops0_fresh op h, ops1_fresh op h, ops2_fresh op h, ops3_fresh op h]

/-- At the compiled mesh, for any float values, from any memory with zero counters: every weakly fair execution
    of the main function on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- Every buffer the program writes, in order. -/
abbrev ops_W : List (Ref sig .tc) := segSrcDst_W ++ (segRowTotal_W ++ (segProj1_W ++ (segGcn1a_W ++ (segGcn1b_W ++ (segMean1_W ++ (segVar1_W ++ (segBn1_W ++ (segProj2_W ++ (segGcn2a_W ++ (segGcn2b_W ++ (segMean2_W ++ (segVar2_W ++ (segBn2_W ++ (segLoc_W ++ (segStdA_W ++ (segStdB_W))))))))))))))))

/-- A buffer the program does not write keeps its contents through the whole run. -/
theorem ops_keep (V : Valuation τ sig (Elt F)) (r : Ref sig .tc) (h : r ∉ ops_W) :
    after ops V (Proc.devRef .tc r) = V (Proc.devRef .tc r) := by
  simp only [ops_W, List.mem_append, not_or] at h
  obtain ⟨h0, h1, h2, h3, h4, h5, h6, h7, h8, h9, h10, h11, h12, h13, h14, h15, h16⟩ := h
  rw [ops_eq_windows]
  unfold ops0 ops1 ops2 ops3
  simp only [after_append]
  rw [segStdB_keep _ r h16, segStdA_keep _ r h15, segLoc_keep _ r h14, segBn2_keep _ r h13, segVar2_keep _ r h12, segMean2_keep _ r h11, segGcn2b_keep _ r h10, segGcn2a_keep _ r h9, segProj2_keep _ r h8, segBn1_keep _ r h7, segVar1_keep _ r h6, segMean1_keep _ r h5, segGcn1b_keep _ r h4, segGcn1a_keep _ r h3, segProj1_keep _ r h2, segRowTotal_keep _ r h1, segSrcDst_keep _ r h0]

/-- The program's twelve arguments keep their launch contents. -/
theorem arg0_eq (V : Valuation τ sig (Elt F)) : after ops V (main_arg0 : DevRef τ sig) = V (main_arg0 : DevRef τ sig) := ops_keep V main_arg0 (by decide)
theorem arg1_eq (V : Valuation τ sig (Elt F)) : after ops V (main_arg1 : DevRef τ sig) = V (main_arg1 : DevRef τ sig) := ops_keep V main_arg1 (by decide)
theorem arg2_eq (V : Valuation τ sig (Elt F)) : after ops V (main_arg2 : DevRef τ sig) = V (main_arg2 : DevRef τ sig) := ops_keep V main_arg2 (by decide)
theorem arg3_eq (V : Valuation τ sig (Elt F)) : after ops V (main_arg3 : DevRef τ sig) = V (main_arg3 : DevRef τ sig) := ops_keep V main_arg3 (by decide)
theorem arg4_eq (V : Valuation τ sig (Elt F)) : after ops V (main_arg4 : DevRef τ sig) = V (main_arg4 : DevRef τ sig) := ops_keep V main_arg4 (by decide)
theorem arg5_eq (V : Valuation τ sig (Elt F)) : after ops V (main_arg5 : DevRef τ sig) = V (main_arg5 : DevRef τ sig) := ops_keep V main_arg5 (by decide)
theorem arg6_eq (V : Valuation τ sig (Elt F)) : after ops V (main_arg6 : DevRef τ sig) = V (main_arg6 : DevRef τ sig) := ops_keep V main_arg6 (by decide)
theorem arg7_eq (V : Valuation τ sig (Elt F)) : after ops V (main_arg7 : DevRef τ sig) = V (main_arg7 : DevRef τ sig) := ops_keep V main_arg7 (by decide)
theorem arg8_eq (V : Valuation τ sig (Elt F)) : after ops V (main_arg8 : DevRef τ sig) = V (main_arg8 : DevRef τ sig) := ops_keep V main_arg8 (by decide)
theorem arg9_eq (V : Valuation τ sig (Elt F)) : after ops V (main_arg9 : DevRef τ sig) = V (main_arg9 : DevRef τ sig) := ops_keep V main_arg9 (by decide)
theorem arg10_eq (V : Valuation τ sig (Elt F)) : after ops V (main_arg10 : DevRef τ sig) = V (main_arg10 : DevRef τ sig) := ops_keep V main_arg10 (by decide)
theorem arg11_eq (V : Valuation τ sig (Elt F)) : after ops V (main_arg11 : DevRef τ sig) = V (main_arg11 : DevRef τ sig) := ops_keep V main_arg11 (by decide)

end Cert.ReferenceIdeal.RefRun

end
-- ==== Proof.Spec.lean ====
/-
  The mathematics both programs compute, written once as closed forms over the extended reals, index by index.

  A cell-by-gene count matrix x [A, B] is normalised row by row: with t(p) = ∑ₖ x(p,k) the row's total, the
  normalised entry is log(1 + x(p,k) · (10000 / t(p))).  A dense layer contracts the normalised row with a weight
  matrix.  After the graph aggregation (a function both programs share and which is never opened here) a layer
  applies batch normalisation with given per-feature statistics μ, v and affine parameters γ, β,
      bn(p,k) = γ(k) · (h(p,k) − μ(k)) · (v(k) + ε)^(−1/2) + β(k),
  the leaky rectifier y ↦ y if y ≥ 0 else 0.2 · y, and the next contraction.  The two output heads are a
  contraction plus a bias, and the softplus of one (in its overflow-safe form max(z,0) + log(1 + e^(−|z|)))
  plus 1e-7.  The five float words the programs share are kept as the words they are: the same word on both
  sides is never evaluated.
-/
import Idealize.ShloMosaic.PureOps.Ideal

noncomputable section

namespace Cert.Spec

open Idealize.ShloMosaic

/-- The word of +0.0. -/
def zeroW : EReal := Ideal.ofBits .f32 0x00000000#32
/-- The word of 10000. -/
def scaleW : EReal := Ideal.ofBits .f32 0x461C4000#32
/-- The word of the batch-normalisation ε (1e-5 rounded to f32). -/
def bnEpsW : EReal := Ideal.ofBits .f32 0x3727C5AC#32
/-- The word of the rectifier's slope (0.2 rounded to f32). -/
def slopeW : EReal := Ideal.ofBits .f32 0x3E4CCCCD#32
/-- The word of the standard deviation's floor (1e-7 rounded to f32). -/
def stdEpsW : EReal := Ideal.ofBits .f32 0x33D6BF95#32

variable {A B C H : ℕ}

/-- The total of row `p`. -/
def total (x : Fin A → Fin B → EReal) (p : Fin A) : EReal := ∑ k : Fin B, x p k

/-- The normalised entry log(1 + x(p,k) · (10000 / total(p))). -/
def normed (x : Fin A → Fin B → EReal) (p : Fin A) (k : Fin B) : EReal :=
  Ideal.log1p (x p k * Ideal.div scaleW (total x p))

/-- The first dense layer: the normalised row `p` contracted with column `g` of the weights. -/
def proj1 (x : Fin A → Fin B → EReal) (w : Fin B → Fin C → EReal) (p : Fin A) (g : Fin C) : EReal :=
  ∑ k : Fin B, normed x p k * w k g

/-- Batch normalisation of entry (p,k) with the statistics μ, v and the affine parameters γ, β. -/
def bn (γ β μ v : Fin H → EReal) (h : Fin A → Fin H → EReal) (p : Fin A) (k : Fin H) : EReal :=
  γ k * (h p k - μ k) * Ideal.rsqrt (v k + bnEpsW) + β k

/-- The leaky rectifier: `y` where `y ≥ 0`, the slope times `y` elsewhere. -/
def leaky (y : EReal) : EReal := Scalar.select (Ideal.cmp .oge y zeroW) y (slopeW * y)

/-- A layer's activation at (p,k). -/
def act (γ β μ v : Fin H → EReal) (h : Fin A → Fin H → EReal) (p : Fin A) (k : Fin H) : EReal :=
  leaky (bn γ β μ v h p k)

/-- The activation row `p` contracted with column `g` of a weight matrix. -/
def proj2 (γ β μ v : Fin H → EReal) (h : Fin A → Fin H → EReal) (w : Fin H → Fin C → EReal) (p : Fin A) (g : Fin C) : EReal :=
  ∑ k : Fin H, act γ β μ v h p k * w k g

/-- The location head: the contraction plus the bias. -/
def locHead (γ β μ v : Fin H → EReal) (h : Fin A → Fin H → EReal) (w : Fin H → Fin C → EReal) (b : Fin C → EReal)
    (p : Fin A) (g : Fin C) : EReal :=
  proj2 γ β μ v h w p g + b g

/-- Softplus in its overflow-safe form, with the guard `d ≠ d` on `d = z − 0` that no extended real passes. -/
def softplus (z : EReal) : EReal :=
  Scalar.select (Ideal.cmp .one (z - zeroW) (z - zeroW)) (z + zeroW)
    (max z zeroW + Ideal.log1p (Ideal.exp (-(max (z - zeroW) (-(z - zeroW))))))

/-- The scale head: softplus of the contraction plus the bias, plus the floor. -/
def stdHead (γ β μ v : Fin H → EReal) (h : Fin A → Fin H → EReal) (w : Fin H → Fin C → EReal) (b : Fin C → EReal)
    (p : Fin A) (g : Fin C) : EReal :=
  softplus (proj2 γ β μ v h w p g + b g) + stdEpsW

end Cert.Spec

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.R0Payload.lean ====
/-
  The first dense stage on one block of rows, read index by index.

  A block holds 2000 rows of the count matrix. The stage first totals each row (a sum along the last axis, kept as
  a column [2000, 1]); it then divides the word of 10000 by that column, spreads the quotient along the rows,
  multiplies the block by it, takes log(1 + ·), and contracts the result with the weight matrix into a zero
  accumulator. Over the extended reals a change of float format is the identity and neither the sum nor the
  contraction rounds, so entry (r, g) of the product is the first dense layer's closed form on the block's rows,
  and entry (r, 0) of the column is the total of row r.
-/
import proofs.«166412_j21423296872856_1_alg».proof.Proof.Gen.KernelIdeal.Skeleton
import proofs.«166412_j21423296872856_1_alg».proof.Proof.Spec
import proofs.«166412_j21423296872856_1_alg».proof.Proof.LibKeepdims
import proofs.«166412_j21423296872856_1_alg».proof.Proof.LibPlainDot

noncomputable section

namespace Cert.KernelIdeal.Region0

open Idealize.ShloMosaic Idealize.ShloMosaic.ValueIdx

/-- The column of row totals at (r, u): the sum over k of the block's row r. -/
theorem pay_total (x0 : Vec Ideal S2000x1000 .f32) (r : Fin 2000) (u : Fin 1) :
    Gen.k0_pay1 x0 (ix2 r u) = Cert.Spec.total (fun r k => x0 (ix2 r k)) r := by
  unfold Gen.k0_pay1
  refine (Cert.Lib.Keepdims.shapeCast_a_a1_apply (a := 2000) _ _ r u).trans ?_
  exact Cert.Lib.Keepdims.laneSum_apply (a := 2000) (b := 1000) x0 _ _ _ _ r

/-- The product at (r, g): the normalised row r of the block contracted with column g of the weights. -/
theorem pay_proj (x0 : Vec Ideal S2000x1000 .f32) (x1 : Vec Ideal S1000x256 .bf16) (r : Fin 2000) (g : Fin 256) :
    Gen.k0_pay2 x0 x1 (ix2 r g)
      = Cert.Spec.proj1 (fun r k => x0 (ix2 r k)) (fun k g => x1 (ix2 k g)) r g := by
  unfold Gen.k0_pay2
  refine (Cert.PlainDot.matmul_zero_apply (M := 2000) (K := 1000) (N := 256)
    dot_S2000x1000_S1000x256_S2000x256_1_0_0_1_n_n rfl _ _ r g).trans ?_
  unfold Cert.Spec.proj1 Cert.Spec.normed
  refine Finset.sum_congr rfl fun k _ => ?_
  rw [shapeCast_self]
  refine congrArg (fun z => Ideal.log1p (x0 (ix2 r k) * z) * x1 (ix2 k g)) ?_
  refine (Cert.Lib.Keepdims.broadcastTo_a1_ab_apply (a := 2000) (b := 1000) _ _ r k).trans ?_
  exact congrArg (Ideal.div Cert.Spec.scaleW) (pay_total x0 r 0)

end Cert.KernelIdeal.Region0

end
-- ==== Proof.R0Array.lean ====
/-
  From blocks of rows to whole arrays, for the first dense stage.

  The count matrix is processed in 25 blocks of 2000 rows; block t holds rows 2000·t … 2000·t + 1999 and the weight
  matrix is read whole at every block. The first dense layer's closed form at row p reads only row p of the count
  matrix, so what block t writes at its row r is the closed form of the whole matrix at row p = 2000·t + r. The
  blocks' row ranges tile the 50000 rows (row p lies in block p / 2000), hence each output array ends holding the
  closed form at every index.
-/
import proofs.«166412_j21423296872856_1_alg».proof.Proof.Gen.KernelIdeal.Frame
import proofs.«166412_j21423296872856_1_alg».proof.Proof.R0Payload
import Idealize.ShloMosaic.Lib.Pipeline.Value

noncomputable section

open Idealize.ShloMosaic Idealize.ShloMosaic.TcCoe Idealize.SL.Sem
open Idealize.ShloMosaic.Pipeline (Dat)

namespace Cert.KernelIdeal.Region0

open Idealize.ShloMosaic.ValueIdx
open Cert.KernelIdeal Cert.KernelIdeal.Gen

/-! ## The closed forms depend on one row only -/

/-- The total of a row is the same for two matrices that agree on that row. -/
theorem total_row {A A' B : ℕ} (x : Fin A → Fin B → EReal) (x' : Fin A' → Fin B → EReal) (p : Fin A) (p' : Fin A')
    (hx : ∀ k, x p k = x' p' k) : Cert.Spec.total x p = Cert.Spec.total x' p' :=
  Finset.sum_congr rfl fun k _ => hx k

/-- The first dense layer at (p, g) is the same for two matrices that agree on row p and two weight matrices that
    agree on column g. -/
theorem proj1_row {A A' B C : ℕ} (x : Fin A → Fin B → EReal) (x' : Fin A' → Fin B → EReal)
    (w w' : Fin B → Fin C → EReal) (p : Fin A) (p' : Fin A') (g : Fin C)
    (hx : ∀ k, x p k = x' p' k) (hw : ∀ k, w k g = w' k g) :
    Cert.Spec.proj1 x w p g = Cert.Spec.proj1 x' w' p' g := by
  unfold Cert.Spec.proj1 Cert.Spec.normed
  rw [total_row x x' p p' hx]
  exact Finset.sum_congr rfl fun k _ => by rw [hx k, hw k]

/-! ## The whole-array functions -/

/-- The first dense layer of a whole count matrix and weight matrix, as a function of the output index. -/
def projArr (X : S50000x1000.Idx → EReal) (W : S1000x256.Idx → EReal) : S50000x256.Idx → EReal :=
  fun i => Cert.Spec.proj1 (fun (p : Fin 50000) (k : Fin 1000) => X (ix2 p k))
    (fun (k : Fin 1000) (g : Fin 256) => W (ix2 k g)) (i 0 : Fin 50000) (i 1 : Fin 256)

/-- The row totals of a whole count matrix as a column. -/
def totalArr (X : S50000x1000.Idx → EReal) : S50000x1.Idx → EReal :=
  fun i => Cert.Spec.total (fun (p : Fin 50000) (k : Fin 1000) => X (ix2 p k)) (i 0 : Fin 50000)

variable (V : (c : Dev nD) → (b : Ref sig .tc) → Buf (Elt Ideal) ((c : Thread nD τ).loc b))

/-! ## The index maps over the grid -/

theorem hz : (![0, 0] : Fin 2 → Nat) = fun _ => 0 := funext fun a => by fin_cases a <;> rfl

/-- The printed index maps, decided over the 25 grid points: the three blocked windows are at block (t, 0), the
    weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The input blocks read off the arrays -/

/-- Row r of block t of the count matrix is row 2000·t + r of the matrix. -/
theorem xblk_apply (c : Dev nD) (t : Fin cfg0.N) (r : Fin 2000) (k : Fin 1000) (p : Fin 50000)
    (hp : p.val = t.val * 2000 + r.val) :
    (iblk0 V c 0 t : Vec Ideal S2000x1000 .f32) (ix2 r k)
      = (V c (Pipeline.arrRef spec0 0) : S50000x1000.Idx → EReal) (ix2 p k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * r.val = p.val; omega
  | ⟨1, _⟩ => show win0_0.index t (1 : Fin 2) * 1000 + 1 * k.val = k.val; omega

/-- The weights' block at every point is the whole weight matrix. -/
theorem wblk_apply (c : Dev nD) (t : Fin cfg0.N) (k : Fin 1000) (g : Fin 256) :
    (iblk0 V c 1 t : Vec Ideal S1000x256 .bf16) (ix2 k g)
      = (V c (Pipeline.arrRef spec0 1) : S1000x256.Idx → EReal) (ix2 k g) := by
  obtain ⟨-, -, e0, e1, -⟩ := idx_facts t
  unfold iblk0
  rw [View.read_apply]
  show V c main_v4 _ = V c main_v4 _
  refine congrArg (V c main_v4) ?_
  funext a
  apply Fin.ext
  match a with
  | ⟨0, _⟩ => show win0_1.index t (0 : Fin 2) * 1000 + 1 * k.val = k.val; omega
  | ⟨1, _⟩ => show win0_1.index t (1 : Fin 2) * 256 + 1 * g.val = g.val; omega

/-! ## What each point writes back -/

/-- Row r of output block t sits at row 2000·t + r of the product array. -/
theorem emb_proj (t : Fin cfg0.N) (r : Fin 2000) (g : Fin 256) (p : Fin 50000) (hp : p.val = t.val * 2000 + r.val) :
    (((cfg0.win 2).blk t).view.emb (ix2 r g) : S50000x256.Idx) = ix2 p g := by
  obtain ⟨-, -, -, -, e0, e1, -⟩ := idx_facts t
  funext a
  apply Fin.ext
  match a with
  | ⟨0, _⟩ => show win0_2.index t (0 : Fin 2) * 2000 + 1 * r.val = p.val; omega
  | ⟨1, _⟩ => show win0_2.index t (1 : Fin 2) * 256 + 1 * g.val = g.val; omega

/-- Row r of output block t sits at row 2000·t + r of the column of totals. -/
theorem emb_total (t : Fin cfg0.N) (r : Fin 2000) (u : Fin 1) (p : Fin 50000) (hp : p.val = t.val * 2000 + r.val) :
    (((cfg0.win 3).blk t).view.emb (ix2 r u) : S50000x1.Idx) = ix2 p u := by
  obtain ⟨-, -, -, -, -, -, e0, e1⟩ := idx_facts t
  funext a
  apply Fin.ext
  match a with
  | ⟨0, _⟩ => show win0_3.index t (0 : Fin 2) * 2000 + 1 * r.val = p.val; omega
  | ⟨1, _⟩ => show win0_3.index t (1 : Fin 2) * 1 + 1 * u.val = u.val; omega

/-- What point t writes back to the product array is block t of the first dense layer of the arrays as the region
    finds them. -/
theorem flushed_proj (c : Dev nD) (t : Fin cfg0.N) :
    (dat0 V c).flushed 2 t = ((cfg0.win 2).blk t).view.read (Elt Ideal)
      (projArr (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x1000) hz, View.ld_unit_zero (S := S1000x256) hz]
  have hN : cfg0.N = 25 := N_0
  have ht := t.isLt
  funext j
  obtain ⟨r, g, rfl⟩ : ∃ (r : Fin 2000) (g : Fin 256), j = ix2 r g := ⟨j 0, j 1, eq_ix2 j⟩
  have hr := r.isLt
  show k0_pay2 (iblk0 V c 0 t) (iblk0 V c 1 t) (ix2 r g)
    = projArr (V c (Pipeline.arrRef spec0 0)) (V c (Pipeline.arrRef spec0 1)) (((cfg0.win 2).blk t).view.emb (ix2 r g))
  rw [emb_proj t r g ⟨t.val * 2000 + r.val, by omega⟩ rfl]
  refine (pay_proj (iblk0 V c 0 t) (iblk0 V c 1 t) r g).trans ?_
  exact proj1_row _ _ _ _ r ⟨t.val * 2000 + r.val, by omega⟩ g
    (fun k => xblk_apply V c t r k ⟨t.val * 2000 + r.val, by omega⟩ rfl) (fun k => wblk_apply V c t k g)

/-- What point t writes back to the column of totals is block t of the row totals of the count matrix as the region
    finds it. -/
theorem flushed_total (c : Dev nD) (t : Fin cfg0.N) :
    (dat0 V c).flushed 3 t = ((cfg0.win 3).blk t).view.read (Elt Ideal)
      (totalArr (V c (Pipeline.arrRef spec0 0))) := by
  show (cfg0.win 3).cut (grid0.coords t) ((dat0 V c).after 3 t) = _
  rw [after0_3]
  unfold out0_3
  rw [View.canon_unit_zero hz]
  simp only [View.ld_unit_zero (S := S2000x1000) hz]
  have hN : cfg0.N = 25 := N_0
  have ht := t.isLt
  funext j
  obtain ⟨r, u, rfl⟩ : ∃ (r : Fin 2000) (u : Fin 1), j = ix2 r u := ⟨j 0, j 1, eq_ix2 j⟩
  have hr := r.isLt
  show k0_pay1 (iblk0 V c 0 t) (ix2 r u)
    = totalArr (V c (Pipeline.arrRef spec0 0)) (((cfg0.win 3).blk t).view.emb (ix2 r u))
  rw [emb_total t r u ⟨t.val * 2000 + r.val, by omega⟩ rfl]
  refine (pay_total (iblk0 V c 0 t) r u).trans ?_
  exact total_row _ _ r ⟨t.val * 2000 + r.val, by omega⟩
    (fun k => xblk_apply V c t r k ⟨t.val * 2000 + r.val, by omega⟩ rfl)

/-! ## The blocks tile the arrays -/

/-- An index of the product array is in point t's block iff each coordinate is in the block's range on its axis. -/
theorem mem_blk_proj (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v8_0).slice (win0_2.rect t)).set ↔ _
  rw [View.set_slice_whole, Rect.mem_set_unit]
  exact Iff.rfl

/-- An index of the column of totals is in point t's block iff each coordinate is in the block's range on its axis. -/
theorem mem_blk_total (t : Fin cfg0.N) (i : S50000x1.Idx) :
    i ∈ ((cfg0.win 3).blk t).view.set ↔ ∀ a : Fin 2, win0_3.index t a * S2000x1.size a ≤ (i a).val
      ∧ (i a).val < win0_3.index t a * S2000x1.size a + S2000x1.size a := by
  show i ∈ ((View.whole main_v8_1).slice (win0_3.rect t)).set ↔ _
  rw [View.set_slice_whole, Rect.mem_set_unit]
  exact Iff.rfl

/-- Row p of the product array lies in the block of point p / 2000. -/
theorem cover_proj (i : S50000x256.Idx) :
    ∃ t : Fin cfg0.N, (cfg0.win 2).flush t = true ∧ i ∈ ((cfg0.win 2).blk t).view.set := by
  have hN : cfg0.N = 25 := N_0
  have h0 : (i 0).val < 50000 := (i 0).isLt
  have h1 : (i 1).val < 256 := (i 1).isLt
  obtain ⟨t, htv⟩ : ∃ t : Fin cfg0.N, t.val = (i 0).val / 2000 := ⟨⟨(i 0).val / 2000, by omega⟩, rfl⟩
  obtain ⟨-, -, -, -, e0, e1, -⟩ := idx_facts t
  refine ⟨t, flush0_2 t, ?_⟩
  rw [mem_blk_proj]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- Row p of the column of totals lies in the block of point p / 2000. -/
theorem cover_total (i : S50000x1.Idx) :
    ∃ t : Fin cfg0.N, (cfg0.win 3).flush t = true ∧ i ∈ ((cfg0.win 3).blk t).view.set := by
  have hN : cfg0.N = 25 := N_0
  have h0 : (i 0).val < 50000 := (i 0).isLt
  have h1 : (i 1).val < 1 := (i 1).isLt
  obtain ⟨t, htv⟩ : ∃ t : Fin cfg0.N, t.val = (i 0).val / 2000 := ⟨⟨(i 0).val / 2000, by omega⟩, rfl⟩
  obtain ⟨-, -, -, -, -, -, e0, e1⟩ := idx_facts t
  refine ⟨t, flush0_3 t, ?_⟩
  rw [mem_blk_total]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 1 ≤ (i 1).val ∧ (i 1).val < win0_3.index t (1 : Fin 2) * 1 + 1; omega

/-! ## The arrays after the region -/

/-- The product array after the region: the first dense layer of the arrays as the region finds them. -/
theorem arr_proj_eq (c : Dev nD) :
    (dat0 V c).arrAt 2 cfg0.N = projArr (V c (Pipeline.arrRef spec0 0)) (V c (Pipeline.arrRef spec0 1)) :=
  (dat0 V c).arrAt_eq_of_cover 2 _ (fun t _ => flushed_proj V c t) cover_proj

/-- The column of totals after the region: the row totals of the count matrix as the region finds it. -/
theorem arr_total_eq (c : Dev nD) :
    (dat0 V c).arrAt 3 cfg0.N = totalArr (V c (Pipeline.arrRef spec0 0)) :=
  (dat0 V c).arrAt_eq_of_cover 3 _ (fun t _ => flushed_total V c t) cover_total

/-- Entry (p, g) of the product array after the region. -/
theorem arr_proj (c : Dev nD) (p : Fin 50000) (g : Fin 256) :
    ((dat0 V c).arrAt 2 cfg0.N : S50000x256.Idx → EReal) (ix2 p g)
      = Cert.Spec.proj1 (fun (p : Fin 50000) (k : Fin 1000) => (V c (Pipeline.arrRef spec0 0) : S50000x1000.Idx → EReal) (ix2 p k))
          (fun (k : Fin 1000) (g : Fin 256) => (V c (Pipeline.arrRef spec0 1) : S1000x256.Idx → EReal) (ix2 k g)) p g := by
  rw [arr_proj_eq]
  rfl

/-- Entry (p, u) of the column of totals after the region. -/
theorem arr_total (c : Dev nD) (p : Fin 50000) (u : Fin 1) :
    ((dat0 V c).arrAt 3 cfg0.N : S50000x1.Idx → EReal) (ix2 p u)
      = Cert.Spec.total (fun (p : Fin 50000) (k : Fin 1000) => (V c (Pipeline.arrRef spec0 0) : S50000x1000.Idx → EReal) (ix2 p k)) p := by
  rw [arr_total_eq]
  rfl

end Cert.KernelIdeal.Region0

end
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.R0Ref.lean ====
/-
  The reference's first dense stage, read index by index.

  The host totals each row of the count matrix starting from the word of +0.0 (which is 0 over the extended reals),
  keeps the totals as a column [50000, 1], divides the word of 10000 (spread to the same column) by it, spreads the
  quotient along the rows, multiplies the matrix by it, takes log(1 + ·), and contracts with the weight matrix.
  None of these steps rounds over the extended reals, so entry (p, g) of the product is the first dense layer's
  closed form at row p, and entry (p, 0) of the column is the total of row p.
-/
import proofs.«166412_j21423296872856_1_alg».proof.ReferenceIdeal
import proofs.«166412_j21423296872856_1_alg».proof.Proof.Spec
import proofs.«166412_j21423296872856_1_alg».proof.Proof.LibPlainDot
import proofs.«166412_j21423296872856_1_alg».proof.Proof.LibHostColumns
import proofs.«166412_j21423296872856_1_alg».proof.Proof.LibBroadcastInDim

noncomputable section

namespace Cert.ReferenceIdeal

open Idealize.ShloMosaic Idealize.ShloMosaic.ValueIdx

variable [Facts]
open Facts₀ Facts

namespace Region0

/-- The column of row totals: the host's sum along the last axis from the zero word, kept as [50000, 1]. -/
def rowTotalTerm (x : FVec Ideal S50000x1000 .f32) : FVec Ideal S50000x1 .f32 :=
  broadcastInDim S50000x1 ![0] bcast_S50000_S50000x1_0
    (Host.reduceAdd x (constant S_ .f32 0x00000000#32) reducesTo_S50000x1000_S50000_d1 h_S_)

/-- The first dense layer as the host computes it: the normalised matrix contracted with the weights. -/
def proj1Term (x : FVec Ideal S50000x1000 .f32) (W : FVec Ideal S1000x256 .f32) : FVec Ideal S50000x256 .f32 :=
  Host.dotGeneral dot_S50000x1000_S1000x256_S50000x256_1_0_0_1_n_n none
    (Host.log1p (mulf x (broadcastInDim S50000x1000 ![0, 1] bcast_S50000x1_S50000x1000_0_1
      (Host.divf (broadcastInDim S50000x1 ![] bcast_S_S50000x1 (constant S_ .f32 0x461C4000#32)) (rowTotalTerm x)))))
    W

/-- The column at (p, u) is the total of row p: the sum starts from the zero word, which is 0. -/
theorem ref_total (x : FVec Ideal S50000x1000 .f32) (p : Fin 50000) (u : Fin 1) :
    rowTotalTerm x (ix2 p u) = Cert.Spec.total (fun p k => x (ix2 p k)) p := by
  unfold rowTotalTerm
  refine (Cert.Lib.InDim.vec_as_col (a := 50000) _ _ p u).trans ?_
  refine (Cert.Lib.HostColumns.hostRowSum_apply (a := 50000) (b := 1000) x _ _ (by decide) _ p).trans ?_
  show Ideal.ofBits .f32 0x00000000#32 + _ = _
  rw [Ideal.ofBits_zero_f32, zero_add]
  rfl

/-- The word of 10000 spread to a column reads that word at every entry. -/
theorem scale_col (p : Fin 50000) (u : Fin 1) :
    broadcastInDim S50000x1 ![] bcast_S_S50000x1 (constant (F := Ideal) S_ .f32 0x461C4000#32) (ix2 p u)
      = Cert.Spec.scaleW := rfl

/-- The column of quotients at (p, u): the word of 10000 divided by the total of row p. -/
theorem quot_col (x : FVec Ideal S50000x1000 .f32) (p : Fin 50000) (u : Fin 1) :
    Host.divf (broadcastInDim S50000x1 ![] bcast_S_S50000x1 (constant (F := Ideal) S_ .f32 0x461C4000#32))
        (rowTotalTerm x) (ix2 p u)
      = Ideal.div Cert.Spec.scaleW (Cert.Spec.total (fun p k => x (ix2 p k)) p) := by
  unfold Host.divf
  rw [Ideal.hostDivf_def, scale_col, ref_total]

/-- The product at (p, g): the normalised row p contracted with column g of the weights. -/
theorem ref_proj (x : FVec Ideal S50000x1000 .f32) (W : FVec Ideal S1000x256 .f32) (p : Fin 50000) (g : Fin 256) :
    proj1Term x W (ix2 p g)
      = Cert.Spec.proj1 (fun p k => x (ix2 p k)) (fun k g => W (ix2 k g)) p g := by
  unfold proj1Term
  refine (Cert.PlainDot.hostDot_apply (M := 50000) (K := 1000) (N := 256)
    dot_S50000x1000_S1000x256_S50000x256_1_0_0_1_n_n rfl _ _ p g).trans ?_
  unfold Cert.Spec.proj1 Cert.Spec.normed
  refine Finset.sum_congr rfl fun k _ => ?_
  refine congrArg (fun z => Ideal.log1p (x (ix2 p k) * z) * W (ix2 k g)) ?_
  refine (Cert.Lib.InDim.col_spread (a := 50000) (b := 1000) _ _ p k).trans ?_
  exact quot_col x p 0

end Region0

end Cert.ReferenceIdeal

end
-- ==== Proof.Bridge0.lean ====
/-
  The first dense stage at the boundary between the two programs.

  Before its first region the kernel program only re-lays its inputs: the count matrix is untouched, the weight
  matrix changes float format (the identity over the extended reals), and the edge table's two rows are sliced out
  as vectors by the same two host operations the reference uses. The region then leaves the first dense layer of
  those inputs in one output array and the row totals in the other; the reference's host operations compute the
  same two closed forms from its own inputs. So equal inputs give equal projected features, equal row totals and
  equal edge rows.
-/
import proofs.«166412_j21423296872856_1_alg».proof.Proof.Gen.KernelIdeal.Frame
import proofs.«166412_j21423296872856_1_alg».proof.Proof.RefOpsSeg0
import proofs.«166412_j21423296872856_1_alg».proof.Proof.R0Array
import proofs.«166412_j21423296872856_1_alg».proof.Proof.R0Ref
import Idealize.ShloMosaic.Lib.StableHlo.Run

noncomputable section

namespace Cert.Bridge.Stage0

open Idealize.ShloMosaic Idealize.ShloMosaic.TcCoe Idealize.SL.Sem Idealize.ShloMosaic.StableHlo
open Idealize.ShloMosaic.ValueIdx

/-! ## The reference's stage, read off its operations -/

section Reference

variable (W' : Valuation Cert.ReferenceIdeal.τ Cert.ReferenceIdeal.sig (Elt Ideal))

set_option maxHeartbeats 8000000 in
/-- After the stage's operations the projected features are the host's first dense layer of the two inputs. -/
theorem ref_proj_term :
    (after Cert.ReferenceIdeal.RefRun.seg0 W' (Proc.devRef .tc Cert.ReferenceIdeal.main_v11) : FVec Ideal ⟨2, ![50000, 256]⟩ .f32)
      = Cert.ReferenceIdeal.Region0.proj1Term (W' (Proc.devRef .tc Cert.ReferenceIdeal.main_arg0))
          (W' (Proc.devRef .tc Cert.ReferenceIdeal.main_arg1)) := by
  after_results_simp
  rfl

set_option maxHeartbeats 8000000 in
/-- After the stage's operations the column of totals is the host's row sum of the count matrix. -/
theorem ref_total_term :
    (after Cert.ReferenceIdeal.RefRun.seg0 W' (Proc.devRef .tc Cert.ReferenceIdeal.main_v5) : FVec Ideal ⟨2, ![50000, 1]⟩ .f32)
      = Cert.ReferenceIdeal.Region0.rowTotalTerm (W' (Proc.devRef .tc Cert.ReferenceIdeal.main_arg0)) := by
  after_results_simp
  rfl

end Reference

/-! ## The edge table's rows: the same two operations on both sides -/

section Edges

variable (V : Valuation Cert.KernelIdeal.τ Cert.KernelIdeal.sig (Elt Ideal))
  (V' : Valuation Cert.ReferenceIdeal.τ Cert.ReferenceIdeal.sig (Elt Ideal))

set_option maxHeartbeats 8000000 in
/-- The edge table's first row as a vector is the same slice and reshape of the table on both sides. -/
theorem edge_row0 (h : (V (Proc.devRef .tc Cert.KernelIdeal.main_arg11) : IVec ⟨2, ![2, 800000]⟩ 32)
      = V' (Proc.devRef .tc Cert.ReferenceIdeal.main_arg11)) :
    (after Cert.KernelIdeal.Gen.hostOps0 V (Proc.devRef .tc Cert.KernelIdeal.main_v1) : IVec ⟨1, ![800000]⟩ 32)
      = after Cert.ReferenceIdeal.RefRun.seg0 V' (Proc.devRef .tc Cert.ReferenceIdeal.main_v1) := by
  after_results_simp
  rw [h]
  rfl

set_option maxHeartbeats 8000000 in
/-- The edge table's second row as a vector is the same slice and reshape of the table on both sides. -/
theorem edge_row1 (h : (V (Proc.devRef .tc Cert.KernelIdeal.main_arg11) : IVec ⟨2, ![2, 800000]⟩ 32)
      = V' (Proc.devRef .tc Cert.ReferenceIdeal.main_arg11)) :
    (after Cert.KernelIdeal.Gen.hostOps0 V (Proc.devRef .tc Cert.KernelIdeal.main_v3) : IVec ⟨1, ![800000]⟩ 32)
      = after Cert.ReferenceIdeal.RefRun.seg0 V' (Proc.devRef .tc Cert.ReferenceIdeal.main_v3) := by
  after_results_simp
  rw [h]
  rfl

end Edges

/-! ## The kernel program's arrays when its first region is entered -/

section Kernel

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

set_option maxHeartbeats 8000000 in
/-- The count matrix is as launched when the region is entered. -/
theorem entry_x :
    (Cert.KernelIdeal.Gen.V1 m ρ c Cert.KernelIdeal.main_arg0 : FVec Ideal ⟨2, ![50000, 1000]⟩ .f32)
      = m ((c : Thread Cert.KernelIdeal.nD Cert.KernelIdeal.τ).loc Cert.KernelIdeal.main_arg0) := by
  show after Cert.KernelIdeal.Gen.hostOps0 (Cert.KernelIdeal.Gen.W0 m ρ c) (Proc.devRef .tc Cert.KernelIdeal.main_arg0) = _
  after_results_simp

set_option maxHeartbeats 8000000 in
/-- The weights the region reads are the launched weight matrix: the change of float format is the identity. -/
theorem entry_w :
    (Cert.KernelIdeal.Gen.V1 m ρ c Cert.KernelIdeal.main_v4 : (⟨2, ![1000, 256]⟩ : Shape).Idx → EReal)
      = (m ((c : Thread Cert.KernelIdeal.nD Cert.KernelIdeal.τ).loc Cert.KernelIdeal.main_arg1) : (⟨2, ![1000, 256]⟩ : Shape).Idx → EReal) := by
  show after Cert.KernelIdeal.Gen.hostOps0 (Cert.KernelIdeal.Gen.W0 m ρ c) (Proc.devRef .tc Cert.KernelIdeal.main_v4) = _
  after_results_simp
  rfl

end Kernel

/-! ## The boundary -/

section Boundary

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (W' : Valuation Cert.ReferenceIdeal.τ Cert.ReferenceIdeal.sig (Elt Ideal))

/-- The projected features agree: both sides hold the first dense layer of the count matrix and the weights. -/
theorem proj
    (hx : (m ((c : Thread Cert.KernelIdeal.nD Cert.KernelIdeal.τ).loc Cert.KernelIdeal.main_arg0) : FVec Ideal ⟨2, ![50000, 1000]⟩ .f32)
      = W' (Proc.devRef .tc Cert.ReferenceIdeal.main_arg0))
    (hw : (m ((c : Thread Cert.KernelIdeal.nD Cert.KernelIdeal.τ).loc Cert.KernelIdeal.main_arg1) : FVec Ideal ⟨2, ![1000, 256]⟩ .f32)
      = W' (Proc.devRef .tc Cert.ReferenceIdeal.main_arg1)) :
    (Cert.KernelIdeal.Gen.W2 m ρ c (Proc.devRef .tc Cert.KernelIdeal.main_v8_0) : FVec Ideal ⟨2, ![50000, 256]⟩ .f32)
      = after Cert.ReferenceIdeal.RefRun.seg0 W' (Proc.devRef .tc Cert.ReferenceIdeal.main_v11) := by
  rw [ref_proj_term]
  funext i
  obtain ⟨p, g, rfl⟩ : ∃ (p : Fin 50000) (g : Fin 256), i = ix2 p g := ⟨i 0, i 1, eq_ix2 i⟩
  refine ((congrFun (Cert.KernelIdeal.Gen.W2_arr m ρ c 2) (ix2 p g)).trans
    (Cert.KernelIdeal.Region0.arr_proj (Cert.KernelIdeal.Gen.V1 m ρ) c p g)).trans ?_
  rw [Cert.ReferenceIdeal.Region0.ref_proj]
  refine Cert.KernelIdeal.Region0.proj1_row _ _ _ _ p p g (fun k => ?_) (fun k => ?_)
  · exact congrFun ((entry_x m ρ c).trans hx) (ix2 p k)
  · exact congrFun ((entry_w m ρ c).trans hw) (ix2 k g)

/-- The row totals agree: both sides hold the totals of the count matrix's rows as a column. -/
theorem total
    (hx : (m ((c : Thread Cert.KernelIdeal.nD Cert.KernelIdeal.τ).loc Cert.KernelIdeal.main_arg0) : FVec Ideal ⟨2, ![50000, 1000]⟩ .f32)
      = W' (Proc.devRef .tc Cert.ReferenceIdeal.main_arg0)) :
    (Cert.KernelIdeal.Gen.W2 m ρ c (Proc.devRef .tc Cert.KernelIdeal.main_v8_1) : FVec Ideal ⟨2, ![50000, 1]⟩ .f32)
      = after Cert.ReferenceIdeal.RefRun.seg0 W' (Proc.devRef .tc Cert.ReferenceIdeal.main_v5) := by
  rw [ref_total_term]
  funext i
  obtain ⟨p, u, rfl⟩ : ∃ (p : Fin 50000) (u : Fin 1), i = ix2 p u := ⟨i 0, i 1, eq_ix2 i⟩
  refine ((congrFun (Cert.KernelIdeal.Gen.W2_arr m ρ c 3) (ix2 p u)).trans
    (Cert.KernelIdeal.Region0.arr_total (Cert.KernelIdeal.Gen.V1 m ρ) c p u)).trans ?_
  rw [Cert.ReferenceIdeal.Region0.ref_total]
  exact Cert.KernelIdeal.Region0.total_row _ _ p p fun k => congrFun ((entry_x m ρ c).trans hx) (ix2 p k)

/-- The edges' source row agrees: the region does not write it, and it is the same slice of the edge table. -/
theorem src
    (he : (m ((c : Thread Cert.KernelIdeal.nD Cert.KernelIdeal.τ).loc Cert.KernelIdeal.main_arg11) : IVec ⟨2, ![2, 800000]⟩ 32)
      = W' (Proc.devRef .tc Cert.ReferenceIdeal.main_arg11)) :
    (Cert.KernelIdeal.Gen.W2 m ρ c (Proc.devRef .tc Cert.KernelIdeal.main_v1) : IVec ⟨1, ![800000]⟩ 32)
      = after Cert.ReferenceIdeal.RefRun.seg0 W' (Proc.devRef .tc Cert.ReferenceIdeal.main_v1) :=
  (Cert.KernelIdeal.Gen.W2_of_ne m ρ c Cert.KernelIdeal.main_v1 (by decide)).trans
    (edge_row0 (Cert.KernelIdeal.Gen.W0 m ρ c) W' he)

/-- The edges' destination row agrees: the region does not write it, and it is the same slice of the edge table. -/
theorem dst
    (he : (m ((c : Thread Cert.KernelIdeal.nD Cert.KernelIdeal.τ).loc Cert.KernelIdeal.main_arg11) : IVec ⟨2, ![2, 800000]⟩ 32)
      = W' (Proc.devRef .tc Cert.ReferenceIdeal.main_arg11)) :
    (Cert.KernelIdeal.Gen.W2 m ρ c (Proc.devRef .tc Cert.KernelIdeal.main_v3) : IVec ⟨1, ![800000]⟩ 32)
      = after Cert.ReferenceIdeal.RefRun.seg0 W' (Proc.devRef .tc Cert.ReferenceIdeal.main_v3) :=
  (Cert.KernelIdeal.Gen.W2_of_ne m ρ c Cert.KernelIdeal.main_v3 (by decide)).trans
    (edge_row1 (Cert.KernelIdeal.Gen.W0 m ρ c) W' he)

end Boundary

end Cert.Bridge.Stage0

end
-- ==== Proof.BridgeInv.lean ====
/-
  What the two programs' buffer contents have in common at every boundary between stages.

  Besides the features a stage hands to the next, both programs carry the same data across: the two rows of the
  edge table as vectors, each layer's scale and shift, the two heads' biases, the weight matrices (the kernel
  program holds them rounded to bf16, which over the extended reals is the same matrix), and the row totals that are
  the third result.  `Agree W R` says the kernel program's contents `W` and the reference's contents `R` hold equal
  values there.  A step of either program that writes none of these buffers preserves it.
-/
import proofs.«166412_j21423296872856_1_alg».proof.KernelIdeal
import proofs.«166412_j21423296872856_1_alg».proof.ReferenceIdeal
import Idealize.ShloMosaic.PureOps.Ideal
import Idealize.ShloMosaic.Lib.StableHlo.Run
import Idealize.ShloMosaic.Lib.ValueIdx

noncomputable section

namespace Cert.Bridge

open Idealize.ShloMosaic Idealize.ShloMosaic.TcCoe Idealize.SL.Sem Idealize.ShloMosaic.StableHlo Idealize.ShloMosaic.ValueIdx

/-- The kernel program's contents `W` and the reference's contents `R` agree on everything carried across the stages. -/
structure Agree (W : Valuation Cert.KernelIdeal.τ Cert.KernelIdeal.sig (Elt Ideal)) (R : Valuation Cert.ReferenceIdeal.τ Cert.ReferenceIdeal.sig (Elt Ideal)) : Prop where
  /-- the edges' source row -/
  src : (W (Proc.devRef .tc Cert.KernelIdeal.main_v1) : IVec ⟨1, ![800000]⟩ 32) = R (Proc.devRef .tc Cert.ReferenceIdeal.main_v1)
  /-- the edges' destination row -/
  dst : (W (Proc.devRef .tc Cert.KernelIdeal.main_v3) : IVec ⟨1, ![800000]⟩ 32) = R (Proc.devRef .tc Cert.ReferenceIdeal.main_v3)
  /-- the first layer's scale and shift -/
  g1 : (W (Proc.devRef .tc Cert.KernelIdeal.main_arg2) : FVec Ideal ⟨1, ![256]⟩ .f32) = R (Proc.devRef .tc Cert.ReferenceIdeal.main_arg2)
  b1 : (W (Proc.devRef .tc Cert.KernelIdeal.main_arg3) : FVec Ideal ⟨1, ![256]⟩ .f32) = R (Proc.devRef .tc Cert.ReferenceIdeal.main_arg3)
  /-- the second layer's scale and shift -/
  g2 : (W (Proc.devRef .tc Cert.KernelIdeal.main_arg5) : FVec Ideal ⟨1, ![256]⟩ .f32) = R (Proc.devRef .tc Cert.ReferenceIdeal.main_arg5)
  b2 : (W (Proc.devRef .tc Cert.KernelIdeal.main_arg6) : FVec Ideal ⟨1, ![256]⟩ .f32) = R (Proc.devRef .tc Cert.ReferenceIdeal.main_arg6)
  /-- the heads' biases -/
  bl : (W (Proc.devRef .tc Cert.KernelIdeal.main_arg8) : FVec Ideal ⟨1, ![32]⟩ .f32) = R (Proc.devRef .tc Cert.ReferenceIdeal.main_arg8)
  bs : (W (Proc.devRef .tc Cert.KernelIdeal.main_arg10) : FVec Ideal ⟨1, ![32]⟩ .f32) = R (Proc.devRef .tc Cert.ReferenceIdeal.main_arg10)
  /-- the second layer's weights, entry by entry -/
  w2 : ∀ (k : Fin 256) (g : Fin 256), (W (Proc.devRef .tc Cert.KernelIdeal.main_v5) : FVec Ideal ⟨2, ![256, 256]⟩ .bf16) (ix2 k g) = (R (Proc.devRef .tc Cert.ReferenceIdeal.main_arg4) : FVec Ideal ⟨2, ![256, 256]⟩ .f32) (ix2 k g)
  /-- the heads' weights, entry by entry -/
  wl : ∀ (k : Fin 256) (g : Fin 32), (W (Proc.devRef .tc Cert.KernelIdeal.main_v6) : FVec Ideal ⟨2, ![256, 32]⟩ .bf16) (ix2 k g) = (R (Proc.devRef .tc Cert.ReferenceIdeal.main_arg7) : FVec Ideal ⟨2, ![256, 32]⟩ .f32) (ix2 k g)
  ws : ∀ (k : Fin 256) (g : Fin 32), (W (Proc.devRef .tc Cert.KernelIdeal.main_v7) : FVec Ideal ⟨2, ![256, 32]⟩ .bf16) (ix2 k g) = (R (Proc.devRef .tc Cert.ReferenceIdeal.main_arg9) : FVec Ideal ⟨2, ![256, 32]⟩ .f32) (ix2 k g)
  /-- the row totals -/
  tot : (W (Proc.devRef .tc Cert.KernelIdeal.main_v8_1) : FVec Ideal ⟨2, ![50000, 1]⟩ .f32) = R (Proc.devRef .tc Cert.ReferenceIdeal.main_v5)

/-- The kernel program's buffers that `Agree` reads. -/
abbrev kernelCarried : List (Ref Cert.KernelIdeal.sig .tc) :=
  [Cert.KernelIdeal.main_v1, Cert.KernelIdeal.main_v3, Cert.KernelIdeal.main_arg2, Cert.KernelIdeal.main_arg3, Cert.KernelIdeal.main_arg5, Cert.KernelIdeal.main_arg6, Cert.KernelIdeal.main_arg8, Cert.KernelIdeal.main_arg10, Cert.KernelIdeal.main_v5, Cert.KernelIdeal.main_v6, Cert.KernelIdeal.main_v7, Cert.KernelIdeal.main_v8_1]

/-- The reference's buffers that `Agree` reads. -/
abbrev referenceCarried : List (Ref Cert.ReferenceIdeal.sig .tc) :=
  [Cert.ReferenceIdeal.main_v1, Cert.ReferenceIdeal.main_v3, Cert.ReferenceIdeal.main_arg2, Cert.ReferenceIdeal.main_arg3, Cert.ReferenceIdeal.main_arg5, Cert.ReferenceIdeal.main_arg6, Cert.ReferenceIdeal.main_arg8, Cert.ReferenceIdeal.main_arg10, Cert.ReferenceIdeal.main_arg4, Cert.ReferenceIdeal.main_arg7, Cert.ReferenceIdeal.main_arg9, Cert.ReferenceIdeal.main_v5]

/-- A step of each program that keeps the carried buffers keeps the agreement. -/
theorem Agree.step {W W₂ : Valuation Cert.KernelIdeal.τ Cert.KernelIdeal.sig (Elt Ideal)} {R R₂ : Valuation Cert.ReferenceIdeal.τ Cert.ReferenceIdeal.sig (Elt Ideal)}
    (h : Agree W R)
    (hk : ∀ r ∈ kernelCarried, W₂ (Proc.devRef .tc r) = W (Proc.devRef .tc r))
    (hr : ∀ r ∈ referenceCarried, R₂ (Proc.devRef .tc r) = R (Proc.devRef .tc r)) : Agree W₂ R₂ where
  src := (hk Cert.KernelIdeal.main_v1 (by decide)).trans (h.src.trans (hr Cert.ReferenceIdeal.main_v1 (by decide)).symm)
  dst := (hk Cert.KernelIdeal.main_v3 (by decide)).trans (h.dst.trans (hr Cert.ReferenceIdeal.main_v3 (by decide)).symm)
  g1 := (hk Cert.KernelIdeal.main_arg2 (by decide)).trans (h.g1.trans (hr Cert.ReferenceIdeal.main_arg2 (by decide)).symm)
  b1 := (hk Cert.KernelIdeal.main_arg3 (by decide)).trans (h.b1.trans (hr Cert.ReferenceIdeal.main_arg3 (by decide)).symm)
  g2 := (hk Cert.KernelIdeal.main_arg5 (by decide)).trans (h.g2.trans (hr Cert.ReferenceIdeal.main_arg5 (by decide)).symm)
  b2 := (hk Cert.KernelIdeal.main_arg6 (by decide)).trans (h.b2.trans (hr Cert.ReferenceIdeal.main_arg6 (by decide)).symm)
  bl := (hk Cert.KernelIdeal.main_arg8 (by decide)).trans (h.bl.trans (hr Cert.ReferenceIdeal.main_arg8 (by decide)).symm)
  bs := (hk Cert.KernelIdeal.main_arg10 (by decide)).trans (h.bs.trans (hr Cert.ReferenceIdeal.main_arg10 (by decide)).symm)
  w2 := fun k g => (congrFun (hk Cert.KernelIdeal.main_v5 (by decide)) _).trans ((h.w2 k g).trans (congrFun (hr Cert.ReferenceIdeal.main_arg4 (by decide)) _).symm)
  wl := fun k g => (congrFun (hk Cert.KernelIdeal.main_v6 (by decide)) _).trans ((h.wl k g).trans (congrFun (hr Cert.ReferenceIdeal.main_arg7 (by decide)) _).symm)
  ws := fun k g => (congrFun (hk Cert.KernelIdeal.main_v7 (by decide)) _).trans ((h.ws k g).trans (congrFun (hr Cert.ReferenceIdeal.main_arg9 (by decide)) _).symm)
  tot := (hk Cert.KernelIdeal.main_v8_1 (by decide)).trans (h.tot.trans (hr Cert.ReferenceIdeal.main_v5 (by decide)).symm)

end Cert.Bridge

end
-- ==== Proof.KKeep.lean ====
/-
  What the kernel program's host stretches leave alone.

  Between its three pipelined regions the program runs stretches of host operations.  Each operation writes exactly one
  buffer, so a stretch writes the buffers its operations name and no other: any other buffer holds after the stretch
  what it held before.  For each of the seven stretches this module lists the buffers written, in order, and states
  that fact.
-/
import proofs.«166412_j21423296872856_1_alg».proof.Proof.Gen.KernelIdeal.Launch
import Idealize.ShloMosaic.Lib.StableHlo.Run

noncomputable section

namespace Cert.KernelIdeal.KKeep

open Cert.KernelIdeal Cert.KernelIdeal.Gen Idealize.ShloMosaic Idealize.ShloMosaic.TcCoe Idealize.SL.Sem Idealize.ShloMosaic.StableHlo

variable {F : FTy → Type} [FloatOps F]

/-- An operation whose one written buffer is in the list writes inside the list. -/
local macro "wr" : term =>
  `(Finset.singleton_subset_iff.mpr (List.mem_toFinset.mpr (List.mem_map_of_mem (by decide))))

/-- Every operation of a stretch, one after the other: its written buffer is in the list. -/
local macro "each_writes" : tactic => `(tactic| repeat' (first | exact wr | refine ⟨?_, ?_⟩))

/-! ## The edge table's two rows as vectors, and the four weight matrices narrowed to the products' operand format -/

/-- The buffers that stretch writes, in order. -/
abbrev hostOps0_W : List (Ref sig .tc) :=
  [main_v0, main_v1, main_v2, main_v3, main_v4, main_v5, main_v6, main_v7]

set_option maxRecDepth 16384 in
theorem hostOps0_writes : (hostOps0 : List (HloOp τ sig (Elt F))).Forall fun op => op.writes ⊆ (hostOps0_W.map (Proc.devRef (τ := τ) .tc)).toFinset := by
  each_writes

/-- A buffer that stretch does not write keeps its contents through it. -/
theorem hostOps0_keep (V : Valuation τ sig (Elt F)) (r : Ref sig .tc) (h : r ∉ hostOps0_W) :
    after hostOps0 V (Proc.devRef .tc r) = V (Proc.devRef .tc r) :=
  after_of_writes_sub hostOps0 V hostOps0_writes h

/-! ## The first graph aggregation and the first layer's per-feature mean -/

/-- The buffers that stretch writes, in order. -/
abbrev hostOps1_W : List (Ref sig .tc) :=
  [main_cst, main_v9, main_cst_0, main_v10, main_v11, main_v12, main_cst_1, main_v13, main_v14, main_v15, main_c, main_v16,
   main_v17, main_c_2, main_v18, main_v19, main_v20, main_v21, main_v22, main_c_3, main_v23, main_v24, main_c_4, main_v25,
   main_v26, main_v27, main_v28, main_v29, main_v30, main_c_5, main_v31, main_v32, main_c_6, main_v33, main_v34, main_v35,
   main_v36, main_v37, main_v38, main_v39, main_v40, main_cst_7, main_v41, main_v42, main_v43, main_v44, main_v45, main_v46,
   main_v47, main_v48, main_cst_8, main_v49, main_cst_9, main_v50, main_v51, main_c_10]

set_option maxRecDepth 16384 in
theorem hostOps1_writes : (hostOps1 : List (HloOp τ sig (Elt F))).Forall fun op => op.writes ⊆ (hostOps1_W.map (Proc.devRef (τ := τ) .tc)).toFinset := by
  each_writes

/-- A buffer that stretch does not write keeps its contents through it. -/
theorem hostOps1_keep (V : Valuation τ sig (Elt F)) (r : Ref sig .tc) (h : r ∉ hostOps1_W) :
    after hostOps1 V (Proc.devRef .tc r) = V (Proc.devRef .tc r) :=
  after_of_writes_sub hostOps1 V hostOps1_writes h

/-! ## The first layer's per-feature variance -/

/-- The buffers that stretch writes, in order. -/
abbrev hostOps1_1_W : List (Ref sig .tc) :=
  [main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10,
   main_call0_v11, main_call0_cst_3, main_call0_v12, main_call0_cst_4, main_call0_call0_v0, main_call0_call0_v1, main_v52]

set_option maxRecDepth 16384 in
theorem hostOps1_1_writes : (hostOps1_1 : List (HloOp τ sig (Elt F))).Forall fun op => op.writes ⊆ (hostOps1_1_W.map (Proc.devRef (τ := τ) .tc)).toFinset := by
  each_writes

/-- A buffer that stretch does not write keeps its contents through it. -/
theorem hostOps1_1_keep (V : Valuation τ sig (Elt F)) (r : Ref sig .tc) (h : r ∉ hostOps1_1_W) :
    after hostOps1_1 V (Proc.devRef .tc r) = V (Proc.devRef .tc r) :=
  after_of_writes_sub hostOps1_1 V hostOps1_1_writes h

/-! ## The first layer's four per-feature vectors set as rows -/

/-- The buffers that stretch writes, in order. -/
abbrev hostOps1_2_W : List (Ref sig .tc) :=
  [main_v53, main_v54, main_v55, main_v56]

set_option maxRecDepth 16384 in
theorem hostOps1_2_writes : (hostOps1_2 : List (HloOp τ sig (Elt F))).Forall fun op => op.writes ⊆ (hostOps1_2_W.map (Proc.devRef (τ := τ) .tc)).toFinset := by
  each_writes

/-- A buffer that stretch does not write keeps its contents through it. -/
theorem hostOps1_2_keep (V : Valuation τ sig (Elt F)) (r : Ref sig .tc) (h : r ∉ hostOps1_2_W) :
    after hostOps1_2 V (Proc.devRef .tc r) = V (Proc.devRef .tc r) :=
  after_of_writes_sub hostOps1_2 V hostOps1_2_writes h

/-! ## The second graph aggregation and the second layer's per-feature mean -/

/-- The buffers that stretch writes, in order. -/
abbrev hostOps2_W : List (Ref sig .tc) :=
  [main_cst_11, main_v58, main_cst_12, main_v59, main_v60, main_v61, main_cst_13, main_v62, main_v63, main_v64, main_c_14,
   main_v65, main_v66, main_c_15, main_v67, main_v68, main_v69, main_v70, main_v71, main_c_16, main_v72, main_v73, main_c_17,
   main_v74, main_v75, main_v76, main_v77, main_v78, main_v79, main_c_18, main_v80, main_v81, main_c_19, main_v82, main_v83,
   main_v84, main_v85, main_v86, main_v87, main_v88, main_v89, main_cst_20, main_v90, main_v91, main_v92, main_v93, main_v94,
   main_v95, main_v96, main_v97, main_cst_21, main_v98, main_cst_22, main_v99, main_v100, main_c_23]

set_option maxRecDepth 16384 in
theorem hostOps2_writes : (hostOps2 : List (HloOp τ sig (Elt F))).Forall fun op => op.writes ⊆ (hostOps2_W.map (Proc.devRef (τ := τ) .tc)).toFinset := by
  each_writes

/-- A buffer that stretch does not write keeps its contents through it. -/
theorem hostOps2_keep (V : Valuation τ sig (Elt F)) (r : Ref sig .tc) (h : r ∉ hostOps2_W) :
    after hostOps2 V (Proc.devRef .tc r) = V (Proc.devRef .tc r) :=
  after_of_writes_sub hostOps2 V hostOps2_writes h

/-! ## The second layer's per-feature variance -/

/-- The buffers that stretch writes, in order. -/
abbrev hostOps2_1_W : List (Ref sig .tc) :=
  [main_call1_cst, main_call1_v0, main_call1_v1, main_call1_cst_0, main_call1_v2, main_call1_v3, main_call1_v4, main_call1_v5,
   main_call1_v6, main_call1_v7, main_call1_cst_1, main_call1_v8, main_call1_cst_2, main_call1_v9, main_call1_v10,
   main_call1_v11, main_call1_cst_3, main_call1_v12, main_call1_cst_4, main_call1_call0_v0, main_call1_call0_v1, main_v101]

set_option maxRecDepth 16384 in
theorem hostOps2_1_writes : (hostOps2_1 : List (HloOp τ sig (Elt F))).Forall fun op => op.writes ⊆ (hostOps2_1_W.map (Proc.devRef (τ := τ) .tc)).toFinset := by
  each_writes

/-- A buffer that stretch does not write keeps its contents through it. -/
theorem hostOps2_1_keep (V : Valuation τ sig (Elt F)) (r : Ref sig .tc) (h : r ∉ hostOps2_1_W) :
    after hostOps2_1 V (Proc.devRef .tc r) = V (Proc.devRef .tc r) :=
  after_of_writes_sub hostOps2_1 V hostOps2_1_writes h

/-! ## The second layer's four per-feature vectors and the two heads' biases set as rows -/

/-- The buffers that stretch writes, in order. -/
abbrev hostOps2_2_W : List (Ref sig .tc) :=
  [main_v102, main_v103, main_v104, main_v105, main_v106, main_v107]

set_option maxRecDepth 16384 in
theorem hostOps2_2_writes : (hostOps2_2 : List (HloOp τ sig (Elt F))).Forall fun op => op.writes ⊆ (hostOps2_2_W.map (Proc.devRef (τ := τ) .tc)).toFinset := by
  each_writes

/-- A buffer that stretch does not write keeps its contents through it. -/
theorem hostOps2_2_keep (V : Valuation τ sig (Elt F)) (r : Ref sig .tc) (h : r ∉ hostOps2_2_W) :
    after hostOps2_2 V (Proc.devRef .tc r) = V (Proc.devRef .tc r) :=
  after_of_writes_sub hostOps2_2 V hostOps2_2_writes h

/-! ## Two uses -/

/-- The second weight matrix's operand copy is not written by the first aggregation's stretch. -/
example (V : Valuation τ sig (Elt F)) : after hostOps1 V (Proc.devRef .tc main_v5) = V (Proc.devRef .tc main_v5) :=
  hostOps1_keep V main_v5 (by decide)

/-- The first layer's input array is not written by the variance's stretch. -/
example (V : Valuation τ sig (Elt F)) : after hostOps1_1 V (Proc.devRef .tc main_v48) = V (Proc.devRef .tc main_v48) :=
  hostOps1_1_keep V main_v48 (by decide)

end Cert.KernelIdeal.KKeep

end
-- ==== Proof.KEntry.lean ====
/-
  What the pipelined regions of the kernel program find in their small operands.

  Before the second and third regions the program sets each per-feature vector [256] (and, for the last region, each
  head's bias [32]) as a row [1, 256] (resp. [1, 32]) by a reshape: entry (0, k) of the row is entry k of the vector.
  Before the first region it narrows the four weight matrices to the products' operand format, which over the extended
  reals changes no entry.
-/
import proofs.«166412_j21423296872856_1_alg».proof.Proof.Gen.KernelIdeal.Launch
import Idealize.ShloMosaic.Lib.StableHlo.Run
import Idealize.ShloMosaic.Lib.ValueLayout
import Idealize.ShloMosaic.Lib.ValueIdx
import Idealize.ShloMosaic.PureOps.Ideal

noncomputable section

namespace Cert.KernelIdeal.KKeep

open Cert.KernelIdeal Cert.KernelIdeal.Gen Idealize.ShloMosaic Idealize.ShloMosaic.TcCoe Idealize.SL.Sem Idealize.ShloMosaic.StableHlo
open Idealize.ShloMosaic.ValueIdx

section Rows

variable {F : FTy → Type} [FloatOps F]

/-! ## The first layer's rows -/

/-- The row γ of the first layer at (0, k) is the argument vector's entry k. -/
theorem hostOps1_2_main_v53 (Y : Valuation τ sig (Elt F)) (k : Fin 256) :
    (after hostOps1_2 Y (Proc.devRef .tc main_v53) : FVec F ⟨2, ![1, 256]⟩ .f32) (ix2 (0 : Fin 1) k)
      = (Y (Proc.devRef .tc main_arg2) : FVec F ⟨1, ![256]⟩ .f32) (ix1 k) := by
  after_results_simp
  exact shapeCast_a_1a_apply _ _ _ _

/-- The row β of the first layer at (0, k) is the argument vector's entry k. -/
theorem hostOps1_2_main_v54 (Y : Valuation τ sig (Elt F)) (k : Fin 256) :
    (after hostOps1_2 Y (Proc.devRef .tc main_v54) : FVec F ⟨2, ![1, 256]⟩ .f32) (ix2 (0 : Fin 1) k)
      = (Y (Proc.devRef .tc main_arg3) : FVec F ⟨1, ![256]⟩ .f32) (ix1 k) := by
  after_results_simp
  exact shapeCast_a_1a_apply _ _ _ _

/-- The row of the first layer's means at (0, k) is the mean vector's entry k. -/
theorem hostOps1_2_main_v55 (Y : Valuation τ sig (Elt F)) (k : Fin 256) :
    (after hostOps1_2 Y (Proc.devRef .tc main_v55) : FVec F ⟨2, ![1, 256]⟩ .f32) (ix2 (0 : Fin 1) k)
      = (Y (Proc.devRef .tc main_v51) : FVec F ⟨1, ![256]⟩ .f32) (ix1 k) := by
  after_results_simp
  exact shapeCast_a_1a_apply _ _ _ _

/-- The row of the first layer's variances at (0, k) is the variance vector's entry k. -/
theorem hostOps1_2_main_v56 (Y : Valuation τ sig (Elt F)) (k : Fin 256) :
    (after hostOps1_2 Y (Proc.devRef .tc main_v56) : FVec F ⟨2, ![1, 256]⟩ .f32) (ix2 (0 : Fin 1) k)
      = (Y (Proc.devRef .tc main_v52) : FVec F ⟨1, ![256]⟩ .f32) (ix1 k) := by
  after_results_simp
  exact shapeCast_a_1a_apply _ _ _ _

/-! ## The second layer's rows and the heads' biases -/

/-- The row γ of the second layer at (0, k) is the argument vector's entry k. -/
theorem hostOps2_2_main_v102 (Y : Valuation τ sig (Elt F)) (k : Fin 256) :
    (after hostOps2_2 Y (Proc.devRef .tc main_v102) : FVec F ⟨2, ![1, 256]⟩ .f32) (ix2 (0 : Fin 1) k)
      = (Y (Proc.devRef .tc main_arg5) : FVec F ⟨1, ![256]⟩ .f32) (ix1 k) := by
  after_results_simp
  exact shapeCast_a_1a_apply _ _ _ _

/-- The row β of the second layer at (0, k) is the argument vector's entry k. -/
theorem hostOps2_2_main_v103 (Y : Valuation τ sig (Elt F)) (k : Fin 256) :
    (after hostOps2_2 Y (Proc.devRef .tc main_v103) : FVec F ⟨2, ![1, 256]⟩ .f32) (ix2 (0 : Fin 1) k)
      = (Y (Proc.devRef .tc main_arg6) : FVec F ⟨1, ![256]⟩ .f32) (ix1 k) := by
  after_results_simp
  exact shapeCast_a_1a_apply _ _ _ _

/-- The row of the second layer's means at (0, k) is the mean vector's entry k. -/
theorem hostOps2_2_main_v104 (Y : Valuation τ sig (Elt F)) (k : Fin 256) :
    (after hostOps2_2 Y (Proc.devRef .tc main_v104) : FVec F ⟨2, ![1, 256]⟩ .f32) (ix2 (0 : Fin 1) k)
      = (Y (Proc.devRef .tc main_v100) : FVec F ⟨1, ![256]⟩ .f32) (ix1 k) := by
  after_results_simp
  exact shapeCast_a_1a_apply _ _ _ _

/-- The row of the second layer's variances at (0, k) is the variance vector's entry k. -/
theorem hostOps2_2_main_v105 (Y : Valuation τ sig (Elt F)) (k : Fin 256) :
    (after hostOps2_2 Y (Proc.devRef .tc main_v105) : FVec F ⟨2, ![1, 256]⟩ .f32) (ix2 (0 : Fin 1) k)
      = (Y (Proc.devRef .tc main_v101) : FVec F ⟨1, ![256]⟩ .f32) (ix1 k) := by
  after_results_simp
  exact shapeCast_a_1a_apply _ _ _ _

/-- The location head's bias row at (0, g) is the argument vector's entry g. -/
theorem hostOps2_2_main_v106 (Y : Valuation τ sig (Elt F)) (g : Fin 32) :
    (after hostOps2_2 Y (Proc.devRef .tc main_v106) : FVec F ⟨2, ![1, 32]⟩ .f32) (ix2 (0 : Fin 1) g)
      = (Y (Proc.devRef .tc main_arg8) : FVec F ⟨1, ![32]⟩ .f32) (ix1 g) := by
  after_results_simp
  exact shapeCast_a_1a_apply _ _ _ _

/-- The scale head's bias row at (0, g) is the argument vector's entry g. -/
theorem hostOps2_2_main_v107 (Y : Valuation τ sig (Elt F)) (g : Fin 32) :
    (after hostOps2_2 Y (Proc.devRef .tc main_v107) : FVec F ⟨2, ![1, 32]⟩ .f32) (ix2 (0 : Fin 1) g)
      = (Y (Proc.devRef .tc main_arg10) : FVec F ⟨1, ![32]⟩ .f32) (ix1 g) := by
  after_results_simp
  exact shapeCast_a_1a_apply _ _ _ _

end Rows

/-! ## The weight matrices in the products' operand format: over the extended reals, the matrices themselves -/

/-- The first dense layer's weights. -/
theorem hostOps0_main_v4 (V : Valuation τ sig (Elt Ideal)) (k : Fin 1000) (g : Fin 256) :
    (after hostOps0 V (Proc.devRef .tc main_v4) : FVec Ideal ⟨2, ![1000, 256]⟩ .bf16) (ix2 k g)
      = (V (Proc.devRef .tc main_arg1) : FVec Ideal ⟨2, ![1000, 256]⟩ .f32) (ix2 k g) := by
  after_results_simp
  rfl

/-- The second dense layer's weights. -/
theorem hostOps0_main_v5 (V : Valuation τ sig (Elt Ideal)) (k : Fin 256) (g : Fin 256) :
    (after hostOps0 V (Proc.devRef .tc main_v5) : FVec Ideal ⟨2, ![256, 256]⟩ .bf16) (ix2 k g)
      = (V (Proc.devRef .tc main_arg4) : FVec Ideal ⟨2, ![256, 256]⟩ .f32) (ix2 k g) := by
  after_results_simp
  rfl

/-- The location head's weights. -/
theorem hostOps0_main_v6 (V : Valuation τ sig (Elt Ideal)) (k : Fin 256) (g : Fin 32) :
    (after hostOps0 V (Proc.devRef .tc main_v6) : FVec Ideal ⟨2, ![256, 32]⟩ .bf16) (ix2 k g)
      = (V (Proc.devRef .tc main_arg7) : FVec Ideal ⟨2, ![256, 32]⟩ .f32) (ix2 k g) := by
  after_results_simp
  rfl

/-- The scale head's weights. -/
theorem hostOps0_main_v7 (V : Valuation τ sig (Elt Ideal)) (k : Fin 256) (g : Fin 32) :
    (after hostOps0 V (Proc.devRef .tc main_v7) : FVec Ideal ⟨2, ![256, 32]⟩ .bf16) (ix2 k g)
      = (V (Proc.devRef .tc main_arg9) : FVec Ideal ⟨2, ![256, 32]⟩ .f32) (ix2 k g) := by
  after_results_simp
  rfl

end Cert.KernelIdeal.KKeep

end
-- ==== Proof.RefOpsKeep.lean ====
/-
  Each of the program's five stages leaves every buffer it does not write as it was: the stage is the
  concatenation of finer lists, each of which keeps the buffers outside its own written set.
-/
import proofs.«166412_j21423296872856_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- Stage 0 is its finer lists in order. -/
theorem seg0_eq : (seg0 : List (HloOp τ sig (Elt F))) = segSrcDst ++ (segRowTotal ++ (segProj1)) := rfl

/-- The buffers stage 0 writes, in order. -/
abbrev seg0_W : List (Ref sig .tc) := segSrcDst_W ++ (segRowTotal_W ++ (segProj1_W))

/-- A buffer stage 0 does not write keeps its contents through it. -/
theorem seg0_keep (W : Valuation τ sig (Elt F)) (r : Ref sig .tc) (h : r ∉ seg0_W) :
    after seg0 W (no_index (Proc.devRef .tc r)) = W (Proc.devRef .tc r) := by
  simp only [seg0_W, List.mem_append, not_or] at h
  obtain ⟨h0, h1, h2⟩ := h
  rw [seg0_eq]
  simp only [after_append]
  rw [segProj1_keep _ r h2, segRowTotal_keep _ r h1, segSrcDst_keep _ r h0]

set_option maxRecDepth 65536 in
/-- Stage 1 is its finer lists in order. -/
theorem seg1_eq : (seg1 : List (HloOp τ sig (Elt F))) = segGcn1a ++ (segGcn1b ++ (segMean1 ++ (segVar1))) := rfl

/-- The buffers stage 1 writes, in order. -/
abbrev seg1_W : List (Ref sig .tc) := segGcn1a_W ++ (segGcn1b_W ++ (segMean1_W ++ (segVar1_W)))

/-- A buffer stage 1 does not write keeps its contents through it. -/
theorem seg1_keep (W : Valuation τ sig (Elt F)) (r : Ref sig .tc) (h : r ∉ seg1_W) :
    after seg1 W (no_index (Proc.devRef .tc r)) = W (Proc.devRef .tc r) := by
  simp only [seg1_W, List.mem_append, not_or] at h
  obtain ⟨h0, h1, h2, h3⟩ := h
  rw [seg1_eq]
  simp only [after_append]
  rw [segVar1_keep _ r h3, segMean1_keep _ r h2, segGcn1b_keep _ r h1, segGcn1a_keep _ r h0]

set_option maxRecDepth 65536 in
/-- Stage 2 is its finer lists in order. -/
theorem seg2_eq : (seg2 : List (HloOp τ sig (Elt F))) = segBn1 ++ (segProj2) := rfl

/-- The buffers stage 2 writes, in order. -/
abbrev seg2_W : List (Ref sig .tc) := segBn1_W ++ (segProj2_W)

/-- A buffer stage 2 does not write keeps its contents through it. -/
theorem seg2_keep (W : Valuation τ sig (Elt F)) (r : Ref sig .tc) (h : r ∉ seg2_W) :
    after seg2 W (no_index (Proc.devRef .tc r)) = W (Proc.devRef .tc r) := by
  simp only [seg2_W, List.mem_append, not_or] at h
  obtain ⟨h0, h1⟩ := h
  rw [seg2_eq]
  simp only [after_append]
  rw [segProj2_keep _ r h1, segBn1_keep _ r h0]

set_option maxRecDepth 65536 in
/-- Stage 3 is its finer lists in order. -/
theorem seg3_eq : (seg3 : List (HloOp τ sig (Elt F))) = segGcn2a ++ (segGcn2b ++ (segMean2 ++ (segVar2))) := rfl

/-- The buffers stage 3 writes, in order. -/
abbrev seg3_W : List (Ref sig .tc) := segGcn2a_W ++ (segGcn2b_W ++ (segMean2_W ++ (segVar2_W)))

/-- A buffer stage 3 does not write keeps its contents through it. -/
theorem seg3_keep (W : Valuation τ sig (Elt F)) (r : Ref sig .tc) (h : r ∉ seg3_W) :
    after seg3 W (no_index (Proc.devRef .tc r)) = W (Proc.devRef .tc r) := by
  simp only [seg3_W, List.mem_append, not_or] at h
  obtain ⟨h0, h1, h2, h3⟩ := h
  rw [seg3_eq]
  simp only [after_append]
  rw [segVar2_keep _ r h3, segMean2_keep _ r h2, segGcn2b_keep _ r h1, segGcn2a_keep _ r h0]

set_option maxRecDepth 65536 in
/-- Stage 4 is its finer lists in order. -/
theorem seg4_eq : (seg4 : List (HloOp τ sig (Elt F))) = segBn2 ++ (segLoc ++ (segStdA ++ (segStdB))) := rfl

/-- The buffers stage 4 writes, in order. -/
abbrev seg4_W : List (Ref sig .tc) := segBn2_W ++ (segLoc_W ++ (segStdA_W ++ (segStdB_W)))

/-- A buffer stage 4 does not write keeps its contents through it. -/
theorem seg4_keep (W : Valuation τ sig (Elt F)) (r : Ref sig .tc) (h : r ∉ seg4_W) :
    after seg4 W (no_index (Proc.devRef .tc r)) = W (Proc.devRef .tc r) := by
  simp only [seg4_W, List.mem_append, not_or] at h
  obtain ⟨h0, h1, h2, h3⟩ := h
  rw [seg4_eq]
  simp only [after_append]
  rw [segStdB_keep _ r h3, segStdA_keep _ r h2, segLoc_keep _ r h1, segBn2_keep _ r h0]

end Cert.ReferenceIdeal.RefRun

end
-- ==== Proof.R1Ref.lean ====
/-
  The reference's normalise–rectify–contract stage, read entry by entry.

  The host program spreads each per-feature vector [256] over the [50000, 256] array in two steps (the vector set as
  a row [1, 256], the row spread down the rows), forms γ · (h − μ) · (v + ε)^(−1/2) + β, compares it with zero,
  multiplies it by 0.2, selects between the two, and contracts the result with a weight matrix.  Read at (p, k) the
  selected array is the layer's activation; entry (p, g) of the contraction is the sum over k of the activation at
  (p, k) times the weight (k, g).  The stage is stated as a term of its five operands, so it serves every layer of the
  program that is composed this way.
-/
import proofs.«166412_j21423296872856_1_alg».proof.ReferenceIdeal
import proofs.«166412_j21423296872856_1_alg».proof.Proof.Spec
import proofs.«166412_j21423296872856_1_alg».proof.Proof.LibPlainDot
import proofs.«166412_j21423296872856_1_alg».proof.Proof.LibBroadcastInDim
import Idealize.ShloMosaic.Lib.ValueIdx
import Idealize.ShloMosaic.Lib.Pipeline.Value

noncomputable section

namespace Cert.ReferenceIdeal

open Idealize.ShloMosaic Idealize.ShloMosaic.ValueIdx

/-- A scalar spread over any shape reads the scalar everywhere. -/
theorem scalar_spread {α : Type} {t : Shape} (x : S_.Idx → α) (h : S_.BroadcastsInDim t (![] : Fin 0 → Fin t.rank))
    (j : t.Idx) : broadcastInDim t ![] h x j = x ix0 :=
  broadcastInDim_apply _ h x j ix0 fun a => a.elim0

variable [Facts]
open Facts₀ Facts

/-- A per-feature vector spread over the rows: set as a row [1, 256], the row spread down the 50000 rows. -/
def spreadRow (x : FVec Ideal S256 .f32) : FVec Ideal S50000x256 .f32 :=
  broadcastInDim S50000x256 ![0, 1] bcast_S1x256_S50000x256_0_1 (broadcastInDim S1x256 ![1] bcast_S256_S1x256_1 x)

/-- The spread vector at (p, k) is the vector's entry k. -/
theorem spreadRow_apply (x : FVec Ideal S256 .f32) (p : Fin 50000) (k : Fin 256) : spreadRow x (ix2 p k) = x (ix1 k) := by
  unfold spreadRow
  rw [Cert.Lib.InDim.row_spread, Cert.Lib.InDim.vec_as_row]

/-- The normalised array as the host composes it: γ · (h − μ), times (v + ε)^(−1/2), plus β, every vector spread. -/
def bnTerm (h : FVec Ideal S50000x256 .f32) (γ β μ v : FVec Ideal S256 .f32) : FVec Ideal S50000x256 .f32 :=
  addf
    (mulf (mulf (spreadRow γ) (subf h (spreadRow μ)))
      (spreadRow (Host.rsqrt (addf v (broadcastInDim S256 ![] bcast_S_S256 (constant (F := Ideal) S_ .f32 0x3727C5AC#32))))))
    (spreadRow β)

/-- The rectified array: the normalised entry where it is ≥ 0, 0.2 times it elsewhere. -/
def actTerm (h : FVec Ideal S50000x256 .f32) (γ β μ v : FVec Ideal S256 .f32) : FVec Ideal S50000x256 .f32 :=
  select
    (cmpf .oge (bnTerm h γ β μ v)
      (broadcastInDim S50000x256 ![] bcast_S_S50000x256 (constant (F := Ideal) S_ .f32 0x00000000#32)))
    (bnTerm h γ β μ v)
    (mulf (broadcastInDim S50000x256 ![] bcast_S_S50000x256 (constant (F := Ideal) S_ .f32 0x3E4CCCCD#32))
      (bnTerm h γ β μ v))

/-- The rectified array contracted with a weight matrix. -/
def proj2Term (h : FVec Ideal S50000x256 .f32) (γ β μ v : FVec Ideal S256 .f32) (W : FVec Ideal S256x256 .f32) :
    FVec Ideal S50000x256 .f32 :=
  Host.dotGeneral (F := Ideal) dot_S50000x256_S256x256_S50000x256_1_0_0_1_n_n none (actTerm h γ β μ v) W

/-- The normalised array at (p, k). -/
theorem ref_bn (h : FVec Ideal S50000x256 .f32) (γ β μ v : FVec Ideal S256 .f32) (p : Fin 50000) (k : Fin 256) :
    bnTerm h γ β μ v (ix2 p k)
      = Cert.Spec.bn (fun k => γ (ix1 k)) (fun k => β (ix1 k)) (fun k => μ (ix1 k)) (fun k => v (ix1 k))
          (fun p k => h (ix2 p k)) p k := by
  unfold bnTerm Cert.Spec.bn
  simp only [addf_apply, mulf_apply, subf_apply, spreadRow_apply]
  rfl

/-- The rectified array at (p, k) is the layer's activation there. -/
theorem ref_act (h : FVec Ideal S50000x256 .f32) (γ β μ v : FVec Ideal S256 .f32) (p : Fin 50000) (k : Fin 256) :
    actTerm h γ β μ v (ix2 p k)
      = Cert.Spec.act (fun k => γ (ix1 k)) (fun k => β (ix1 k)) (fun k => μ (ix1 k)) (fun k => v (ix1 k))
          (fun p k => h (ix2 p k)) p k := by
  unfold actTerm Cert.Spec.act Cert.Spec.leaky
  rw [select_apply, cmpf_apply, mulf_apply, scalar_spread, scalar_spread, ref_bn]
  rfl

/-- Entry (p, g) of the contraction: the activation row p against column g of the weights. -/
theorem ref_proj (h : FVec Ideal S50000x256 .f32) (γ β μ v : FVec Ideal S256 .f32) (W : FVec Ideal S256x256 .f32)
    (p : Fin 50000) (g : Fin 256) :
    proj2Term h γ β μ v W (ix2 p g)
      = Cert.Spec.proj2 (fun k => γ (ix1 k)) (fun k => β (ix1 k)) (fun k => μ (ix1 k)) (fun k => v (ix1 k))
          (fun p k => h (ix2 p k)) (fun k g => W (ix2 k g)) p g := by
  unfold proj2Term
  refine (Cert.PlainDot.hostDot_apply dot_S50000x256_S256x256_S50000x256_1_0_0_1_n_n rfl _ _ p g).trans ?_
  unfold Cert.Spec.proj2
  refine Finset.sum_congr rfl fun k _ => ?_
  rw [ref_act]

end Cert.ReferenceIdeal

end
-- ==== Proof.R2Ref.lean ====
/-
  The two output heads of the reference program, entry by entry.

  From the activation a (50000 rows of 256 features) the reference forms, for each head, the contraction of a row
  of a with a column of the head's weights plus the head's bias, the bias vector [32] being set as a row [1, 32] and
  the row spread over the 50000 rows. The location head is that sum. The scale head passes it through softplus in
  the overflow-safe form max(z, 0) + log(1 + e^(−|z − 0|)), guarded by the comparison d ≠ d on d = z − 0 (which
  would return z + 0), and adds the floor 1e-7. Read at (p, g) both are the closed forms of the specification:
  the host's absolute value is max d (−d), its negation is −, and its "not equal" comparison is the branch of
  the extended reals' comparison that the ordered "not equal" also takes.
-/
import proofs.«166412_j21423296872856_1_alg».proof.ReferenceIdeal
import proofs.«166412_j21423296872856_1_alg».proof.Proof.Spec
import proofs.«166412_j21423296872856_1_alg».proof.Proof.LibPlainDot
import proofs.«166412_j21423296872856_1_alg».proof.Proof.LibBroadcastInDim
import Idealize.ShloMosaic.Lib.IdealHost

noncomputable section

namespace Cert.ReferenceIdeal

open Idealize.ShloMosaic Idealize.ShloMosaic.ValueIdx

variable [Facts]
open Facts₀ Facts

/-- A head before its nonlinearity: the activation contracted with the weights, plus the bias vector set as a row
    and spread over the rows (operations %141 … %144, and again %145 … %148). -/
def locTerm (a : FVec Ideal S50000x256 .f32) (W : FVec Ideal S256x32 .f32) (b : FVec Ideal S32 .f32) :
    FVec Ideal S50000x32 .f32 :=
  addf (Host.dotGeneral (F := Ideal) dot_S50000x256_S256x32_S50000x32_1_0_0_1_n_n none a W)
    (broadcastInDim S50000x32 ![0, 1] bcast_S1x32_S50000x32_0_1 (broadcastInDim S1x32 ![1] bcast_S32_S1x32_1 b))

/-- The scalar zero spread over the head's shape. -/
def zeroArr : FVec Ideal S50000x32 .f32 :=
  broadcastInDim S50000x32 ![] bcast_S_S50000x32 (constant (F := Ideal) S_ .f32 0x00000000#32)

/-- Softplus as the reference computes it (the called function's operations %0 … %12). -/
def softplusTerm (x : FVec Ideal S50000x32 .f32) : FVec Ideal S50000x32 .f32 :=
  select (cmpf .une (subf x zeroArr) (subf x zeroArr)) (addf x zeroArr)
    (addf (maximumf x zeroArr) (Host.log1p (Host.exp (Host.negf (Host.absf (subf x zeroArr))))))

/-- The scale head: softplus of the head's sum, plus the floor spread over the shape (operations %145 … %151). -/
def stdTerm (a : FVec Ideal S50000x256 .f32) (W : FVec Ideal S256x32 .f32) (b : FVec Ideal S32 .f32) :
    FVec Ideal S50000x32 .f32 :=
  addf (softplusTerm (locTerm a W b))
    (broadcastInDim S50000x32 ![] bcast_S_S50000x32 (constant (F := Ideal) S_ .f32 0x33D6BF95#32))

/-- A head's sum at (p, g), for any activation a whose entries are A. -/
theorem ref_loc (a : FVec Ideal S50000x256 .f32) (W : FVec Ideal S256x32 .f32) (b : FVec Ideal S32 .f32)
    (A : Fin 50000 → Fin 256 → EReal) (ha : ∀ p k, a (ix2 p k) = A p k) (p : Fin 50000) (g : Fin 32) :
    locTerm a W b (ix2 p g) = (∑ k : Fin 256, A p k * W (ix2 k g)) + b (ix1 g) := by
  unfold locTerm
  rw [addf_apply, Cert.PlainDot.hostDot_apply dot_S50000x256_S256x32_S50000x32_1_0_0_1_n_n rfl a W p g,
    Cert.Lib.InDim.row_spread, Cert.Lib.InDim.vec_as_row]
  simp only [ha]

/-- The spread zero at an index is the word of +0.0. -/
theorem zeroArr_apply (i : S50000x32.Idx) : zeroArr i = Cert.Spec.zeroW := by
  unfold zeroArr
  rw [broadcastInDim_scalar_apply]
  rfl

/-- The reference's softplus at an index is the specification's softplus of the entry. -/
theorem softplusTerm_apply (x : FVec Ideal S50000x32 .f32) (i : S50000x32.Idx) :
    softplusTerm x i = Cert.Spec.softplus (x i) := by
  unfold softplusTerm
  show Scalar.select (Ideal.cmp .une (x i - zeroArr i) (x i - zeroArr i)) (x i + zeroArr i)
      (max (x i) (zeroArr i) + Ideal.log1p (Ideal.exp (-(max (x i - zeroArr i) (-(x i - zeroArr i)))))) = _
  rw [zeroArr_apply]
  rfl

/-- The scale head at (p, g), for any activation a whose entries are A. -/
theorem ref_std (a : FVec Ideal S50000x256 .f32) (W : FVec Ideal S256x32 .f32) (b : FVec Ideal S32 .f32)
    (A : Fin 50000 → Fin 256 → EReal) (ha : ∀ p k, a (ix2 p k) = A p k) (p : Fin 50000) (g : Fin 32) :
    stdTerm a W b (ix2 p g)
      = Cert.Spec.softplus ((∑ k : Fin 256, A p k * W (ix2 k g)) + b (ix1 g)) + Cert.Spec.stdEpsW := by
  unfold stdTerm
  rw [addf_apply, softplusTerm_apply, ref_loc a W b A ha p g, broadcastInDim_scalar_apply]
  rfl

end Cert.ReferenceIdeal

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.RefRead.lean ====
/-
  The reference program read stage by stage, over the extended reals: what the first stage leaves in the first
  projection's and the row totals' buffers, the third stage in the second projection's, the last stage in the two
  heads', each as the stage's term of the contents the stage starts from; and the buffers each stage leaves alone.
-/
import proofs.«166412_j21423296872856_1_alg».proof.Proof.RefOpsKeep
import proofs.«166412_j21423296872856_1_alg».proof.Proof.R0Ref
import proofs.«166412_j21423296872856_1_alg».proof.Proof.R1Ref
import proofs.«166412_j21423296872856_1_alg».proof.Proof.R2Ref
import proofs.«166412_j21423296872856_1_alg».proof.Proof.LibHostCalls

noncomputable section

namespace Cert.ReferenceIdeal.RefRead

open Cert.ReferenceIdeal Cert.ReferenceIdeal.Gen Idealize.ShloMosaic Idealize.ShloMosaic.TcCoe Idealize.SL.Sem Idealize.ShloMosaic.StableHlo
open Cert.ReferenceIdeal.RefRun

section Keep

variable {F : FTy → Type} [FloatOps F]

/-! ## What each stage leaves alone: the twelve arguments through every stage; the two index vectors and the
    column of row totals through every stage after the first -/

theorem seg0_keep_arg0 (W' : Valuation τ sig (Elt F)) : after seg0 W' (main_arg0 : DevRef τ sig) = W' (main_arg0 : DevRef τ sig) := seg0_keep W' main_arg0 (by decide)
theorem seg0_keep_arg1 (W' : Valuation τ sig (Elt F)) : after seg0 W' (main_arg1 : DevRef τ sig) = W' (main_arg1 : DevRef τ sig) := seg0_keep W' main_arg1 (by decide)
theorem seg0_keep_arg2 (W' : Valuation τ sig (Elt F)) : after seg0 W' (main_arg2 : DevRef τ sig) = W' (main_arg2 : DevRef τ sig) := seg0_keep W' main_arg2 (by decide)
theorem seg0_keep_arg3 (W' : Valuation τ sig (Elt F)) : after seg0 W' (main_arg3 : DevRef τ sig) = W' (main_arg3 : DevRef τ sig) := seg0_keep W' main_arg3 (by decide)
theorem seg0_keep_arg4 (W' : Valuation τ sig (Elt F)) : after seg0 W' (main_arg4 : DevRef τ sig) = W' (main_arg4 : DevRef τ sig) := seg0_keep W' main_arg4 (by decide)
theorem seg0_keep_arg5 (W' : Valuation τ sig (Elt F)) : after seg0 W' (main_arg5 : DevRef τ sig) = W' (main_arg5 : DevRef τ sig) := seg0_keep W' main_arg5 (by decide)
theorem seg0_keep_arg6 (W' : Valuation τ sig (Elt F)) : after seg0 W' (main_arg6 : DevRef τ sig) = W' (main_arg6 : DevRef τ sig) := seg0_keep W' main_arg6 (by decide)
theorem seg0_keep_arg7 (W' : Valuation τ sig (Elt F)) : after seg0 W' (main_arg7 : DevRef τ sig) = W' (main_arg7 : DevRef τ sig) := seg0_keep W' main_arg7 (by decide)
theorem seg0_keep_arg8 (W' : Valuation τ sig (Elt F)) : after seg0 W' (main_arg8 : DevRef τ sig) = W' (main_arg8 : DevRef τ sig) := seg0_keep W' main_arg8 (by decide)
theorem seg0_keep_arg9 (W' : Valuation τ sig (Elt F)) : after seg0 W' (main_arg9 : DevRef τ sig) = W' (main_arg9 : DevRef τ sig) := seg0_keep W' main_arg9 (by decide)
theorem seg0_keep_arg10 (W' : Valuation τ sig (Elt F)) : after seg0 W' (main_arg10 : DevRef τ sig) = W' (main_arg10 : DevRef τ sig) := seg0_keep W' main_arg10 (by decide)
theorem seg0_keep_arg11 (W' : Valuation τ sig (Elt F)) : after seg0 W' (main_arg11 : DevRef τ sig) = W' (main_arg11 : DevRef τ sig) := seg0_keep W' main_arg11 (by decide)
theorem seg1_keep_arg0 (W' : Valuation τ sig (Elt F)) : after seg1 W' (main_arg0 : DevRef τ sig) = W' (main_arg0 : DevRef τ sig) := seg1_keep W' main_arg0 (by decide)
theorem seg1_keep_arg1 (W' : Valuation τ sig (Elt F)) : after seg1 W' (main_arg1 : DevRef τ sig) = W' (main_arg1 : DevRef τ sig) := seg1_keep W' main_arg1 (by decide)
theorem seg1_keep_arg2 (W' : Valuation τ sig (Elt F)) : after seg1 W' (main_arg2 : DevRef τ sig) = W' (main_arg2 : DevRef τ sig) := seg1_keep W' main_arg2 (by decide)
theorem seg1_keep_arg3 (W' : Valuation τ sig (Elt F)) : after seg1 W' (main_arg3 : DevRef τ sig) = W' (main_arg3 : DevRef τ sig) := seg1_keep W' main_arg3 (by decide)
theorem seg1_keep_arg4 (W' : Valuation τ sig (Elt F)) : after seg1 W' (main_arg4 : DevRef τ sig) = W' (main_arg4 : DevRef τ sig) := seg1_keep W' main_arg4 (by decide)
theorem seg1_keep_arg5 (W' : Valuation τ sig (Elt F)) : after seg1 W' (main_arg5 : DevRef τ sig) = W' (main_arg5 : DevRef τ sig) := seg1_keep W' main_arg5 (by decide)
theorem seg1_keep_arg6 (W' : Valuation τ sig (Elt F)) : after seg1 W' (main_arg6 : DevRef τ sig) = W' (main_arg6 : DevRef τ sig) := seg1_keep W' main_arg6 (by decide)
theorem seg1_keep_arg7 (W' : Valuation τ sig (Elt F)) : after seg1 W' (main_arg7 : DevRef τ sig) = W' (main_arg7 : DevRef τ sig) := seg1_keep W' main_arg7 (by decide)
theorem seg1_keep_arg8 (W' : Valuation τ sig (Elt F)) : after seg1 W' (main_arg8 : DevRef τ sig) = W' (main_arg8 : DevRef τ sig) := seg1_keep W' main_arg8 (by decide)
theorem seg1_keep_arg9 (W' : Valuation τ sig (Elt F)) : after seg1 W' (main_arg9 : DevRef τ sig) = W' (main_arg9 : DevRef τ sig) := seg1_keep W' main_arg9 (by decide)
theorem seg1_keep_arg10 (W' : Valuation τ sig (Elt F)) : after seg1 W' (main_arg10 : DevRef τ sig) = W' (main_arg10 : DevRef τ sig) := seg1_keep W' main_arg10 (by decide)
theorem seg1_keep_arg11 (W' : Valuation τ sig (Elt F)) : after seg1 W' (main_arg11 : DevRef τ sig) = W' (main_arg11 : DevRef τ sig) := seg1_keep W' main_arg11 (by decide)
theorem seg2_keep_arg0 (W' : Valuation τ sig (Elt F)) : after seg2 W' (main_arg0 : DevRef τ sig) = W' (main_arg0 : DevRef τ sig) := seg2_keep W' main_arg0 (by decide)
theorem seg2_keep_arg1 (W' : Valuation τ sig (Elt F)) : after seg2 W' (main_arg1 : DevRef τ sig) = W' (main_arg1 : DevRef τ sig) := seg2_keep W' main_arg1 (by decide)
theorem seg2_keep_arg2 (W' : Valuation τ sig (Elt F)) : after seg2 W' (main_arg2 : DevRef τ sig) = W' (main_arg2 : DevRef τ sig) := seg2_keep W' main_arg2 (by decide)
theorem seg2_keep_arg3 (W' : Valuation τ sig (Elt F)) : after seg2 W' (main_arg3 : DevRef τ sig) = W' (main_arg3 : DevRef τ sig) := seg2_keep W' main_arg3 (by decide)
theorem seg2_keep_arg4 (W' : Valuation τ sig (Elt F)) : after seg2 W' (main_arg4 : DevRef τ sig) = W' (main_arg4 : DevRef τ sig) := seg2_keep W' main_arg4 (by decide)
theorem seg2_keep_arg5 (W' : Valuation τ sig (Elt F)) : after seg2 W' (main_arg5 : DevRef τ sig) = W' (main_arg5 : DevRef τ sig) := seg2_keep W' main_arg5 (by decide)
theorem seg2_keep_arg6 (W' : Valuation τ sig (Elt F)) : after seg2 W' (main_arg6 : DevRef τ sig) = W' (main_arg6 : DevRef τ sig) := seg2_keep W' main_arg6 (by decide)
theorem seg2_keep_arg7 (W' : Valuation τ sig (Elt F)) : after seg2 W' (main_arg7 : DevRef τ sig) = W' (main_arg7 : DevRef τ sig) := seg2_keep W' main_arg7 (by decide)
theorem seg2_keep_arg8 (W' : Valuation τ sig (Elt F)) : after seg2 W' (main_arg8 : DevRef τ sig) = W' (main_arg8 : DevRef τ sig) := seg2_keep W' main_arg8 (by decide)
theorem seg2_keep_arg9 (W' : Valuation τ sig (Elt F)) : after seg2 W' (main_arg9 : DevRef τ sig) = W' (main_arg9 : DevRef τ sig) := seg2_keep W' main_arg9 (by decide)
theorem seg2_keep_arg10 (W' : Valuation τ sig (Elt F)) : after seg2 W' (main_arg10 : DevRef τ sig) = W' (main_arg10 : DevRef τ sig) := seg2_keep W' main_arg10 (by decide)
theorem seg2_keep_arg11 (W' : Valuation τ sig (Elt F)) : after seg2 W' (main_arg11 : DevRef τ sig) = W' (main_arg11 : DevRef τ sig) := seg2_keep W' main_arg11 (by decide)
theorem seg3_keep_arg0 (W' : Valuation τ sig (Elt F)) : after seg3 W' (main_arg0 : DevRef τ sig) = W' (main_arg0 : DevRef τ sig) := seg3_keep W' main_arg0 (by decide)
theorem seg3_keep_arg1 (W' : Valuation τ sig (Elt F)) : after seg3 W' (main_arg1 : DevRef τ sig) = W' (main_arg1 : DevRef τ sig) := seg3_keep W' main_arg1 (by decide)
theorem seg3_keep_arg2 (W' : Valuation τ sig (Elt F)) : after seg3 W' (main_arg2 : DevRef τ sig) = W' (main_arg2 : DevRef τ sig) := seg3_keep W' main_arg2 (by decide)
theorem seg3_keep_arg3 (W' : Valuation τ sig (Elt F)) : after seg3 W' (main_arg3 : DevRef τ sig) = W' (main_arg3 : DevRef τ sig) := seg3_keep W' main_arg3 (by decide)
theorem seg3_keep_arg4 (W' : Valuation τ sig (Elt F)) : after seg3 W' (main_arg4 : DevRef τ sig) = W' (main_arg4 : DevRef τ sig) := seg3_keep W' main_arg4 (by decide)
theorem seg3_keep_arg5 (W' : Valuation τ sig (Elt F)) : after seg3 W' (main_arg5 : DevRef τ sig) = W' (main_arg5 : DevRef τ sig) := seg3_keep W' main_arg5 (by decide)
theorem seg3_keep_arg6 (W' : Valuation τ sig (Elt F)) : after seg3 W' (main_arg6 : DevRef τ sig) = W' (main_arg6 : DevRef τ sig) := seg3_keep W' main_arg6 (by decide)
theorem seg3_keep_arg7 (W' : Valuation τ sig (Elt F)) : after seg3 W' (main_arg7 : DevRef τ sig) = W' (main_arg7 : DevRef τ sig) := seg3_keep W' main_arg7 (by decide)
theorem seg3_keep_arg8 (W' : Valuation τ sig (Elt F)) : after seg3 W' (main_arg8 : DevRef τ sig) = W' (main_arg8 : DevRef τ sig) := seg3_keep W' main_arg8 (by decide)
theorem seg3_keep_arg9 (W' : Valuation τ sig (Elt F)) : after seg3 W' (main_arg9 : DevRef τ sig) = W' (main_arg9 : DevRef τ sig) := seg3_keep W' main_arg9 (by decide)
theorem seg3_keep_arg10 (W' : Valuation τ sig (Elt F)) : after seg3 W' (main_arg10 : DevRef τ sig) = W' (main_arg10 : DevRef τ sig) := seg3_keep W' main_arg10 (by decide)
theorem seg3_keep_arg11 (W' : Valuation τ sig (Elt F)) : after seg3 W' (main_arg11 : DevRef τ sig) = W' (main_arg11 : DevRef τ sig) := seg3_keep W' main_arg11 (by decide)
theorem seg4_keep_arg0 (W' : Valuation τ sig (Elt F)) : after seg4 W' (main_arg0 : DevRef τ sig) = W' (main_arg0 : DevRef τ sig) := seg4_keep W' main_arg0 (by decide)
theorem seg4_keep_arg1 (W' : Valuation τ sig (Elt F)) : after seg4 W' (main_arg1 : DevRef τ sig) = W' (main_arg1 : DevRef τ sig) := seg4_keep W' main_arg1 (by decide)
theorem seg4_keep_arg2 (W' : Valuation τ sig (Elt F)) : after seg4 W' (main_arg2 : DevRef τ sig) = W' (main_arg2 : DevRef τ sig) := seg4_keep W' main_arg2 (by decide)
theorem seg4_keep_arg3 (W' : Valuation τ sig (Elt F)) : after seg4 W' (main_arg3 : DevRef τ sig) = W' (main_arg3 : DevRef τ sig) := seg4_keep W' main_arg3 (by decide)
theorem seg4_keep_arg4 (W' : Valuation τ sig (Elt F)) : after seg4 W' (main_arg4 : DevRef τ sig) = W' (main_arg4 : DevRef τ sig) := seg4_keep W' main_arg4 (by decide)
theorem seg4_keep_arg5 (W' : Valuation τ sig (Elt F)) : after seg4 W' (main_arg5 : DevRef τ sig) = W' (main_arg5 : DevRef τ sig) := seg4_keep W' main_arg5 (by decide)
theorem seg4_keep_arg6 (W' : Valuation τ sig (Elt F)) : after seg4 W' (main_arg6 : DevRef τ sig) = W' (main_arg6 : DevRef τ sig) := seg4_keep W' main_arg6 (by decide)
theorem seg4_keep_arg7 (W' : Valuation τ sig (Elt F)) : after seg4 W' (main_arg7 : DevRef τ sig) = W' (main_arg7 : DevRef τ sig) := seg4_keep W' main_arg7 (by decide)
theorem seg4_keep_arg8 (W' : Valuation τ sig (Elt F)) : after seg4 W' (main_arg8 : DevRef τ sig) = W' (main_arg8 : DevRef τ sig) := seg4_keep W' main_arg8 (by decide)
theorem seg4_keep_arg9 (W' : Valuation τ sig (Elt F)) : after seg4 W' (main_arg9 : DevRef τ sig) = W' (main_arg9 : DevRef τ sig) := seg4_keep W' main_arg9 (by decide)
theorem seg4_keep_arg10 (W' : Valuation τ sig (Elt F)) : after seg4 W' (main_arg10 : DevRef τ sig) = W' (main_arg10 : DevRef τ sig) := seg4_keep W' main_arg10 (by decide)
theorem seg4_keep_arg11 (W' : Valuation τ sig (Elt F)) : after seg4 W' (main_arg11 : DevRef τ sig) = W' (main_arg11 : DevRef τ sig) := seg4_keep W' main_arg11 (by decide)
theorem seg1_keep_v1 (W' : Valuation τ sig (Elt F)) : after seg1 W' (main_v1 : DevRef τ sig) = W' (main_v1 : DevRef τ sig) := seg1_keep W' main_v1 (by decide)
theorem seg1_keep_v3 (W' : Valuation τ sig (Elt F)) : after seg1 W' (main_v3 : DevRef τ sig) = W' (main_v3 : DevRef τ sig) := seg1_keep W' main_v3 (by decide)
theorem seg1_keep_v5 (W' : Valuation τ sig (Elt F)) : after seg1 W' (main_v5 : DevRef τ sig) = W' (main_v5 : DevRef τ sig) := seg1_keep W' main_v5 (by decide)
theorem seg2_keep_v1 (W' : Valuation τ sig (Elt F)) : after seg2 W' (main_v1 : DevRef τ sig) = W' (main_v1 : DevRef τ sig) := seg2_keep W' main_v1 (by decide)
theorem seg2_keep_v3 (W' : Valuation τ sig (Elt F)) : after seg2 W' (main_v3 : DevRef τ sig) = W' (main_v3 : DevRef τ sig) := seg2_keep W' main_v3 (by decide)
theorem seg2_keep_v5 (W' : Valuation τ sig (Elt F)) : after seg2 W' (main_v5 : DevRef τ sig) = W' (main_v5 : DevRef τ sig) := seg2_keep W' main_v5 (by decide)
theorem seg3_keep_v1 (W' : Valuation τ sig (Elt F)) : after seg3 W' (main_v1 : DevRef τ sig) = W' (main_v1 : DevRef τ sig) := seg3_keep W' main_v1 (by decide)
theorem seg3_keep_v3 (W' : Valuation τ sig (Elt F)) : after seg3 W' (main_v3 : DevRef τ sig) = W' (main_v3 : DevRef τ sig) := seg3_keep W' main_v3 (by decide)
theorem seg3_keep_v5 (W' : Valuation τ sig (Elt F)) : after seg3 W' (main_v5 : DevRef τ sig) = W' (main_v5 : DevRef τ sig) := seg3_keep W' main_v5 (by decide)
theorem seg4_keep_v1 (W' : Valuation τ sig (Elt F)) : after seg4 W' (main_v1 : DevRef τ sig) = W' (main_v1 : DevRef τ sig) := seg4_keep W' main_v1 (by decide)
theorem seg4_keep_v3 (W' : Valuation τ sig (Elt F)) : after seg4 W' (main_v3 : DevRef τ sig) = W' (main_v3 : DevRef τ sig) := seg4_keep W' main_v3 (by decide)
theorem seg4_keep_v5 (W' : Valuation τ sig (Elt F)) : after seg4 W' (main_v5 : DevRef τ sig) = W' (main_v5 : DevRef τ sig) := seg4_keep W' main_v5 (by decide)

/-- The column of row totals, written by the first stage, is untouched by the other four. -/
theorem total_kept (X : Valuation τ sig (Elt F)) :
    after seg4 (after seg3 (after seg2 (after seg1 X))) (main_v5 : DevRef τ sig) = X (main_v5 : DevRef τ sig) := by
  rw [seg4_keep_v5, seg3_keep_v5, seg2_keep_v5, seg1_keep_v5]

end Keep

/-! ## The stages' results over the extended reals -/

/-- The first stage leaves the first projection's term of the input and the first weights. -/
theorem s0_proj (W' : Valuation τ sig (Elt Ideal)) :
    after seg0 W' (main_v11 : DevRef τ sig) = Region0.proj1Term (W' (main_arg0 : DevRef τ sig)) (W' (main_arg1 : DevRef τ sig)) := by
  after_results_simp
  rfl

/-- The first stage leaves the column of row totals of the input. -/
theorem s0_total (W' : Valuation τ sig (Elt Ideal)) :
    after seg0 W' (main_v5 : DevRef τ sig) = Region0.rowTotalTerm (W' (main_arg0 : DevRef τ sig)) := by
  after_results_simp
  rfl

/-- The third stage leaves the second projection's term of the first convolution, its scale, shift, column means
    and variances, and the second weights. -/
theorem s2_proj (W' : Valuation τ sig (Elt Ideal)) :
    after seg2 W' (main_v76 : DevRef τ sig)
      = proj2Term (W' (main_v51 : DevRef τ sig)) (W' (main_arg2 : DevRef τ sig)) (W' (main_arg3 : DevRef τ sig)) (W' (main_v54 : DevRef τ sig))
          (W' (main_v55 : DevRef τ sig)) (W' (main_arg4 : DevRef τ sig)) := by
  after_results_simp
  rfl

set_option maxHeartbeats 2000000 in
/-- The last stage leaves the location head's term of the second activation. -/
theorem s4_loc (W' : Valuation τ sig (Elt Ideal)) :
    after seg4 W' (main_v144 : DevRef τ sig)
      = locTerm (actTerm (W' (main_v116 : DevRef τ sig)) (W' (main_arg5 : DevRef τ sig)) (W' (main_arg6 : DevRef τ sig)) (W' (main_v119 : DevRef τ sig))
          (W' (main_v120 : DevRef τ sig))) (W' (main_arg7 : DevRef τ sig)) (W' (main_arg8 : DevRef τ sig)) := by
  after_results_simp
  rfl

set_option maxHeartbeats 2000000 in
/-- The last stage leaves the scale head's term of the second activation. -/
theorem s4_std (W' : Valuation τ sig (Elt Ideal)) :
    after seg4 W' (main_v151 : DevRef τ sig)
      = stdTerm (actTerm (W' (main_v116 : DevRef τ sig)) (W' (main_arg5 : DevRef τ sig)) (W' (main_arg6 : DevRef τ sig)) (W' (main_v119 : DevRef τ sig))
          (W' (main_v120 : DevRef τ sig))) (W' (main_arg9 : DevRef τ sig)) (W' (main_arg10 : DevRef τ sig)) := by
  after_results_simp
  rfl

end Cert.ReferenceIdeal.RefRead

end
-- ==== Proof.BridgeAgree0.lean ====
/-
  After the first stage the two programs agree on everything carried across the stages.

  Given equal arguments, the edge table's two rows and the row totals agree by the stage's boundary lemmas. Each
  layer's scale and shift and the heads' biases are arguments neither side has written yet, so both still hold the
  launched values. The later layers' weight matrices the kernel program holds in another float format, which over
  the extended reals is the same matrix entry by entry, and the reference has not written its own.
-/
import proofs.«166412_j21423296872856_1_alg».proof.Proof.Bridge0
import proofs.«166412_j21423296872856_1_alg».proof.Proof.BridgeInv
import proofs.«166412_j21423296872856_1_alg».proof.Proof.KKeep
import proofs.«166412_j21423296872856_1_alg».proof.Proof.KEntry
import proofs.«166412_j21423296872856_1_alg».proof.Proof.RefRead

noncomputable section

namespace Cert.Bridge.Stage0

open Idealize.ShloMosaic Idealize.ShloMosaic.TcCoe Idealize.SL.Sem Idealize.ShloMosaic.StableHlo
open Idealize.ShloMosaic.ValueIdx

/-- The kernel program's contents after its first region and the reference's after its first stage agree on the
    carried data, when the two programs were launched on equal arguments. -/
theorem agree0
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (W' : Valuation Cert.ReferenceIdeal.τ Cert.ReferenceIdeal.sig (Elt Ideal))
    (h0 : (m ((c : Thread Cert.KernelIdeal.nD Cert.KernelIdeal.τ).loc Cert.KernelIdeal.main_arg0) : FVec Ideal ⟨2, ![50000, 1000]⟩ .f32) = W' (Proc.devRef .tc Cert.ReferenceIdeal.main_arg0))
    (h1 : (m ((c : Thread Cert.KernelIdeal.nD Cert.KernelIdeal.τ).loc Cert.KernelIdeal.main_arg1) : FVec Ideal ⟨2, ![1000, 256]⟩ .f32) = W' (Proc.devRef .tc Cert.ReferenceIdeal.main_arg1))
    (h2 : (m ((c : Thread Cert.KernelIdeal.nD Cert.KernelIdeal.τ).loc Cert.KernelIdeal.main_arg2) : FVec Ideal ⟨1, ![256]⟩ .f32) = W' (Proc.devRef .tc Cert.ReferenceIdeal.main_arg2))
    (h3 : (m ((c : Thread Cert.KernelIdeal.nD Cert.KernelIdeal.τ).loc Cert.KernelIdeal.main_arg3) : FVec Ideal ⟨1, ![256]⟩ .f32) = W' (Proc.devRef .tc Cert.ReferenceIdeal.main_arg3))
    (h4 : (m ((c : Thread Cert.KernelIdeal.nD Cert.KernelIdeal.τ).loc Cert.KernelIdeal.main_arg4) : FVec Ideal ⟨2, ![256, 256]⟩ .f32) = W' (Proc.devRef .tc Cert.ReferenceIdeal.main_arg4))
    (h5 : (m ((c : Thread Cert.KernelIdeal.nD Cert.KernelIdeal.τ).loc Cert.KernelIdeal.main_arg5) : FVec Ideal ⟨1, ![256]⟩ .f32) = W' (Proc.devRef .tc Cert.ReferenceIdeal.main_arg5))
    (h6 : (m ((c : Thread Cert.KernelIdeal.nD Cert.KernelIdeal.τ).loc Cert.KernelIdeal.main_arg6) : FVec Ideal ⟨1, ![256]⟩ .f32) = W' (Proc.devRef .tc Cert.ReferenceIdeal.main_arg6))
    (h7 : (m ((c : Thread Cert.KernelIdeal.nD Cert.KernelIdeal.τ).loc Cert.KernelIdeal.main_arg7) : FVec Ideal ⟨2, ![256, 32]⟩ .f32) = W' (Proc.devRef .tc Cert.ReferenceIdeal.main_arg7))
    (h8 : (m ((c : Thread Cert.KernelIdeal.nD Cert.KernelIdeal.τ).loc Cert.KernelIdeal.main_arg8) : FVec Ideal ⟨1, ![32]⟩ .f32) = W' (Proc.devRef .tc Cert.ReferenceIdeal.main_arg8))
    (h9 : (m ((c : Thread Cert.KernelIdeal.nD Cert.KernelIdeal.τ).loc Cert.KernelIdeal.main_arg9) : FVec Ideal ⟨2, ![256, 32]⟩ .f32) = W' (Proc.devRef .tc Cert.ReferenceIdeal.main_arg9))
    (h10 : (m ((c : Thread Cert.KernelIdeal.nD Cert.KernelIdeal.τ).loc Cert.KernelIdeal.main_arg10) : FVec Ideal ⟨1, ![32]⟩ .f32) = W' (Proc.devRef .tc Cert.ReferenceIdeal.main_arg10))
    (h11 : (m ((c : Thread Cert.KernelIdeal.nD Cert.KernelIdeal.τ).loc Cert.KernelIdeal.main_arg11) : IVec ⟨2, ![2, 800000]⟩ 32) = W' (Proc.devRef .tc Cert.ReferenceIdeal.main_arg11)) :
    Cert.Bridge.Agree (Cert.KernelIdeal.Gen.W2 m ρ c) (after Cert.ReferenceIdeal.RefRun.seg0 W') where
  src := src m ρ c W' h11
  dst := dst m ρ c W' h11
  g1 := (Cert.KernelIdeal.Gen.W2_of_ne m ρ c Cert.KernelIdeal.main_arg2 (by decide)).trans
    ((Cert.KernelIdeal.KKeep.hostOps0_keep (Cert.KernelIdeal.Gen.W0 m ρ c) Cert.KernelIdeal.main_arg2 (by decide)).trans
      (h2.trans (Cert.ReferenceIdeal.RefRead.seg0_keep_arg2 W').symm))
  b1 := (Cert.KernelIdeal.Gen.W2_of_ne m ρ c Cert.KernelIdeal.main_arg3 (by decide)).trans
    ((Cert.KernelIdeal.KKeep.hostOps0_keep (Cert.KernelIdeal.Gen.W0 m ρ c) Cert.KernelIdeal.main_arg3 (by decide)).trans
      (h3.trans (Cert.ReferenceIdeal.RefRead.seg0_keep_arg3 W').symm))
  g2 := (Cert.KernelIdeal.Gen.W2_of_ne m ρ c Cert.KernelIdeal.main_arg5 (by decide)).trans
    ((Cert.KernelIdeal.KKeep.hostOps0_keep (Cert.KernelIdeal.Gen.W0 m ρ c) Cert.KernelIdeal.main_arg5 (by decide)).trans
      (h5.trans (Cert.ReferenceIdeal.RefRead.seg0_keep_arg5 W').symm))
  b2 := (Cert.KernelIdeal.Gen.W2_of_ne m ρ c Cert.KernelIdeal.main_arg6 (by decide)).trans
    ((Cert.KernelIdeal.KKeep.hostOps0_keep (Cert.KernelIdeal.Gen.W0 m ρ c) Cert.KernelIdeal.main_arg6 (by decide)).trans
      (h6.trans (Cert.ReferenceIdeal.RefRead.seg0_keep_arg6 W').symm))
  bl := (Cert.KernelIdeal.Gen.W2_of_ne m ρ c Cert.KernelIdeal.main_arg8 (by decide)).trans
    ((Cert.KernelIdeal.KKeep.hostOps0_keep (Cert.KernelIdeal.Gen.W0 m ρ c) Cert.KernelIdeal.main_arg8 (by decide)).trans
      (h8.trans (Cert.ReferenceIdeal.RefRead.seg0_keep_arg8 W').symm))
  bs := (Cert.KernelIdeal.Gen.W2_of_ne m ρ c Cert.KernelIdeal.main_arg10 (by decide)).trans
    ((Cert.KernelIdeal.KKeep.hostOps0_keep (Cert.KernelIdeal.Gen.W0 m ρ c) Cert.KernelIdeal.main_arg10 (by decide)).trans
      (h10.trans (Cert.ReferenceIdeal.RefRead.seg0_keep_arg10 W').symm))
  w2 := fun k g => (congrFun (Cert.KernelIdeal.Gen.W2_of_ne m ρ c Cert.KernelIdeal.main_v5 (by decide)) _).trans
    ((Cert.KernelIdeal.KKeep.hostOps0_main_v5 (Cert.KernelIdeal.Gen.W0 m ρ c) k g).trans
      (congrFun (h4.trans (Cert.ReferenceIdeal.RefRead.seg0_keep_arg4 W').symm) _))
  wl := fun k g => (congrFun (Cert.KernelIdeal.Gen.W2_of_ne m ρ c Cert.KernelIdeal.main_v6 (by decide)) _).trans
    ((Cert.KernelIdeal.KKeep.hostOps0_main_v6 (Cert.KernelIdeal.Gen.W0 m ρ c) k g).trans
      (congrFun (h7.trans (Cert.ReferenceIdeal.RefRead.seg0_keep_arg7 W').symm) _))
  ws := fun k g => (congrFun (Cert.KernelIdeal.Gen.W2_of_ne m ρ c Cert.KernelIdeal.main_v7 (by decide)) _).trans
    ((Cert.KernelIdeal.KKeep.hostOps0_main_v7 (Cert.KernelIdeal.Gen.W0 m ρ c) k g).trans
      (congrFun (h9.trans (Cert.ReferenceIdeal.RefRead.seg0_keep_arg9 W').symm) _))
  tot := total m ρ c W' h0

end Cert.Bridge.Stage0

end
-- ==== Proof.BridgeAgg1.lean ====
/-
  The first layer's graph aggregation and its per-feature statistics.
  Both programs compute it with the same host operations on the same inputs: reading each side's buffer after the
  stretch gives one and the same composition of operations, so equal inputs give equal results.
-/
import proofs.«166412_j21423296872856_1_alg».proof.Proof.Gen.KernelIdeal.Launch
import proofs.«166412_j21423296872856_1_alg».proof.Proof.RefOpsSeg1
import Idealize.ShloMosaic.Lib.StableHlo.Run

noncomputable section

namespace Cert.Bridge.Agg1

open Idealize.ShloMosaic Idealize.ShloMosaic.TcCoe Idealize.SL.Sem Idealize.ShloMosaic.StableHlo
open Cert.KernelIdeal.Gen Cert.ReferenceIdeal.Gen

variable {F : FTy → Type} [FloatOps F]
variable (W : Valuation Cert.KernelIdeal.τ Cert.KernelIdeal.sig (Elt F)) (W' : Valuation Cert.ReferenceIdeal.τ Cert.ReferenceIdeal.sig (Elt F))

set_option maxHeartbeats 8000000 in
/-- The aggregated features: one composition of gathers, scatters and products of the projected features and the edge table's rows. -/
theorem agg (hp : (W (Proc.devRef .tc Cert.KernelIdeal.main_v8_0) : FVec F ⟨2, ![50000, 256]⟩ .f32) = W' (Proc.devRef .tc Cert.ReferenceIdeal.main_v11))
    (hs : (W (Proc.devRef .tc Cert.KernelIdeal.main_v1) : IVec ⟨1, ![800000]⟩ 32) = W' (Proc.devRef .tc Cert.ReferenceIdeal.main_v1)) (hd : (W (Proc.devRef .tc Cert.KernelIdeal.main_v3) : IVec ⟨1, ![800000]⟩ 32) = W' (Proc.devRef .tc Cert.ReferenceIdeal.main_v3)) :
    (after Cert.KernelIdeal.Gen.hostOps1 W (Proc.devRef .tc Cert.KernelIdeal.main_v48) : FVec F ⟨2, ![50000, 256]⟩ .f32) = after Cert.ReferenceIdeal.RefRun.seg1 W' (Proc.devRef .tc Cert.ReferenceIdeal.main_v51) := by
  after_results_simp
  rw [hp, hs, hd]
  rfl

set_option maxHeartbeats 8000000 in
/-- The per-feature mean of the aggregated features. -/
theorem mean (hp : (W (Proc.devRef .tc Cert.KernelIdeal.main_v8_0) : FVec F ⟨2, ![50000, 256]⟩ .f32) = W' (Proc.devRef .tc Cert.ReferenceIdeal.main_v11))
    (hs : (W (Proc.devRef .tc Cert.KernelIdeal.main_v1) : IVec ⟨1, ![800000]⟩ 32) = W' (Proc.devRef .tc Cert.ReferenceIdeal.main_v1)) (hd : (W (Proc.devRef .tc Cert.KernelIdeal.main_v3) : IVec ⟨1, ![800000]⟩ 32) = W' (Proc.devRef .tc Cert.ReferenceIdeal.main_v3)) :
    (after Cert.KernelIdeal.Gen.hostOps1 W (Proc.devRef .tc Cert.KernelIdeal.main_v51) : FVec F ⟨1, ![256]⟩ .f32) = after Cert.ReferenceIdeal.RefRun.seg1 W' (Proc.devRef .tc Cert.ReferenceIdeal.main_v54) := by
  after_results_simp
  rw [hp, hs, hd]
  rfl

set_option maxHeartbeats 16000000 in
/-- The per-feature variance of the aggregated features. -/
theorem var (hp : (W (Proc.devRef .tc Cert.KernelIdeal.main_v8_0) : FVec F ⟨2, ![50000, 256]⟩ .f32) = W' (Proc.devRef .tc Cert.ReferenceIdeal.main_v11))
    (hs : (W (Proc.devRef .tc Cert.KernelIdeal.main_v1) : IVec ⟨1, ![800000]⟩ 32) = W' (Proc.devRef .tc Cert.ReferenceIdeal.main_v1)) (hd : (W (Proc.devRef .tc Cert.KernelIdeal.main_v3) : IVec ⟨1, ![800000]⟩ 32) = W' (Proc.devRef .tc Cert.ReferenceIdeal.main_v3)) :
    (after Cert.KernelIdeal.Gen.hostOps1_1 (after Cert.KernelIdeal.Gen.hostOps1 W) (Proc.devRef .tc Cert.KernelIdeal.main_v52) : FVec F ⟨1, ![256]⟩ .f32) = after Cert.ReferenceIdeal.RefRun.seg1 W' (Proc.devRef .tc Cert.ReferenceIdeal.main_v55) := by
  after_results_simp
  rw [hp, hs, hd]
  rfl

end Cert.Bridge.Agg1

end
-- ==== Proof.R1Payload.lean ====
/-
  The second dense stage on one block of rows, read entry by entry.

  A block of rows h [a, b] is batch-normalised with the per-feature rows γ, β, μ, v (each [1, b], spread down the
  block's rows), passed through the leaky rectifier, narrowed to the product's operand format (the identity over the
  extended reals) and contracted with a weight matrix into a zero accumulator.  Read at (r, k) the normalised block
  is γ(k) · (h(r,k) − μ(k)) · (v(k) + ε)^(−1/2) + β(k); the rectified block is that value where it is ≥ 0 and
  0.2 times it elsewhere; and entry (r, g) of the product is the sum over k of the rectified entry (r, k) times the
  weight (k, g).  The first two facts are stated for every row count a and feature count b, about the composed
  operations themselves, so that they serve every block body that normalises and rectifies this way.
-/
import proofs.«166412_j21423296872856_1_alg».proof.Proof.Gen.KernelIdeal.Skeleton
import proofs.«166412_j21423296872856_1_alg».proof.Proof.Spec
import proofs.«166412_j21423296872856_1_alg».proof.Proof.LibPlainDot
import Idealize.ShloMosaic.Lib.ValueLayout
import Idealize.ShloMosaic.Lib.Pipeline.Value

noncomputable section

namespace Cert.BnAct

open Idealize.ShloMosaic Idealize.ShloMosaic.ValueIdx

variable {a b : ℕ}

/-- The normalised block as a block body composes it: each [1, b] row spread down the a rows, the difference
    h − μ, the products with γ and with (v + ε)^(−1/2), and the sum with β. -/
def bnVec (hs : (⟨2, ![a, b]⟩ : Shape).ShapeCasts ⟨2, ![a, b]⟩) (hr : (⟨2, ![1, b]⟩ : Shape).ShapeCasts ⟨2, ![1, b]⟩)
    (hb : (⟨2, ![1, b]⟩ : Shape).Broadcasts ⟨2, ![a, b]⟩)
    (h0 : FVec Ideal ⟨2, ![a, b]⟩ .f32) (γ β μ v : FVec Ideal ⟨2, ![1, b]⟩ .f32) : FVec Ideal ⟨2, ![a, b]⟩ .f32 :=
  addf
    (mulf
      (mulf (broadcastTo ⟨2, ![a, b]⟩ (shapeCast ⟨2, ![1, b]⟩ γ hr) hb)
        (subf (shapeCast ⟨2, ![a, b]⟩ h0 hs) (broadcastTo ⟨2, ![a, b]⟩ (shapeCast ⟨2, ![1, b]⟩ μ hr) hb)))
      (broadcastTo ⟨2, ![a, b]⟩
        (rsqrt (addf (shapeCast ⟨2, ![1, b]⟩ v hr) (broadcast ⟨2, ![1, b]⟩ (Scalar.ofBits .f32 0x3727C5AC#32)))) hb))
    (broadcastTo ⟨2, ![a, b]⟩ (shapeCast ⟨2, ![1, b]⟩ β hr) hb)

/-- The rectified block in the product's operand format: the normalised entry where it is ≥ 0, 0.2 times it
    elsewhere. -/
def actVec (hs : (⟨2, ![a, b]⟩ : Shape).ShapeCasts ⟨2, ![a, b]⟩) (hr : (⟨2, ![1, b]⟩ : Shape).ShapeCasts ⟨2, ![1, b]⟩)
    (hb : (⟨2, ![1, b]⟩ : Shape).Broadcasts ⟨2, ![a, b]⟩) (hlt : FTy.bits .bf16 < FTy.bits .f32)
    (h0 : FVec Ideal ⟨2, ![a, b]⟩ .f32) (γ β μ v : FVec Ideal ⟨2, ![1, b]⟩ .f32) : FVec Ideal ⟨2, ![a, b]⟩ .bf16 :=
  truncf .bf16
    (select (cmpf .oge (bnVec hs hr hb h0 γ β μ v) (broadcast ⟨2, ![a, b]⟩ (Scalar.ofBits .f32 0x00000000#32)))
      (bnVec hs hr hb h0 γ β μ v)
      (mulf (broadcast ⟨2, ![a, b]⟩ (Scalar.ofBits .f32 0x3E4CCCCD#32)) (bnVec hs hr hb h0 γ β μ v)))
    hlt

/-- The normalised block at (r, k). -/
theorem bnVec_apply (hs : (⟨2, ![a, b]⟩ : Shape).ShapeCasts ⟨2, ![a, b]⟩) (hr : (⟨2, ![1, b]⟩ : Shape).ShapeCasts ⟨2, ![1, b]⟩)
    (hb : (⟨2, ![1, b]⟩ : Shape).Broadcasts ⟨2, ![a, b]⟩)
    (h0 : FVec Ideal ⟨2, ![a, b]⟩ .f32) (γ β μ v : FVec Ideal ⟨2, ![1, b]⟩ .f32) (r : Fin a) (k : Fin b) :
    bnVec hs hr hb h0 γ β μ v (ix2 r k)
      = Cert.Spec.bn (fun k => γ (ix2 (0 : Fin 1) k)) (fun k => β (ix2 (0 : Fin 1) k)) (fun k => μ (ix2 (0 : Fin 1) k))
          (fun k => v (ix2 (0 : Fin 1) k)) (fun r k => h0 (ix2 r k)) r k := by
  unfold bnVec Cert.Spec.bn
  simp only [addf_apply, mulf_apply, subf_apply, broadcastTo_1b_ab_apply, shapeCast_self]
  rfl

/-- The rectified block at (r, k) is the layer's activation there. -/
theorem actVec_apply (hs : (⟨2, ![a, b]⟩ : Shape).ShapeCasts ⟨2, ![a, b]⟩) (hr : (⟨2, ![1, b]⟩ : Shape).ShapeCasts ⟨2, ![1, b]⟩)
    (hb : (⟨2, ![1, b]⟩ : Shape).Broadcasts ⟨2, ![a, b]⟩) (hlt : FTy.bits .bf16 < FTy.bits .f32)
    (h0 : FVec Ideal ⟨2, ![a, b]⟩ .f32) (γ β μ v : FVec Ideal ⟨2, ![1, b]⟩ .f32) (r : Fin a) (k : Fin b) :
    actVec hs hr hb hlt h0 γ β μ v (ix2 r k)
      = Cert.Spec.act (fun k => γ (ix2 (0 : Fin 1) k)) (fun k => β (ix2 (0 : Fin 1) k)) (fun k => μ (ix2 (0 : Fin 1) k))
          (fun k => v (ix2 (0 : Fin 1) k)) (fun r k => h0 (ix2 r k)) r k := by
  unfold actVec Cert.Spec.act Cert.Spec.leaky
  rw [truncf_apply, select_apply, cmpf_apply, mulf_apply, broadcast_apply, broadcast_apply, bnVec_apply]
  rfl

end Cert.BnAct

namespace Cert.R1

open Idealize.ShloMosaic Idealize.ShloMosaic.ValueIdx Cert.KernelIdeal Cert.KernelIdeal.Gen

/-- The block body's product operand is the rectified block. -/
theorem pay_eq (h0 : Vec Ideal S2000x256 .f32) (γ β μ v : Vec Ideal S1x256 .f32) (w : Vec Ideal S256x256 .bf16) :
    Gen.k1_pay1 h0 γ β μ v w
      = matmul (F := Ideal) (φ₁ := .bf16) (φ₂ := .bf16) dot_S2000x256_S256x256_S2000x256_1_0_0_1_n_n none
          (Cert.BnAct.actVec shapeCasts_S2000x256_S2000x256 shapeCasts_S1x256_S1x256 broadcasts_S1x256_S2000x256
            bitsLt_bf16_f32 h0 γ β μ v)
          (shapeCast S256x256 (w : FVec Ideal S256x256 .bf16) shapeCasts_S256x256_S256x256)
          (constant S2000x256 .f32 0x00000000#32) := rfl

/-- Entry (r, g) of the block the body stores: the activation row r contracted with column g of the weights. -/
theorem pay_proj (h0 : Vec Ideal S2000x256 .f32) (γ β μ v : Vec Ideal S1x256 .f32) (w : Vec Ideal S256x256 .bf16)
    (r : Fin 2000) (g : Fin 256) :
    Gen.k1_pay1 h0 γ β μ v w (ix2 r g)
      = Cert.Spec.proj2 (fun k => γ (ix2 (0 : Fin 1) k)) (fun k => β (ix2 (0 : Fin 1) k)) (fun k => μ (ix2 (0 : Fin 1) k))
          (fun k => v (ix2 (0 : Fin 1) k)) (fun r k => h0 (ix2 r k)) (fun k g => w (ix2 k g)) r g := by
  rw [pay_eq]
  refine (Cert.PlainDot.matmul_zero_apply dot_S2000x256_S256x256_S2000x256_1_0_0_1_n_n rfl _ _ r g).trans ?_
  unfold Cert.Spec.proj2
  refine Finset.sum_congr rfl fun k _ => ?_
  rw [Cert.BnAct.actVec_apply, shapeCast_self]

end Cert.R1

end
-- ==== Proof.R1Array.lean ====
/-
  The second dense stage's output array after the pipeline has run, read entry by entry.

  The grid has 25 points; point t reads rows 2000·t … 2000·t + 1999 of the input array h [50000, 256] and the whole
  of the four per-feature rows γ, β, μ, v [1, 256] and of the weights [256, 256], and writes back rows
  2000·t … 2000·t + 1999 of the output.  Entry (r, g) of the block written at t is the activation row r of the block
  contracted with column g of the weights; the activation at (r, k) depends on the input array only through its entry
  (2000·t + r, k).  So the blocks written are the blocks of ONE function of the arrays the region finds — entry (p, g)
  is the activation row p contracted with column g — and since the 25 blocks tile the 50000 rows (row p lies in the
  block of point p / 2000) the output array ends holding that function.
-/
import proofs.«166412_j21423296872856_1_alg».proof.Proof.Gen.KernelIdeal.Frame
import proofs.«166412_j21423296872856_1_alg».proof.Proof.R1Payload
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.R1

open Cert.KernelIdeal Cert.KernelIdeal.Gen

variable {A A' H C : ℕ} in
/-- The contraction depends on its operands only through the entries it reads: the four per-feature vectors, row p of
    the layer's input, and column g of the weights. -/
theorem proj2_congr (γ β μ v γ' β' μ' v' : Fin H → EReal) (h : Fin A → Fin H → EReal) (h' : Fin A' → Fin H → EReal)
    (w w' : Fin H → Fin C → EReal) (p : Fin A) (p' : Fin A') (g : Fin C)
    (hγ : ∀ k, γ k = γ' k) (hβ : ∀ k, β k = β' k) (hμ : ∀ k, μ k = μ' k) (hv : ∀ k, v k = v' k)
    (hh : ∀ k, h p k = h' p' k) (hw : ∀ k, w k g = w' k g) :
    Cert.Spec.proj2 γ β μ v h w p g = Cert.Spec.proj2 γ' β' μ' v' h' w' p' g := by
  unfold Cert.Spec.proj2 Cert.Spec.act Cert.Spec.bn
  refine Finset.sum_congr rfl fun k _ => ?_
  rw [hγ k, hβ k, hμ k, hv k, hh k, hw k]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input blocks and the output blocks move down the rows with the point, every
    other window stays at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The function the output array ends holding, of the arrays the region finds. -/
def G1 (c : Dev nD) : S50000x256.Idx → EReal := fun i =>
  Cert.Spec.proj2
    (fun k => (V c (Pipeline.arrRef spec1 1) : S1x256.Idx → EReal) (ix2 (0 : Fin 1) k))
    (fun k => (V c (Pipeline.arrRef spec1 2) : S1x256.Idx → EReal) (ix2 (0 : Fin 1) k))
    (fun k => (V c (Pipeline.arrRef spec1 3) : S1x256.Idx → EReal) (ix2 (0 : Fin 1) k))
    (fun k => (V c (Pipeline.arrRef spec1 4) : S1x256.Idx → EReal) (ix2 (0 : Fin 1) k))
    (fun p k => (V c (Pipeline.arrRef spec1 0) : S50000x256.Idx → EReal) (ix2 p k))
    (fun k g => (V c (Pipeline.arrRef spec1 5) : S256x256.Idx → EReal) (ix2 k g))
    (i 0 : Fin 50000) (i 1 : Fin 256)

/-- The input block at point t, at (r, k), is the array's entry (2000·t + r, k). -/
theorem h_read (c : Dev nD) (t : Fin cfg1.N) (r : Fin 2000) (k : Fin 256) (p : Fin 50000)
    (hp : p.val = t.val * 2000 + r.val) :
    (iblk1 V c 0 t : S2000x256.Idx → EReal) (ix2 r k)
      = (V c (Pipeline.arrRef spec1 0) : S50000x256.Idx → EReal) (ix2 p k) := by
  obtain ⟨e0, e1, -⟩ := idx_facts t
  show (V c (Pipeline.arrRef spec1 0) : S50000x256.Idx → EReal) (((cfg1.win 0).blk t).view.emb (ix2 r k)) = _
  refine congrArg _ (funext fun a => Fin.ext ?_)
  match a with
  | ⟨0, _⟩ => show win1_0.index t (0 : Fin 2) * 2000 + 1 * r.val = p.val; omega
  | ⟨1, _⟩ => show win1_0.index t (1 : Fin 2) * 256 + 1 * k.val = k.val; omega

/-- The block of the whole window 1 is its array: the row γ at (0, k). -/
theorem row_read1 (c : Dev nD) (t : Fin cfg1.N) (k : Fin 256) :
    (iblk1 V c 1 t : S1x256.Idx → EReal) (ix2 (0 : Fin 1) k)
      = (V c (Pipeline.arrRef spec1 1) : S1x256.Idx → EReal) (ix2 (0 : Fin 1) k) := by
  obtain ⟨-, -, e10, e11, e20, e21, e30, e31, e40, e41, -⟩ := idx_facts t
  show (V c (Pipeline.arrRef spec1 1) : S1x256.Idx → EReal) (((cfg1.win 1).blk t).view.emb (ix2 (0 : Fin 1) k)) = _
  refine congrArg _ (funext fun a => Fin.ext ?_)
  match a with
  | ⟨0, _⟩ => show win1_1.index t (0 : Fin 2) * 1 + 1 * 0 = 0; omega
  | ⟨1, _⟩ => show win1_1.index t (1 : Fin 2) * 256 + 1 * k.val = k.val; omega

/-- The block of the whole window 2 is its array: the row β at (0, k). -/
theorem row_read2 (c : Dev nD) (t : Fin cfg1.N) (k : Fin 256) :
    (iblk1 V c 2 t : S1x256.Idx → EReal) (ix2 (0 : Fin 1) k)
      = (V c (Pipeline.arrRef spec1 2) : S1x256.Idx → EReal) (ix2 (0 : Fin 1) k) := by
  obtain ⟨-, -, e10, e11, e20, e21, e30, e31, e40, e41, -⟩ := idx_facts t
  show (V c (Pipeline.arrRef spec1 2) : S1x256.Idx → EReal) (((cfg1.win 2).blk t).view.emb (ix2 (0 : Fin 1) k)) = _
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * k.val = k.val; omega

/-- The block of the whole window 3 is its array: the row μ at (0, k). -/
theorem row_read3 (c : Dev nD) (t : Fin cfg1.N) (k : Fin 256) :
    (iblk1 V c 3 t : S1x256.Idx → EReal) (ix2 (0 : Fin 1) k)
      = (V c (Pipeline.arrRef spec1 3) : S1x256.Idx → EReal) (ix2 (0 : Fin 1) k) := by
  obtain ⟨-, -, e10, e11, e20, e21, e30, e31, e40, e41, -⟩ := idx_facts t
  show (V c (Pipeline.arrRef spec1 3) : S1x256.Idx → EReal) (((cfg1.win 3).blk t).view.emb (ix2 (0 : Fin 1) k)) = _
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * k.val = k.val; omega

/-- The block of the whole window 4 is its array: the row v at (0, k). -/
theorem row_read4 (c : Dev nD) (t : Fin cfg1.N) (k : Fin 256) :
    (iblk1 V c 4 t : S1x256.Idx → EReal) (ix2 (0 : Fin 1) k)
      = (V c (Pipeline.arrRef spec1 4) : S1x256.Idx → EReal) (ix2 (0 : Fin 1) k) := by
  obtain ⟨-, -, e10, e11, e20, e21, e30, e31, e40, e41, -⟩ := idx_facts t
  show (V c (Pipeline.arrRef spec1 4) : S1x256.Idx → EReal) (((cfg1.win 4).blk t).view.emb (ix2 (0 : Fin 1) k)) = _
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * k.val = k.val; omega

/-- The block of the whole window 5 is its array: the weights at (k, g). -/
theorem w_read (c : Dev nD) (t : Fin cfg1.N) (k : Fin 256) (g : Fin 256) :
    (iblk1 V c 5 t : S256x256.Idx → EReal) (ix2 k g)
      = (V c (Pipeline.arrRef spec1 5) : S256x256.Idx → EReal) (ix2 k g) := by
  obtain ⟨-, -, -, -, -, -, -, -, -, -, e50, e51, -⟩ := idx_facts t
  show (V c (Pipeline.arrRef spec1 5) : S256x256.Idx → EReal) (((cfg1.win 5).blk t).view.emb (ix2 k g)) = _
  refine congrArg _ (funext fun a => Fin.ext ?_)
  match a with
  | ⟨0, _⟩ => show win1_5.index t (0 : Fin 2) * 256 + 1 * k.val = k.val; omega
  | ⟨1, _⟩ => show win1_5.index t (1 : Fin 2) * 256 + 1 * g.val = g.val; omega

/-- What point t writes back is block t of the function `G1` of the arrays the region finds. -/
theorem flushed_eq (c : Dev nD) (t : Fin cfg1.N) :
    (dat1 V c).flushed 6 t = ((cfg1.win 6).blk t).view.read (Elt Ideal) (G1 V c) := by
  have hN : cfg1.N = 25 := N_1
  have ht : t.val < 25 := hN ▸ t.isLt
  obtain ⟨-, -, -, -, -, -, -, -, -, -, -, -, e0, e1⟩ := idx_facts t
  show (cfg1.win 6).cut (grid1.coords t) ((dat1 V c).after 6 t) = _
  rw [after1_6]
  unfold out1_6
  rw [View.canon_unit_zero hz]
  simp only [View.ld_unit_zero (S := S2000x256) hz, View.ld_unit_zero (S := S1x256) hz, View.ld_unit_zero (S := S256x256) hz]
  funext j
  obtain ⟨r, g, rfl⟩ : ∃ (r : Fin 2000) (g : Fin 256), j = ix2 r g := ⟨j 0, j 1, eq_ix2 j⟩
  have hr : r.val < 2000 := r.isLt
  have hemb : ((cfg1.win 6).blk t).view.emb (ix2 r g)
      = ix2 (⟨t.val * 2000 + r.val, by omega⟩ : Fin 50000) g := funext fun a => Fin.ext (by
    match a with
    | ⟨0, _⟩ => show win1_6.index t (0 : Fin 2) * 2000 + 1 * r.val = t.val * 2000 + r.val; omega
    | ⟨1, _⟩ => show win1_6.index t (1 : Fin 2) * 256 + 1 * g.val = g.val; omega)
  show Gen.k1_pay1 (iblk1 V c 0 t) (iblk1 V c 1 t) (iblk1 V c 2 t) (iblk1 V c 3 t) (iblk1 V c 4 t) (iblk1 V c 5 t) (ix2 r g)
    = G1 V c (((cfg1.win 6).blk t).view.emb (ix2 r g))
  rw [hemb]
  refine (pay_proj (iblk1 V c 0 t) (iblk1 V c 1 t) (iblk1 V c 2 t) (iblk1 V c 3 t) (iblk1 V c 4 t) (iblk1 V c 5 t) r g).trans ?_
  exact proj2_congr _ _ _ _ _ _ _ _ _ _ _ _ r (⟨t.val * 2000 + r.val, by omega⟩ : Fin 50000) g
    (row_read1 V c t) (row_read2 V c t) (row_read3 V c t) (row_read4 V c t)
    (fun k => h_read V c t r k _ rfl) (fun k => w_read V c t k g)

/-- An index of the output array is in point t's block iff each coordinate is in the block's range on its axis. -/
theorem mem_blk (t : Fin cfg1.N) (i : S50000x256.Idx) :
    i ∈ ((cfg1.win 6).blk t).view.set
      ↔ ∀ a : Fin 2, win1_6.index t a * S2000x256.size a ≤ (i a).val
          ∧ (i a).val < win1_6.index t a * S2000x256.size a + S2000x256.size a := by
  show i ∈ ((View.whole main_v57).slice (win1_6.rect t)).set ↔ _
  rw [View.set_slice_whole, Rect.mem_set_unit]
  exact Iff.rfl

/-- Every row lies in the block of the point its quotient by 2000 names. -/
theorem cover (i : S50000x256.Idx) :
    ∃ t : Fin cfg1.N, (cfg1.win 6).flush t = true ∧ i ∈ ((cfg1.win 6).blk t).view.set := by
  have hN : cfg1.N = 25 := N_1
  have hi0 : (i 0).val < 50000 := (i 0).isLt
  have hi1 : (i 1).val < 256 := (i 1).isLt
  have htq : (i 0).val / 2000 < cfg1.N := by rw [hN]; omega
  obtain ⟨-, -, -, -, -, -, -, -, -, -, -, -, e0, e1⟩ := idx_facts ⟨(i 0).val / 2000, htq⟩
  have e0' : win1_6.index ⟨(i 0).val / 2000, htq⟩ (0 : Fin 2) = (i 0).val / 2000 := e0
  refine ⟨⟨(i 0).val / 2000, htq⟩, flush1_6 _, ?_⟩
  rw [mem_blk]
  intro a
  match a with
  | ⟨0, _⟩ =>
    show win1_6.index ⟨(i 0).val / 2000, htq⟩ (0 : Fin 2) * 2000 ≤ (i 0).val
      ∧ (i 0).val < win1_6.index ⟨(i 0).val / 2000, htq⟩ (0 : Fin 2) * 2000 + 2000
    omega
  | ⟨1, _⟩ =>
    show win1_6.index ⟨(i 0).val / 2000, htq⟩ (1 : Fin 2) * 256 ≤ (i 1).val
      ∧ (i 1).val < win1_6.index ⟨(i 0).val / 2000, htq⟩ (1 : Fin 2) * 256 + 256
    omega

/-- The output array after the run is `G1` of the arrays the region finds. -/
theorem arr_eq (c : Dev nD) : (dat1 V c).arrAt 6 cfg1.N = G1 V c :=
  (dat1 V c).arrAt_eq_of_cover 6 (G1 V c) (fun t _ => flushed_eq V c t) cover

/-- Entry (p, g) of the output array after the run: the activation row p of the input array contracted with column g
    of the weights. -/
theorem arr_proj (c : Dev nD) (p : Fin 50000) (g : Fin 256) :
    ((dat1 V c).arrAt 6 cfg1.N : S50000x256.Idx → EReal) (ix2 p g)
      = Cert.Spec.proj2
          (fun k => (V c (Pipeline.arrRef spec1 1) : S1x256.Idx → EReal) (ix2 (0 : Fin 1) k))
          (fun k => (V c (Pipeline.arrRef spec1 2) : S1x256.Idx → EReal) (ix2 (0 : Fin 1) k))
          (fun k => (V c (Pipeline.arrRef spec1 3) : S1x256.Idx → EReal) (ix2 (0 : Fin 1) k))
          (fun k => (V c (Pipeline.arrRef spec1 4) : S1x256.Idx → EReal) (ix2 (0 : Fin 1) k))
          (fun p k => (V c (Pipeline.arrRef spec1 0) : S50000x256.Idx → EReal) (ix2 p k))
          (fun k g => (V c (Pipeline.arrRef spec1 5) : S256x256.Idx → EReal) (ix2 k g)) p g := by
  rw [arr_eq]
  rfl

end Cert.R1

end
-- ==== Proof.Bridge1.lean ====
/-
  The first layer's normalisation, rectifier and second projection: the kernel program's second region against the
  reference's third stage.

  The region reads the aggregated features h, the layer's scale γ and shift β, the statistics μ and v (each laid out
  as a row) and the weights, and leaves at (p, g) the contraction over k of leaky(γ(k)·(h(p,k) − μ(k))·(v(k) + ε)^(−1/2)
  + β(k)) with the weights' column g.  The reference computes the same closed form from its own buffers.  The inputs
  are equal: the features, mean and variance because both programs aggregate equal projected features over equal edge
  rows with the same operations; the parameters and weights because both carry them unchanged.
-/
import proofs.«166412_j21423296872856_1_alg».proof.Proof.Gen.KernelIdeal.Frame
import proofs.«166412_j21423296872856_1_alg».proof.Proof.BridgeInv
import proofs.«166412_j21423296872856_1_alg».proof.Proof.BridgeAgg1
import proofs.«166412_j21423296872856_1_alg».proof.Proof.R1Array
import proofs.«166412_j21423296872856_1_alg».proof.Proof.RefRead
import proofs.«166412_j21423296872856_1_alg».proof.Proof.KKeep
import proofs.«166412_j21423296872856_1_alg».proof.Proof.KEntry

noncomputable section

namespace Cert.Bridge.Stage1

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (R0 : Valuation Cert.ReferenceIdeal.τ Cert.ReferenceIdeal.sig (Elt Ideal))

/-- The region's output array is the reference's second projection. -/
theorem proj (hA : Agree (Cert.KernelIdeal.Gen.W2 m ρ c) R0)
    (hF : (Cert.KernelIdeal.Gen.W2 m ρ c (Proc.devRef .tc Cert.KernelIdeal.main_v8_0) : FVec Ideal ⟨2, ![50000, 256]⟩ .f32) = R0 (Proc.devRef .tc Cert.ReferenceIdeal.main_v11)) :
    (Cert.KernelIdeal.Gen.W6 m ρ c (Proc.devRef .tc Cert.KernelIdeal.main_v57) : FVec Ideal ⟨2, ![50000, 256]⟩ .f32)
      = after Cert.ReferenceIdeal.RefRun.seg2 (after Cert.ReferenceIdeal.RefRun.seg1 R0) (Proc.devRef .tc Cert.ReferenceIdeal.main_v76) := by
  funext i
  obtain ⟨p, g, rfl⟩ : ∃ (p : Fin 50000) (g : Fin 256), i = ix2 p g := ⟨i 0, i 1, eq_ix2 i⟩
  refine (congrFun (Cert.KernelIdeal.Gen.W6_arr m ρ c 6) (ix2 p g)).trans ?_
  refine (Cert.R1.arr_proj (Cert.KernelIdeal.Gen.V5 m ρ) c p g).trans ?_
  refine Eq.trans ?_ (congrFun (Cert.ReferenceIdeal.RefRead.s2_proj (after Cert.ReferenceIdeal.RefRun.seg1 R0)) (ix2 p g)).symm
  refine Eq.trans ?_ (Cert.ReferenceIdeal.ref_proj _ _ _ _ _ _ p g).symm
  refine Cert.R1.proj2_congr _ _ _ _ _ _ _ _ _ _ _ _ p p g (fun k => ?_) (fun k => ?_) (fun k => ?_) (fun k => ?_) (fun k => ?_) (fun k => ?_)
  · -- the scale γ
    exact (Cert.KernelIdeal.KKeep.hostOps1_2_main_v53 _ k).trans
      ((congrFun ((Cert.KernelIdeal.KKeep.hostOps1_1_keep _ Cert.KernelIdeal.main_arg2 (by decide)).trans (Cert.KernelIdeal.KKeep.hostOps1_keep _ Cert.KernelIdeal.main_arg2 (by decide))) _).trans
        ((congrFun hA.g1 _).trans (congrFun (Cert.ReferenceIdeal.RefRead.seg1_keep_arg2 R0) _).symm))
  · -- the shift β
    exact (Cert.KernelIdeal.KKeep.hostOps1_2_main_v54 _ k).trans
      ((congrFun ((Cert.KernelIdeal.KKeep.hostOps1_1_keep _ Cert.KernelIdeal.main_arg3 (by decide)).trans (Cert.KernelIdeal.KKeep.hostOps1_keep _ Cert.KernelIdeal.main_arg3 (by decide))) _).trans
        ((congrFun hA.b1 _).trans (congrFun (Cert.ReferenceIdeal.RefRead.seg1_keep_arg3 R0) _).symm))
  · -- the mean μ
    exact (Cert.KernelIdeal.KKeep.hostOps1_2_main_v55 _ k).trans
      ((congrFun (Cert.KernelIdeal.KKeep.hostOps1_1_keep _ Cert.KernelIdeal.main_v51 (by decide)) _).trans
        (congrFun (Cert.Bridge.Agg1.mean _ R0 hF hA.src hA.dst) _))
  · -- the variance v
    exact (Cert.KernelIdeal.KKeep.hostOps1_2_main_v56 _ k).trans (congrFun (Cert.Bridge.Agg1.var _ R0 hF hA.src hA.dst) _)
  · -- the aggregated features h
    exact congrFun ((Cert.KernelIdeal.KKeep.hostOps1_2_keep _ Cert.KernelIdeal.main_v48 (by decide)).trans
      ((Cert.KernelIdeal.KKeep.hostOps1_1_keep _ Cert.KernelIdeal.main_v48 (by decide)).trans (Cert.Bridge.Agg1.agg _ R0 hF hA.src hA.dst))) _
  · -- the weights
    exact (congrFun ((Cert.KernelIdeal.KKeep.hostOps1_2_keep _ Cert.KernelIdeal.main_v5 (by decide)).trans
      ((Cert.KernelIdeal.KKeep.hostOps1_1_keep _ Cert.KernelIdeal.main_v5 (by decide)).trans (Cert.KernelIdeal.KKeep.hostOps1_keep _ Cert.KernelIdeal.main_v5 (by decide)))) _).trans
        ((hA.w2 k g).trans (congrFun (Cert.ReferenceIdeal.RefRead.seg1_keep_arg4 R0) _).symm)

end Cert.Bridge.Stage1

end
-- ==== Proof.BridgeSteps.lean ====
/-
  The carried data across the second stage, and the row totals at the end.

  The kernel program's second stage is three stretches of host operations followed by a pipelined region; the
  reference's is two lists of host operations.  None of them writes any of the twelve carried buffers (the region
  reads the second layer's weights but writes only its own output array), so if the two programs agree on the carried
  data before the stage they agree after it.  The row totals are written once, in the first stage, and by nothing in
  the later stages of either program: at the end each program still holds what it held after the second stage.
-/
import proofs.«166412_j21423296872856_1_alg».proof.Proof.BridgeInv
import proofs.«166412_j21423296872856_1_alg».proof.Proof.Gen.KernelIdeal.Frame
import proofs.«166412_j21423296872856_1_alg».proof.Proof.KKeep
import proofs.«166412_j21423296872856_1_alg».proof.Proof.RefOpsKeep
import Idealize.ShloMosaic.Lib.Pipeline.Cells

noncomputable section

namespace Cert.Bridge.Steps

open Idealize.ShloMosaic Idealize.ShloMosaic.TcCoe Idealize.SL.Sem Idealize.ShloMosaic.StableHlo
open Idealize.ShloMosaic.Pipeline (Dat)

variable (m : (ℓ : Loc Cert.KernelIdeal.nD Cert.KernelIdeal.τ Cert.KernelIdeal.sig) → Buf (Elt Ideal) ℓ)
  (ρ : Dev Cert.KernelIdeal.nD → PrngReg)

/-- The second pipelined region reads the second layer's weights and leaves them as it found them: an input window's
    array is never written back. -/
theorem region1_keeps_weights (c : Dev Cert.KernelIdeal.nD) :
    Cert.KernelIdeal.Gen.W6 m ρ c (Proc.devRef .tc Cert.KernelIdeal.main_v5)
      = Cert.KernelIdeal.Gen.W5 m ρ c (Proc.devRef .tc Cert.KernelIdeal.main_v5) :=
  (Cert.KernelIdeal.Gen.W6_arr m ρ c 5).trans
    (((Cert.KernelIdeal.Gen.dat1 (Cert.KernelIdeal.Gen.V5 m ρ) c).arrAt_in 5 rfl Cert.KernelIdeal.cfg1.N).trans
      (Cert.KernelIdeal.Gen.A_eq1 (Cert.KernelIdeal.Gen.V5 m ρ) c 5))

/-- The kernel program's second stage writes none of the carried buffers. -/
theorem kernel_layer1_keeps (c : Dev Cert.KernelIdeal.nD) :
    ∀ r ∈ Cert.Bridge.kernelCarried,
      Cert.KernelIdeal.Gen.W6 m ρ c (Proc.devRef .tc r) = Cert.KernelIdeal.Gen.W2 m ρ c (Proc.devRef .tc r) := by
  intro r hr
  simp only [Cert.Bridge.kernelCarried, List.mem_cons, List.not_mem_nil, or_false] at hr
  rcases hr with rfl | rfl | rfl | rfl | rfl | rfl | rfl | rfl | rfl | rfl | rfl | rfl
  all_goals
    first
    | exact (Cert.KernelIdeal.Gen.W6_of_ne m ρ c _ (by decide)).trans
        ((Cert.KernelIdeal.KKeep.hostOps1_2_keep _ _ (by decide)).trans
          ((Cert.KernelIdeal.KKeep.hostOps1_1_keep _ _ (by decide)).trans
            (Cert.KernelIdeal.KKeep.hostOps1_keep _ _ (by decide))))
    | exact (region1_keeps_weights m ρ c).trans
        ((Cert.KernelIdeal.KKeep.hostOps1_2_keep _ _ (by decide)).trans
          ((Cert.KernelIdeal.KKeep.hostOps1_1_keep _ _ (by decide)).trans
            (Cert.KernelIdeal.KKeep.hostOps1_keep _ _ (by decide))))

/-- The reference's second stage writes none of the carried buffers. -/
theorem reference_layer1_keeps (R0 : Valuation Cert.ReferenceIdeal.τ Cert.ReferenceIdeal.sig (Elt Ideal)) :
    ∀ r ∈ Cert.Bridge.referenceCarried,
      after Cert.ReferenceIdeal.RefRun.seg2 (after Cert.ReferenceIdeal.RefRun.seg1 R0) (Proc.devRef .tc r)
        = R0 (Proc.devRef .tc r) := by
  intro r hr
  simp only [Cert.Bridge.referenceCarried, List.mem_cons, List.not_mem_nil, or_false] at hr
  rcases hr with rfl | rfl | rfl | rfl | rfl | rfl | rfl | rfl | rfl | rfl | rfl | rfl
  all_goals
    exact (Cert.ReferenceIdeal.RefRun.seg2_keep _ _ (by decide)).trans (Cert.ReferenceIdeal.RefRun.seg1_keep _ _ (by decide))

/-- Agreement on the carried data before the second stage is agreement after it. -/
theorem layer1 (c : Dev Cert.KernelIdeal.nD) (R0 : Valuation Cert.ReferenceIdeal.τ Cert.ReferenceIdeal.sig (Elt Ideal))
    (h : Cert.Bridge.Agree (Cert.KernelIdeal.Gen.W2 m ρ c) R0) :
    Cert.Bridge.Agree (Cert.KernelIdeal.Gen.W6 m ρ c)
      (after Cert.ReferenceIdeal.RefRun.seg2 (after Cert.ReferenceIdeal.RefRun.seg1 R0)) :=
  h.step (kernel_layer1_keeps m ρ c) (reference_layer1_keeps R0)

/-- The row totals at the end of both programs are the row totals they agreed on after the second stage. -/
theorem total_final (c : Dev Cert.KernelIdeal.nD) (R2 : Valuation Cert.ReferenceIdeal.τ Cert.ReferenceIdeal.sig (Elt Ideal))
    (h : Cert.Bridge.Agree (Cert.KernelIdeal.Gen.W6 m ρ c) R2) :
    (Cert.KernelIdeal.Gen.W10 m ρ c (Proc.devRef .tc Cert.KernelIdeal.main_v8_1) : FVec Ideal ⟨2, ![50000, 1]⟩ .f32)
      = after Cert.ReferenceIdeal.RefRun.seg4 (after Cert.ReferenceIdeal.RefRun.seg3 R2)
          (Proc.devRef .tc Cert.ReferenceIdeal.main_v5) := by
  have hk : Cert.KernelIdeal.Gen.W10 m ρ c (Proc.devRef .tc Cert.KernelIdeal.main_v8_1)
      = Cert.KernelIdeal.Gen.W6 m ρ c (Proc.devRef .tc Cert.KernelIdeal.main_v8_1) :=
    (Cert.KernelIdeal.Gen.W10_of_ne m ρ c _ (by decide)).trans
      ((Cert.KernelIdeal.KKeep.hostOps2_2_keep _ _ (by decide)).trans
        ((Cert.KernelIdeal.KKeep.hostOps2_1_keep _ _ (by decide)).trans
          (Cert.KernelIdeal.KKeep.hostOps2_keep _ _ (by decide))))
  have hr : after Cert.ReferenceIdeal.RefRun.seg4 (after Cert.ReferenceIdeal.RefRun.seg3 R2)
        (Proc.devRef .tc Cert.ReferenceIdeal.main_v5)
      = R2 (Proc.devRef .tc Cert.ReferenceIdeal.main_v5) :=
    (Cert.ReferenceIdeal.RefRun.seg4_keep _ _ (by decide)).trans (Cert.ReferenceIdeal.RefRun.seg3_keep _ _ (by decide))
  exact hk.trans (h.tot.trans hr.symm)

end Cert.Bridge.Steps

end
-- ==== Proof.BridgeAgg2.lean ====
/-
  The second layer's graph aggregation and its per-feature statistics.
  Both programs compute it with the same host operations on the same inputs: reading each side's buffer after the
  stretch gives one and the same composition of operations, so equal inputs give equal results.
-/
import proofs.«166412_j21423296872856_1_alg».proof.Proof.Gen.KernelIdeal.Launch
import proofs.«166412_j21423296872856_1_alg».proof.Proof.RefOpsSeg3
import Idealize.ShloMosaic.Lib.StableHlo.Run

noncomputable section

namespace Cert.Bridge.Agg2

open Idealize.ShloMosaic Idealize.ShloMosaic.TcCoe Idealize.SL.Sem Idealize.ShloMosaic.StableHlo
open Cert.KernelIdeal.Gen Cert.ReferenceIdeal.Gen

variable {F : FTy → Type} [FloatOps F]
variable (W : Valuation Cert.KernelIdeal.τ Cert.KernelIdeal.sig (Elt F)) (W' : Valuation Cert.ReferenceIdeal.τ Cert.ReferenceIdeal.sig (Elt F))

set_option maxHeartbeats 8000000 in
/-- The aggregated features: one composition of gathers, scatters and products of the projected features and the edge table's rows. -/
theorem agg (hp : (W (Proc.devRef .tc Cert.KernelIdeal.main_v57) : FVec F ⟨2, ![50000, 256]⟩ .f32) = W' (Proc.devRef .tc Cert.ReferenceIdeal.main_v76))
    (hs : (W (Proc.devRef .tc Cert.KernelIdeal.main_v1) : IVec ⟨1, ![800000]⟩ 32) = W' (Proc.devRef .tc Cert.ReferenceIdeal.main_v1)) (hd : (W (Proc.devRef .tc Cert.KernelIdeal.main_v3) : IVec ⟨1, ![800000]⟩ 32) = W' (Proc.devRef .tc Cert.ReferenceIdeal.main_v3)) :
    (after Cert.KernelIdeal.Gen.hostOps2 W (Proc.devRef .tc Cert.KernelIdeal.main_v97) : FVec F ⟨2, ![50000, 256]⟩ .f32) = after Cert.ReferenceIdeal.RefRun.seg3 W' (Proc.devRef .tc Cert.ReferenceIdeal.main_v116) := by
  after_results_simp
  rw [hp, hs, hd]
  rfl

set_option maxHeartbeats 8000000 in
/-- The per-feature mean of the aggregated features. -/
theorem mean (hp : (W (Proc.devRef .tc Cert.KernelIdeal.main_v57) : FVec F ⟨2, ![50000, 256]⟩ .f32) = W' (Proc.devRef .tc Cert.ReferenceIdeal.main_v76))
    (hs : (W (Proc.devRef .tc Cert.KernelIdeal.main_v1) : IVec ⟨1, ![800000]⟩ 32) = W' (Proc.devRef .tc Cert.ReferenceIdeal.main_v1)) (hd : (W (Proc.devRef .tc Cert.KernelIdeal.main_v3) : IVec ⟨1, ![800000]⟩ 32) = W' (Proc.devRef .tc Cert.ReferenceIdeal.main_v3)) :
    (after Cert.KernelIdeal.Gen.hostOps2 W (Proc.devRef .tc Cert.KernelIdeal.main_v100) : FVec F ⟨1, ![256]⟩ .f32) = after Cert.ReferenceIdeal.RefRun.seg3 W' (Proc.devRef .tc Cert.ReferenceIdeal.main_v119) := by
  after_results_simp
  rw [hp, hs, hd]
  rfl

set_option maxHeartbeats 16000000 in
/-- The per-feature variance of the aggregated features. -/
theorem var (hp : (W (Proc.devRef .tc Cert.KernelIdeal.main_v57) : FVec F ⟨2, ![50000, 256]⟩ .f32) = W' (Proc.devRef .tc Cert.ReferenceIdeal.main_v76))
    (hs : (W (Proc.devRef .tc Cert.KernelIdeal.main_v1) : IVec ⟨1, ![800000]⟩ 32) = W' (Proc.devRef .tc Cert.ReferenceIdeal.main_v1)) (hd : (W (Proc.devRef .tc Cert.KernelIdeal.main_v3) : IVec ⟨1, ![800000]⟩ 32) = W' (Proc.devRef .tc Cert.ReferenceIdeal.main_v3)) :
    (after Cert.KernelIdeal.Gen.hostOps2_1 (after Cert.KernelIdeal.Gen.hostOps2 W) (Proc.devRef .tc Cert.KernelIdeal.main_v101) : FVec F ⟨1, ![256]⟩ .f32) = after Cert.ReferenceIdeal.RefRun.seg3 W' (Proc.devRef .tc Cert.ReferenceIdeal.main_v120) := by
  after_results_simp
  rw [hp, hs, hd]
  rfl

end Cert.Bridge.Agg2

end
-- ==== Proof.R2Payload.lean ====
/-
  Region 2 of the kernel program, one block of 2000 rows at a time, entry by entry.

  The body normalises the block h with the per-feature statistics, bn = γ · (h − μ) · (v + ε)^(−1/2) + β, applies
  the leaky rectifier, and feeds the activation to two heads: the location head is the activation row contracted
  with a weight column plus a bias; the scale head is softplus of such a contraction plus a bias, plus a floor.
  Here each of the three payload values is read at an entry (r, k) or (r, g) and identified with the closed form
  of the specification. The four statistics and the two biases are one-row arrays whose row is spread over the
  2000 rows of the block; a change of number format is the identity on the extended reals, and so is a cast to
  the same shape. The body writes 0 − |d| where the closed form has −|d|.
-/
import proofs.«166412_j21423296872856_1_alg».proof.Proof.Gen.KernelIdeal.Skeleton
import proofs.«166412_j21423296872856_1_alg».proof.Proof.Spec
import proofs.«166412_j21423296872856_1_alg».proof.Proof.LibPlainDot
import Idealize.ShloMosaic.Lib.ValueLayout

noncomputable section

namespace Cert.R2

open Idealize.ShloMosaic Idealize.ShloMosaic.ValueIdx Cert.KernelIdeal

/-- A one-row array of 256 features spread over 2000 rows reads, at (r, k), the row at k. -/
theorem row256 (x : FVec Ideal S1x256 .f32) (hb : S1x256.Broadcasts S2000x256) (r : Fin 2000) (k : Fin 256) :
    broadcastTo S2000x256 x hb (ix2 r k) = x (ix2 (0 : Fin 1) k) :=
  broadcastTo_1b_ab_apply x hb r k

/-- A one-row array of 32 outputs spread over 2000 rows reads, at (r, g), the row at g. -/
theorem row32 (x : FVec Ideal S1x32 .f32) (hb : S1x32.Broadcasts S2000x32) (r : Fin 2000) (g : Fin 32) :
    broadcastTo S2000x32 x hb (ix2 r g) = x (ix2 (0 : Fin 1) g) :=
  broadcastTo_1b_ab_apply x hb r g

/-- The activation payload at (r, k) is the specification's activation of the block. -/
theorem pay_act (h0 : Vec Ideal S2000x256 .f32) (γ β μ v : Vec Ideal S1x256 .f32) (r : Fin 2000) (k : Fin 256) :
    Gen.k2_pay2 h0 γ β μ v (ix2 r k)
      = Cert.Spec.act (fun k => γ (ix2 (0 : Fin 1) k)) (fun k => β (ix2 (0 : Fin 1) k))
          (fun k => μ (ix2 (0 : Fin 1) k)) (fun k => v (ix2 (0 : Fin 1) k)) (fun r k => h0 (ix2 r k)) r k := by
  unfold Gen.k2_pay2
  simp only [shapeCast_self]
  simp only [truncf_apply, select_apply, cmpf_apply, addf_apply, mulf_apply, subf_apply, broadcast_apply, row256]
  rfl

/-- The exponential of an array at an index. -/
theorem exp_at {s : Shape} {φ : FTy} (a : FVec Ideal s φ) (i : s.Idx) : exp a i = Ideal.exp (a i) := rfl

/-- log(1 + ·) of an array at an index. -/
theorem log1p_at {s : Shape} {φ : FTy} (a : FVec Ideal s φ) (i : s.Idx) : log1p a i = Ideal.log1p (a i) := rfl

/-- The absolute value of an array at an index: on the extended reals |a| is max a (−a). -/
theorem absf_at {s : Shape} {φ : FTy} (a : FVec Ideal s φ) (i : s.Idx) : absf a i = max (a i) (-(a i)) := rfl

/-- Either head's product into the zero accumulator at (r, g): row r of the left factor against column g of the right. -/
theorem head_matmul (a : FVec Ideal S2000x256 .bf16) (w : FVec Ideal S256x32 .bf16) (r : Fin 2000) (g : Fin 32) :
    matmul (F := Ideal) dot_S2000x256_S256x32_S2000x32_1_0_0_1_n_n none a w (constant S2000x32 .f32 0x00000000#32) (ix2 r g)
      = ∑ k : Fin 256, a (ix2 r k) * w (ix2 k g) :=
  Cert.PlainDot.matmul_zero_apply dot_S2000x256_S256x32_S2000x32_1_0_0_1_n_n rfl a w r g

/-- The word of +0.0 is the extended real zero, so subtracting from it negates. -/
theorem zeroW_sub (x : EReal) : Cert.Spec.zeroW - x = -x := by
  rw [show Cert.Spec.zeroW = (0 : EReal) from Ideal.ofBits_zero_f32, zero_sub]

/-- The location payload at (r, g): the activation row contracted with column g of the weights, plus the bias. -/
theorem pay_loc (h0 : Vec Ideal S2000x256 .f32) (γ β μ v : Vec Ideal S1x256 .f32) (wl : Vec Ideal S256x32 .bf16)
    (bl : Vec Ideal S1x32 .f32) (r : Fin 2000) (g : Fin 32) :
    Gen.k2_pay3 h0 γ β μ v wl bl (ix2 r g)
      = Cert.Spec.locHead (fun k => γ (ix2 (0 : Fin 1) k)) (fun k => β (ix2 (0 : Fin 1) k))
          (fun k => μ (ix2 (0 : Fin 1) k)) (fun k => v (ix2 (0 : Fin 1) k)) (fun r k => h0 (ix2 r k))
          (fun k g => wl (ix2 k g)) (fun g => bl (ix2 (0 : Fin 1) g)) r g := by
  unfold Gen.k2_pay3
  simp only [shapeCast_self]
  rw [addf_apply, row32, head_matmul]
  simp only [pay_act]
  rfl

/-- The kernel's spelling of softplus, with 0 − |d| for −|d|, is the specification's. -/
theorem softplus_zero_sub (z : EReal) :
    Scalar.select (Ideal.cmp .one (z - Cert.Spec.zeroW) (z - Cert.Spec.zeroW)) (z + Cert.Spec.zeroW)
        (max z Cert.Spec.zeroW
          + Ideal.log1p (Ideal.exp (Cert.Spec.zeroW - max (z - Cert.Spec.zeroW) (-(z - Cert.Spec.zeroW)))))
      = Cert.Spec.softplus z := by
  unfold Cert.Spec.softplus
  rw [zeroW_sub]

/-- The scale payload over any activation block a, at (r, g). -/
theorem pay_std_of (a : FVec Ideal S2000x256 .bf16) (ws : Vec Ideal S256x32 .bf16) (bs : Vec Ideal S1x32 .f32)
    (r : Fin 2000) (g : Fin 32) :
    Gen.k2_pay1 a ws bs (ix2 r g)
      = Cert.Spec.softplus ((∑ k : Fin 256, a (ix2 r k) * ws (ix2 k g)) + bs (ix2 (0 : Fin 1) g)) + Cert.Spec.stdEpsW := by
  unfold Gen.k2_pay1
  simp only [shapeCast_self]
  simp only [addf_apply, select_apply, cmpf_apply, maximumf_apply, subf_apply, broadcast_apply, row32, exp_at,
    log1p_at, absf_at]
  rw [head_matmul a ws r g]
  exact congrArg (· + Cert.Spec.stdEpsW) (softplus_zero_sub _)

/-- The scale payload of the block's activation at (r, g) is the specification's scale head. -/
theorem pay_std (h0 : Vec Ideal S2000x256 .f32) (γ β μ v : Vec Ideal S1x256 .f32) (ws : Vec Ideal S256x32 .bf16)
    (bs : Vec Ideal S1x32 .f32) (r : Fin 2000) (g : Fin 32) :
    Gen.k2_pay1 (Gen.k2_pay2 h0 γ β μ v) ws bs (ix2 r g)
      = Cert.Spec.stdHead (fun k => γ (ix2 (0 : Fin 1) k)) (fun k => β (ix2 (0 : Fin 1) k))
          (fun k => μ (ix2 (0 : Fin 1) k)) (fun k => v (ix2 (0 : Fin 1) k)) (fun r k => h0 (ix2 r k))
          (fun k g => ws (ix2 k g)) (fun g => bs (ix2 (0 : Fin 1) g)) r g := by
  rw [pay_std_of]
  simp only [pay_act]
  rfl

end Cert.R2

end
-- ==== Proof.R2Array.lean ====
/-
  Region 2 of the kernel program, from blocks to whole arrays.

  The region walks 25 grid points; point t reads rows 2000·t … 2000·t + 1999 of the hidden array h, the whole of
  the four one-row statistics, the two weight matrices and the two one-row biases, and writes rows
  2000·t … 2000·t + 1999 of each of the two output arrays. By the entry-by-entry reading of the body's payloads,
  what point t writes back is the block at t of ONE function of the whole arrays — the specification's location
  head, resp. scale head, at (row, output) — because row r of block t is row 2000·t + r of the array and the other
  windows' blocks are their whole arrays. The 25 row blocks cover the 50000 rows (row p lies in block p / 2000), so
  each output array ends holding that function.
-/
import proofs.«166412_j21423296872856_1_alg».proof.Proof.Gen.KernelIdeal.Frame
import proofs.«166412_j21423296872856_1_alg».proof.Proof.R2Payload
import Idealize.ShloMosaic.Lib.Pipeline.Value

set_option maxRecDepth 16384

noncomputable section

namespace Cert.R2

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## The printed index maps over the grid -/

/-- The hidden array's window moves one block of rows per point. -/
theorem idx_h : ∀ t : Fin cfg2.N, win2_0.index t (0 : Fin 2) = t.val ∧ win2_0.index t (1 : Fin 2) = 0 :=
  (by decide +kernel : ∀ t : Fin grid2.N, _)
/-- The windows of the statistics, weights and biases stay on their whole arrays. -/
theorem idx_1 : ∀ t : Fin cfg2.N, win2_1.index t (0 : Fin 2) = 0 ∧ win2_1.index t (1 : Fin 2) = 0 :=
  (by decide +kernel : ∀ t : Fin grid2.N, _)
theorem idx_2 : ∀ t : Fin cfg2.N, win2_2.index t (0 : Fin 2) = 0 ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
/-- Each output's window moves one block of rows per point. -/
theorem idx_loc : ∀ t : Fin cfg2.N, win2_9.index t (0 : Fin 2) = t.val ∧ win2_9.index t (1 : Fin 2) = 0 :=
  (by decide +kernel : ∀ t : Fin grid2.N, _)
theorem idx_std : ∀ t : Fin cfg2.N, win2_10.index t (0 : Fin 2) = t.val ∧ win2_10.index t (1 : Fin 2) = 0 :=
  (by decide +kernel : ∀ t : Fin grid2.N, _)

/-! ## Each input block read off its array -/

/-- Row r of the hidden array's block at point t is row 2000·t + r of the array. -/
theorem blk_h (c : Dev nD) (t : Fin cfg2.N) (r : Fin 2000) (p : Fin 50000) (hp : p.val = t.val * 2000 + r.val)
    (k : Fin 256) : iblk2 V c 0 t (ix2 r k) = V c (Pipeline.arrRef spec2 0) (ix2 p k) := by
  obtain ⟨e0, e1⟩ := idx_h t
  show V c (Pipeline.arrRef spec2 0) (((cfg2.win 0).blk t).view.emb (ix2 r k)) = V c (Pipeline.arrRef spec2 0) (ix2 p k)
  refine congrArg _ (funext fun a => Fin.ext ?_)
  match a with
  | ⟨0, _⟩ => show win2_0.index t (0 : Fin 2) * 2000 + 1 * r.val = p.val; omega
  | ⟨1, _⟩ => show win2_0.index t (1 : Fin 2) * 256 + 1 * k.val = k.val; omega

/-- The block of the scale γ at any point is the whole array. -/
theorem blk_1 (c : Dev nD) (t : Fin cfg2.N) (a0 : Fin 1) (a1 : Fin 256) :
    iblk2 V c 1 t (ix2 a0 a1) = V c (Pipeline.arrRef spec2 1) (ix2 a0 a1) := by
  obtain ⟨e0, e1⟩ := idx_1 t
  show V c (Pipeline.arrRef spec2 1) (((cfg2.win 1).blk t).view.emb (ix2 a0 a1)) = V c (Pipeline.arrRef spec2 1) (ix2 a0 a1)
  refine congrArg _ (funext fun a => Fin.ext ?_)
  match a with
  | ⟨0, _⟩ => show win2_1.index t (0 : Fin 2) * 1 + 1 * a0.val = a0.val; omega
  | ⟨1, _⟩ => show win2_1.index t (1 : Fin 2) * 256 + 1 * a1.val = a1.val; omega

/-- The block of the shift β at any point is the whole array. -/
theorem blk_2 (c : Dev nD) (t : Fin cfg2.N) (a0 : Fin 1) (a1 : Fin 256) :
    iblk2 V c 2 t (ix2 a0 a1) = V c (Pipeline.arrRef spec2 2) (ix2 a0 a1) := by
  obtain ⟨e0, e1⟩ := idx_2 t
  show V c (Pipeline.arrRef spec2 2) (((cfg2.win 2).blk t).view.emb (ix2 a0 a1)) = V c (Pipeline.arrRef spec2 2) (ix2 a0 a1)
  refine congrArg _ (funext fun a => Fin.ext ?_)
  match a with
  | ⟨0, _⟩ => show win2_2.index t (0 : Fin 2) * 1 + 1 * a0.val = a0.val; omega
  | ⟨1, _⟩ => show win2_2.index t (1 : Fin 2) * 256 + 1 * a1.val = a1.val; omega

/-- The block of the mean μ at any point is the whole array. -/
theorem blk_3 (c : Dev nD) (t : Fin cfg2.N) (a0 : Fin 1) (a1 : Fin 256) :
    iblk2 V c 3 t (ix2 a0 a1) = V c (Pipeline.arrRef spec2 3) (ix2 a0 a1) := by
  obtain ⟨e0, e1⟩ := idx_3 t
  show V c (Pipeline.arrRef spec2 3) (((cfg2.win 3).blk t).view.emb (ix2 a0 a1)) = V c (Pipeline.arrRef spec2 3) (ix2 a0 a1)
  refine congrArg _ (funext fun a => Fin.ext ?_)
  match a with
  | ⟨0, _⟩ => show win2_3.index t (0 : Fin 2) * 1 + 1 * a0.val = a0.val; omega
  | ⟨1, _⟩ => show win2_3.index t (1 : Fin 2) * 256 + 1 * a1.val = a1.val; omega

/-- The block of the variance v at any point is the whole array. -/
theorem blk_4 (c : Dev nD) (t : Fin cfg2.N) (a0 : Fin 1) (a1 : Fin 256) :
    iblk2 V c 4 t (ix2 a0 a1) = V c (Pipeline.arrRef spec2 4) (ix2 a0 a1) := by
  obtain ⟨e0, e1⟩ := idx_4 t
  show V c (Pipeline.arrRef spec2 4) (((cfg2.win 4).blk t).view.emb (ix2 a0 a1)) = V c (Pipeline.arrRef spec2 4) (ix2 a0 a1)
  refine congrArg _ (funext fun a => Fin.ext ?_)
  match a with
  | ⟨0, _⟩ => show win2_4.index t (0 : Fin 2) * 1 + 1 * a0.val = a0.val; omega
  | ⟨1, _⟩ => show win2_4.index t (1 : Fin 2) * 256 + 1 * a1.val = a1.val; omega

/-- The block of the location weights at any point is the whole array. -/
theorem blk_5 (c : Dev nD) (t : Fin cfg2.N) (a0 : Fin 256) (a1 : Fin 32) :
    iblk2 V c 5 t (ix2 a0 a1) = V c (Pipeline.arrRef spec2 5) (ix2 a0 a1) := by
  obtain ⟨e0, e1⟩ := idx_5 t
  show V c (Pipeline.arrRef spec2 5) (((cfg2.win 5).blk t).view.emb (ix2 a0 a1)) = V c (Pipeline.arrRef spec2 5) (ix2 a0 a1)
  refine congrArg _ (funext fun a => Fin.ext ?_)
  match a with
  | ⟨0, _⟩ => show win2_5.index t (0 : Fin 2) * 256 + 1 * a0.val = a0.val; omega
  | ⟨1, _⟩ => show win2_5.index t (1 : Fin 2) * 32 + 1 * a1.val = a1.val; omega

/-- The block of the location bias at any point is the whole array. -/
theorem blk_6 (c : Dev nD) (t : Fin cfg2.N) (a0 : Fin 1) (a1 : Fin 32) :
    iblk2 V c 6 t (ix2 a0 a1) = V c (Pipeline.arrRef spec2 6) (ix2 a0 a1) := by
  obtain ⟨e0, e1⟩ := idx_6 t
  show V c (Pipeline.arrRef spec2 6) (((cfg2.win 6).blk t).view.emb (ix2 a0 a1)) = V c (Pipeline.arrRef spec2 6) (ix2 a0 a1)
  refine congrArg _ (funext fun a => Fin.ext ?_)
  match a with
  | ⟨0, _⟩ => show win2_6.index t (0 : Fin 2) * 1 + 1 * a0.val = a0.val; omega
  | ⟨1, _⟩ => show win2_6.index t (1 : Fin 2) * 32 + 1 * a1.val = a1.val; omega

/-- The block of the scale weights at any point is the whole array. -/
theorem blk_7 (c : Dev nD) (t : Fin cfg2.N) (a0 : Fin 256) (a1 : Fin 32) :
    iblk2 V c 7 t (ix2 a0 a1) = V c (Pipeline.arrRef spec2 7) (ix2 a0 a1) := by
  obtain ⟨e0, e1⟩ := idx_7 t
  show V c (Pipeline.arrRef spec2 7) (((cfg2.win 7).blk t).view.emb (ix2 a0 a1)) = V c (Pipeline.arrRef spec2 7) (ix2 a0 a1)
  refine congrArg _ (funext fun a => Fin.ext ?_)
  match a with
  | ⟨0, _⟩ => show win2_7.index t (0 : Fin 2) * 256 + 1 * a0.val = a0.val; omega
  | ⟨1, _⟩ => show win2_7.index t (1 : Fin 2) * 32 + 1 * a1.val = a1.val; omega

/-- The block of the scale bias at any point is the whole array. -/
theorem blk_8 (c : Dev nD) (t : Fin cfg2.N) (a0 : Fin 1) (a1 : Fin 32) :
    iblk2 V c 8 t (ix2 a0 a1) = V c (Pipeline.arrRef spec2 8) (ix2 a0 a1) := by
  obtain ⟨e0, e1⟩ := idx_8 t
  show V c (Pipeline.arrRef spec2 8) (((cfg2.win 8).blk t).view.emb (ix2 a0 a1)) = V c (Pipeline.arrRef spec2 8) (ix2 a0 a1)
  refine congrArg _ (funext fun a => Fin.ext ?_)
  match a with
  | ⟨0, _⟩ => show win2_8.index t (0 : Fin 2) * 1 + 1 * a0.val = a0.val; omega
  | ⟨1, _⟩ => show win2_8.index t (1 : Fin 2) * 32 + 1 * a1.val = a1.val; omega

/-! ## The location output -/

/-- The location head as one function of the whole arrays the region finds. -/
def G_loc (c : Dev nD) : S50000x32.Idx → Elt Ideal .f32 := fun i =>
  Cert.Spec.locHead (fun k : Fin 256 => V c (Pipeline.arrRef spec2 1) (ix2 (0 : Fin 1) k))
    (fun k : Fin 256 => V c (Pipeline.arrRef spec2 2) (ix2 (0 : Fin 1) k))
    (fun k : Fin 256 => V c (Pipeline.arrRef spec2 3) (ix2 (0 : Fin 1) k))
    (fun k : Fin 256 => V c (Pipeline.arrRef spec2 4) (ix2 (0 : Fin 1) k))
    (fun (p : Fin 50000) (k : Fin 256) => V c (Pipeline.arrRef spec2 0) (ix2 p k))
    (fun (k : Fin 256) (g : Fin 32) => V c (Pipeline.arrRef spec2 5) (ix2 k g))
    (fun g : Fin 32 => V c (Pipeline.arrRef spec2 6) (ix2 (0 : Fin 1) g)) (i 0 : Fin 50000) (i 1 : Fin 32)

/-- Entry (r, g) of the output's block at point t sits at (2000·t + r, g) of the array. -/
theorem emb_loc (t : Fin cfg2.N) (r : Fin 2000) (g : Fin 32) (p : Fin 50000) (hp : p.val = t.val * 2000 + r.val) :
    ((cfg2.win 9).blk t).view.emb (ix2 r g) = ix2 p g := by
  obtain ⟨e0, e1⟩ := idx_loc t
  refine funext fun a => Fin.ext ?_
  match a with
  | ⟨0, _⟩ => show win2_9.index t (0 : Fin 2) * 2000 + 1 * r.val = p.val; omega
  | ⟨1, _⟩ => show win2_9.index t (1 : Fin 2) * 32 + 1 * g.val = g.val; omega

/-- What point t writes back is the block at t of the location head of the whole arrays. -/
theorem flushed_loc (c : Dev nD) (t : Fin cfg2.N) :
    (dat2 V c).flushed 9 t = ((cfg2.win 9).blk t).view.read (Elt Ideal) (G_loc V c) := by
  show (cfg2.win 9).cut (grid2.coords t) ((dat2 V c).after 9 t) = _
  rw [after2_9]
  unfold out2_9
  rw [View.canon_unit_zero zero_offsets]
  simp only [View.ld_unit_zero (S := S2000x256) zero_offsets, View.ld_unit_zero (S := S1x256) zero_offsets,
    View.ld_unit_zero (S := S256x32) zero_offsets, View.ld_unit_zero (S := S1x32) zero_offsets]
  refine funext fun (j : S2000x32.Idx) => ?_
  obtain ⟨r, g, rfl⟩ : ∃ (r : Fin 2000) (g : Fin 32), j = ix2 r g := ⟨j 0, j 1, eq_ix2 j⟩
  have hN : grid2.N = 25 := N_2
  have ht : t.val < grid2.N := t.isLt
  obtain ⟨p, hp⟩ : ∃ p : Fin 50000, p.val = t.val * 2000 + r.val :=
    ⟨⟨t.val * 2000 + r.val, by have := r.isLt; omega⟩, rfl⟩
  refine (pay_loc (iblk2 V c 0 t) (iblk2 V c 1 t) (iblk2 V c 2 t) (iblk2 V c 3 t) (iblk2 V c 4 t)
    (iblk2 V c 5 t) (iblk2 V c 6 t) r g).trans ?_
  show _ = G_loc V c (((cfg2.win 9).blk t).view.emb (ix2 r g))
  rw [emb_loc t r g p hp]
  show _ = Cert.Spec.locHead _ _ _ _ _ _ _ p g
  simp only [Cert.Spec.locHead, Cert.Spec.stdHead, Cert.Spec.proj2, Cert.Spec.act, Cert.Spec.bn, blk_h V c t r p hp, blk_1 V c t, blk_2 V c t,
    blk_3 V c t, blk_4 V c t, blk_5 V c t, blk_6 V c t]

/-- An index of the output array is in point t's block iff each coordinate is in the block's range on its axis. -/
theorem mem_blk_loc (t : Fin cfg2.N) (i : S50000x32.Idx) :
    i ∈ ((cfg2.win 9).blk t).view.set ↔ ∀ a : Fin 2, win2_9.index t a * S2000x32.size a ≤ (i a).val ∧ (i a).val < win2_9.index t a * S2000x32.size a + S2000x32.size a := by
  show i ∈ ((View.whole main_v108_0).slice (win2_9.rect t)).set ↔ _
  rw [View.set_slice_whole, Rect.mem_set_unit]
  exact Iff.rfl

/-- Row p of the output array lies in the block of point p / 2000. -/
theorem cover_loc (i : S50000x32.Idx) :
    ∃ t : Fin cfg2.N, (cfg2.win 9).flush t = true ∧ i ∈ ((cfg2.win 9).blk t).view.set := by
  have hN : grid2.N = 25 := N_2
  have hi0 : (i 0).val < 50000 := (i 0).isLt
  have hi1 : (i 1).val < 32 := (i 1).isLt
  obtain ⟨t, ht⟩ : ∃ t : Fin cfg2.N, t.val = (i 0).val / 2000 :=
    ⟨⟨(i 0).val / 2000, by show (i 0).val / 2000 < grid2.N; omega⟩, rfl⟩
  obtain ⟨e0, e1⟩ := idx_loc t
  refine ⟨t, flush2_9 t, ?_⟩
  rw [mem_blk_loc]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 32 ≤ (i 1).val ∧ (i 1).val < win2_9.index t (1 : Fin 2) * 32 + 32; omega

/-- The output array after the region holds the location head of the whole arrays. -/
theorem final_loc (c : Dev nD) : (dat2 V c).arrAt 9 cfg2.N = G_loc V c :=
  (dat2 V c).arrAt_eq_of_cover 9 (G_loc V c) (fun t _ => flushed_loc V c t) cover_loc

/-- The location output array at (p, g). -/
theorem arr_loc (c : Dev nD) (p : Fin 50000) (g : Fin 32) :
    (dat2 V c).arrAt 9 cfg2.N (ix2 p g)
      = Cert.Spec.locHead (fun k : Fin 256 => V c (Pipeline.arrRef spec2 1) (ix2 (0 : Fin 1) k))
          (fun k : Fin 256 => V c (Pipeline.arrRef spec2 2) (ix2 (0 : Fin 1) k))
          (fun k : Fin 256 => V c (Pipeline.arrRef spec2 3) (ix2 (0 : Fin 1) k))
          (fun k : Fin 256 => V c (Pipeline.arrRef spec2 4) (ix2 (0 : Fin 1) k))
          (fun (p : Fin 50000) (k : Fin 256) => V c (Pipeline.arrRef spec2 0) (ix2 p k))
          (fun (k : Fin 256) (g : Fin 32) => V c (Pipeline.arrRef spec2 5) (ix2 k g))
          (fun g : Fin 32 => V c (Pipeline.arrRef spec2 6) (ix2 (0 : Fin 1) g)) p g :=
  congrFun (final_loc V c) (ix2 p g)

/-! ## The scale output -/

/-- The scale head as one function of the whole arrays the region finds. -/
def G_std (c : Dev nD) : S50000x32.Idx → Elt Ideal .f32 := fun i =>
  Cert.Spec.stdHead (fun k : Fin 256 => V c (Pipeline.arrRef spec2 1) (ix2 (0 : Fin 1) k))
    (fun k : Fin 256 => V c (Pipeline.arrRef spec2 2) (ix2 (0 : Fin 1) k))
    (fun k : Fin 256 => V c (Pipeline.arrRef spec2 3) (ix2 (0 : Fin 1) k))
    (fun k : Fin 256 => V c (Pipeline.arrRef spec2 4) (ix2 (0 : Fin 1) k))
    (fun (p : Fin 50000) (k : Fin 256) => V c (Pipeline.arrRef spec2 0) (ix2 p k))
    (fun (k : Fin 256) (g : Fin 32) => V c (Pipeline.arrRef spec2 7) (ix2 k g))
    (fun g : Fin 32 => V c (Pipeline.arrRef spec2 8) (ix2 (0 : Fin 1) g)) (i 0 : Fin 50000) (i 1 : Fin 32)

/-- Entry (r, g) of the output's block at point t sits at (2000·t + r, g) of the array. -/
theorem emb_std (t : Fin cfg2.N) (r : Fin 2000) (g : Fin 32) (p : Fin 50000) (hp : p.val = t.val * 2000 + r.val) :
    ((cfg2.win 10).blk t).view.emb (ix2 r g) = ix2 p g := by
  obtain ⟨e0, e1⟩ := idx_std t
  refine funext fun a => Fin.ext ?_
  match a with
  | ⟨0, _⟩ => show win2_10.index t (0 : Fin 2) * 2000 + 1 * r.val = p.val; omega
  | ⟨1, _⟩ => show win2_10.index t (1 : Fin 2) * 32 + 1 * g.val = g.val; omega

/-- What point t writes back is the block at t of the scale head of the whole arrays. -/
theorem flushed_std (c : Dev nD) (t : Fin cfg2.N) :
    (dat2 V c).flushed 10 t = ((cfg2.win 10).blk t).view.read (Elt Ideal) (G_std V c) := by
  show (cfg2.win 10).cut (grid2.coords t) ((dat2 V c).after 10 t) = _
  rw [after2_10]
  unfold out2_10
  rw [View.canon_unit_zero zero_offsets]
  simp only [View.ld_unit_zero (S := S2000x256) zero_offsets, View.ld_unit_zero (S := S1x256) zero_offsets,
    View.ld_unit_zero (S := S256x32) zero_offsets, View.ld_unit_zero (S := S1x32) zero_offsets]
  refine funext fun (j : S2000x32.Idx) => ?_
  obtain ⟨r, g, rfl⟩ : ∃ (r : Fin 2000) (g : Fin 32), j = ix2 r g := ⟨j 0, j 1, eq_ix2 j⟩
  have hN : grid2.N = 25 := N_2
  have ht : t.val < grid2.N := t.isLt
  obtain ⟨p, hp⟩ : ∃ p : Fin 50000, p.val = t.val * 2000 + r.val :=
    ⟨⟨t.val * 2000 + r.val, by have := r.isLt; omega⟩, rfl⟩
  refine (pay_std (iblk2 V c 0 t) (iblk2 V c 1 t) (iblk2 V c 2 t) (iblk2 V c 3 t) (iblk2 V c 4 t)
    (iblk2 V c 7 t) (iblk2 V c 8 t) r g).trans ?_
  show _ = G_std V c (((cfg2.win 10).blk t).view.emb (ix2 r g))
  rw [emb_std t r g p hp]
  show _ = Cert.Spec.stdHead _ _ _ _ _ _ _ p g
  simp only [Cert.Spec.locHead, Cert.Spec.stdHead, Cert.Spec.proj2, Cert.Spec.act, Cert.Spec.bn, blk_h V c t r p hp, blk_1 V c t, blk_2 V c t,
    blk_3 V c t, blk_4 V c t, blk_7 V c t, blk_8 V c t]

/-- An index of the output array is in point t's block iff each coordinate is in the block's range on its axis. -/
theorem mem_blk_std (t : Fin cfg2.N) (i : S50000x32.Idx) :
    i ∈ ((cfg2.win 10).blk t).view.set ↔ ∀ a : Fin 2, win2_10.index t a * S2000x32.size a ≤ (i a).val ∧ (i a).val < win2_10.index t a * S2000x32.size a + S2000x32.size a := by
  show i ∈ ((View.whole main_v108_1).slice (win2_10.rect t)).set ↔ _
  rw [View.set_slice_whole, Rect.mem_set_unit]
  exact Iff.rfl

/-- Row p of the output array lies in the block of point p / 2000. -/
theorem cover_std (i : S50000x32.Idx) :
    ∃ t : Fin cfg2.N, (cfg2.win 10).flush t = true ∧ i ∈ ((cfg2.win 10).blk t).view.set := by
  have hN : grid2.N = 25 := N_2
  have hi0 : (i 0).val < 50000 := (i 0).isLt
  have hi1 : (i 1).val < 32 := (i 1).isLt
  obtain ⟨t, ht⟩ : ∃ t : Fin cfg2.N, t.val = (i 0).val / 2000 :=
    ⟨⟨(i 0).val / 2000, by show (i 0).val / 2000 < grid2.N; omega⟩, rfl⟩
  obtain ⟨e0, e1⟩ := idx_std t
  refine ⟨t, flush2_10 t, ?_⟩
  rw [mem_blk_std]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 32 ≤ (i 1).val ∧ (i 1).val < win2_10.index t (1 : Fin 2) * 32 + 32; omega

/-- The output array after the region holds the scale head of the whole arrays. -/
theorem final_std (c : Dev nD) : (dat2 V c).arrAt 10 cfg2.N = G_std V c :=
  (dat2 V c).arrAt_eq_of_cover 10 (G_std V c) (fun t _ => flushed_std V c t) cover_std

/-- The scale output array at (p, g). -/
theorem arr_std (c : Dev nD) (p : Fin 50000) (g : Fin 32) :
    (dat2 V c).arrAt 10 cfg2.N (ix2 p g)
      = Cert.Spec.stdHead (fun k : Fin 256 => V c (Pipeline.arrRef spec2 1) (ix2 (0 : Fin 1) k))
          (fun k : Fin 256 => V c (Pipeline.arrRef spec2 2) (ix2 (0 : Fin 1) k))
          (fun k : Fin 256 => V c (Pipeline.arrRef spec2 3) (ix2 (0 : Fin 1) k))
          (fun k : Fin 256 => V c (Pipeline.arrRef spec2 4) (ix2 (0 : Fin 1) k))
          (fun (p : Fin 50000) (k : Fin 256) => V c (Pipeline.arrRef spec2 0) (ix2 p k))
          (fun (k : Fin 256) (g : Fin 32) => V c (Pipeline.arrRef spec2 7) (ix2 k g))
          (fun g : Fin 32 => V c (Pipeline.arrRef spec2 8) (ix2 (0 : Fin 1) g)) p g :=
  congrFun (final_std V c) (ix2 p g)

end Cert.R2

end
-- ==== Proof.Bridge2.lean ====
/-
  The last boundary between the two programs: the two output heads.

  When the kernel program enters its last pipelined region and the reference its last stage, the two hold equal
  data: the aggregated features h and their per-feature mean and variance (the same host operations on equal
  inputs), the second layer's scale and shift, the heads' weights entry by entry (the kernel program's copy is
  the same matrix in a narrower format, which over the extended reals changes no entry) and the heads' biases.
  The kernel program has set each per-feature vector as a one-row array; entry (0, k) of the row is entry k of the
  vector. The region's two output arrays are, entry by entry, the specification's location and scale heads of the
  data the region finds; the reference's two results are the same closed forms of the data its stage finds. The closed
  forms read their operands only at the entries named, so equal entries give equal heads.
-/
import proofs.«166412_j21423296872856_1_alg».proof.Proof.BridgeInv
import proofs.«166412_j21423296872856_1_alg».proof.Proof.BridgeAgg2
import proofs.«166412_j21423296872856_1_alg».proof.Proof.KKeep
import proofs.«166412_j21423296872856_1_alg».proof.Proof.KEntry
import proofs.«166412_j21423296872856_1_alg».proof.Proof.RefRead
import proofs.«166412_j21423296872856_1_alg».proof.Proof.R2Array

noncomputable section

namespace Cert.Bridge.Stage2

open Idealize.ShloMosaic Idealize.ShloMosaic.TcCoe Idealize.SL.Sem Idealize.ShloMosaic.StableHlo Idealize.ShloMosaic.ValueIdx

/-! ## The heads read their operands only at the entries they name -/

section Congr

variable {A H C : ℕ}

/-- The contraction of the activation row p with column g of the weights depends only on the four per-feature
    vectors, row p of the layer's input and column g of the weights. -/
theorem proj2_congr {γ β μ v γ' β' μ' v' : Fin H → EReal} {h h' : Fin A → Fin H → EReal} {w w' : Fin H → Fin C → EReal}
    (p : Fin A) (g : Fin C) (hγ : ∀ k, γ k = γ' k) (hβ : ∀ k, β k = β' k) (hμ : ∀ k, μ k = μ' k) (hv : ∀ k, v k = v' k)
    (hh : ∀ k, h p k = h' p k) (hw : ∀ k, w k g = w' k g) :
    Cert.Spec.proj2 γ β μ v h w p g = Cert.Spec.proj2 γ' β' μ' v' h' w' p g := by
  unfold Cert.Spec.proj2 Cert.Spec.act Cert.Spec.bn
  refine Finset.sum_congr rfl fun k _ => ?_
  rw [hγ k, hβ k, hμ k, hv k, hh k, hw k]

/-- Likewise the location head, which adds entry g of the bias. -/
theorem locHead_congr {γ β μ v γ' β' μ' v' : Fin H → EReal} {h h' : Fin A → Fin H → EReal} {w w' : Fin H → Fin C → EReal}
    {b b' : Fin C → EReal} (p : Fin A) (g : Fin C) (hγ : ∀ k, γ k = γ' k) (hβ : ∀ k, β k = β' k) (hμ : ∀ k, μ k = μ' k)
    (hv : ∀ k, v k = v' k) (hh : ∀ k, h p k = h' p k) (hw : ∀ k, w k g = w' k g) (hb : b g = b' g) :
    Cert.Spec.locHead γ β μ v h w b p g = Cert.Spec.locHead γ' β' μ' v' h' w' b' p g := by
  unfold Cert.Spec.locHead
  rw [proj2_congr p g hγ hβ hμ hv hh hw, hb]

/-- Likewise the scale head. -/
theorem stdHead_congr {γ β μ v γ' β' μ' v' : Fin H → EReal} {h h' : Fin A → Fin H → EReal} {w w' : Fin H → Fin C → EReal}
    {b b' : Fin C → EReal} (p : Fin A) (g : Fin C) (hγ : ∀ k, γ k = γ' k) (hβ : ∀ k, β k = β' k) (hμ : ∀ k, μ k = μ' k)
    (hv : ∀ k, v k = v' k) (hh : ∀ k, h p k = h' p k) (hw : ∀ k, w k g = w' k g) (hb : b g = b' g) :
    Cert.Spec.stdHead γ β μ v h w b p g = Cert.Spec.stdHead γ' β' μ' v' h' w' b' p g := by
  unfold Cert.Spec.stdHead
  rw [proj2_congr p g hγ hβ hμ hv hh hw, hb]

end Congr

/-! ## The reference's two heads of the second activation, as the closed forms -/

section RefHeads

variable [Cert.ReferenceIdeal.Facts]

/-- The reference's location head of the rectified, normalised features at (p, g). -/
theorem ref_locHead (h : FVec Ideal Cert.ReferenceIdeal.S50000x256 .f32) (γ β μ v : FVec Ideal Cert.ReferenceIdeal.S256 .f32)
    (W : FVec Ideal Cert.ReferenceIdeal.S256x32 .f32) (b : FVec Ideal Cert.ReferenceIdeal.S32 .f32) (p : Fin 50000) (g : Fin 32) :
    Cert.ReferenceIdeal.locTerm (Cert.ReferenceIdeal.actTerm h γ β μ v) W b (ix2 p g)
      = Cert.Spec.locHead (fun k => γ (ix1 k)) (fun k => β (ix1 k)) (fun k => μ (ix1 k)) (fun k => v (ix1 k))
          (fun p k => h (ix2 p k)) (fun k g => W (ix2 k g)) (fun g => b (ix1 g)) p g :=
  Cert.ReferenceIdeal.ref_loc _ W b _ (fun p k => Cert.ReferenceIdeal.ref_act h γ β μ v p k) p g

/-- The reference's scale head of the rectified, normalised features at (p, g). -/
theorem ref_stdHead (h : FVec Ideal Cert.ReferenceIdeal.S50000x256 .f32) (γ β μ v : FVec Ideal Cert.ReferenceIdeal.S256 .f32)
    (W : FVec Ideal Cert.ReferenceIdeal.S256x32 .f32) (b : FVec Ideal Cert.ReferenceIdeal.S32 .f32) (p : Fin 50000) (g : Fin 32) :
    Cert.ReferenceIdeal.stdTerm (Cert.ReferenceIdeal.actTerm h γ β μ v) W b (ix2 p g)
      = Cert.Spec.stdHead (fun k => γ (ix1 k)) (fun k => β (ix1 k)) (fun k => μ (ix1 k)) (fun k => v (ix1 k))
          (fun p k => h (ix2 p k)) (fun k g => W (ix2 k g)) (fun g => b (ix1 g)) p g :=
  Cert.ReferenceIdeal.ref_std _ W b _ (fun p k => Cert.ReferenceIdeal.ref_act h γ β μ v p k) p g

end RefHeads

/-! ## What the last region finds against what the last stage finds -/

variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD) (R2 : Valuation Cert.ReferenceIdeal.τ Cert.ReferenceIdeal.sig (Elt Ideal))

/-- The scale row of the second layer against the reference's scale vector. -/
theorem row_γ (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) (k : Fin 256) :
    (Cert.KernelIdeal.Gen.V9 m ρ c (Pipeline.arrRef Cert.KernelIdeal.spec2 1) : FVec Ideal ⟨2, ![1, 256]⟩ .f32) (ix2 (0 : Fin 1) k)
      = ((StableHlo.after Cert.ReferenceIdeal.RefRun.seg3 R2) (Proc.devRef .tc Cert.ReferenceIdeal.main_arg5) : FVec Ideal ⟨1, ![256]⟩ .f32) (ix1 k) :=
  (Cert.KernelIdeal.KKeep.hostOps2_2_main_v102 (Cert.KernelIdeal.Gen.W8 m ρ c) k).trans (congrFun (((Cert.KernelIdeal.KKeep.hostOps2_1_keep (Cert.KernelIdeal.Gen.W7 m ρ c) Cert.KernelIdeal.main_arg5 (by decide)).trans ((Cert.KernelIdeal.KKeep.hostOps2_keep (Cert.KernelIdeal.Gen.W6 m ρ c) Cert.KernelIdeal.main_arg5 (by decide)).trans (hA.g2.trans (Cert.ReferenceIdeal.RefRead.seg3_keep_arg5 R2).symm)))) (ix1 k))

/-- The shift row of the second layer against the reference's shift vector. -/
theorem row_β (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) (k : Fin 256) :
    (Cert.KernelIdeal.Gen.V9 m ρ c (Pipeline.arrRef Cert.KernelIdeal.spec2 2) : FVec Ideal ⟨2, ![1, 256]⟩ .f32) (ix2 (0 : Fin 1) k)
      = ((StableHlo.after Cert.ReferenceIdeal.RefRun.seg3 R2) (Proc.devRef .tc Cert.ReferenceIdeal.main_arg6) : FVec Ideal ⟨1, ![256]⟩ .f32) (ix1 k) :=
  (Cert.KernelIdeal.KKeep.hostOps2_2_main_v103 (Cert.KernelIdeal.Gen.W8 m ρ c) k).trans (congrFun (((Cert.KernelIdeal.KKeep.hostOps2_1_keep (Cert.KernelIdeal.Gen.W7 m ρ c) Cert.KernelIdeal.main_arg6 (by decide)).trans ((Cert.KernelIdeal.KKeep.hostOps2_keep (Cert.KernelIdeal.Gen.W6 m ρ c) Cert.KernelIdeal.main_arg6 (by decide)).trans (hA.b2.trans (Cert.ReferenceIdeal.RefRead.seg3_keep_arg6 R2).symm)))) (ix1 k))

/-- The row of per-feature means against the reference's mean vector. -/
theorem row_μ (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) (k : Fin 256) :
    (Cert.KernelIdeal.Gen.V9 m ρ c (Pipeline.arrRef Cert.KernelIdeal.spec2 3) : FVec Ideal ⟨2, ![1, 256]⟩ .f32) (ix2 (0 : Fin 1) k)
      = ((StableHlo.after Cert.ReferenceIdeal.RefRun.seg3 R2) (Proc.devRef .tc Cert.ReferenceIdeal.main_v119) : FVec Ideal ⟨1, ![256]⟩ .f32) (ix1 k) :=
  (Cert.KernelIdeal.KKeep.hostOps2_2_main_v104 (Cert.KernelIdeal.Gen.W8 m ρ c) k).trans (congrFun ((Cert.KernelIdeal.KKeep.hostOps2_1_keep (Cert.KernelIdeal.Gen.W7 m ρ c) Cert.KernelIdeal.main_v100 (by decide)).trans (Cert.Bridge.Agg2.mean (Cert.KernelIdeal.Gen.W6 m ρ c) R2 hF hA.src hA.dst)) (ix1 k))

/-- The row of per-feature variances against the reference's variance vector. -/
theorem row_v (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) (k : Fin 256) :
    (Cert.KernelIdeal.Gen.V9 m ρ c (Pipeline.arrRef Cert.KernelIdeal.spec2 4) : FVec Ideal ⟨2, ![1, 256]⟩ .f32) (ix2 (0 : Fin 1) k)
      = ((StableHlo.after Cert.ReferenceIdeal.RefRun.seg3 R2) (Proc.devRef .tc Cert.ReferenceIdeal.main_v120) : FVec Ideal ⟨1, ![256]⟩ .f32) (ix1 k) :=
  (Cert.KernelIdeal.KKeep.hostOps2_2_main_v105 (Cert.KernelIdeal.Gen.W8 m ρ c) k).trans (congrFun (Cert.Bridge.Agg2.var (Cert.KernelIdeal.Gen.W6 m ρ c) R2 hF hA.src hA.dst) (ix1 k))

/-- The location head's bias row against the reference's bias vector. -/
theorem row_bl (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) (k : Fin 32) :
    (Cert.KernelIdeal.Gen.V9 m ρ c (Pipeline.arrRef Cert.KernelIdeal.spec2 6) : FVec Ideal ⟨2, ![1, 32]⟩ .f32) (ix2 (0 : Fin 1) k)
      = ((StableHlo.after Cert.ReferenceIdeal.RefRun.seg3 R2) (Proc.devRef .tc Cert.ReferenceIdeal.main_arg8) : FVec Ideal ⟨1, ![32]⟩ .f32) (ix1 k) :=
  (Cert.KernelIdeal.KKeep.hostOps2_2_main_v106 (Cert.KernelIdeal.Gen.W8 m ρ c) k).trans (congrFun (((Cert.KernelIdeal.KKeep.hostOps2_1_keep (Cert.KernelIdeal.Gen.W7 m ρ c) Cert.KernelIdeal.main_arg8 (by decide)).trans ((Cert.KernelIdeal.KKeep.hostOps2_keep (Cert.KernelIdeal.Gen.W6 m ρ c) Cert.KernelIdeal.main_arg8 (by decide)).trans (hA.bl.trans (Cert.ReferenceIdeal.RefRead.seg3_keep_arg8 R2).symm)))) (ix1 k))

/-- The scale head's bias row against the reference's bias vector. -/
theorem row_bs (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) (k : Fin 32) :
    (Cert.KernelIdeal.Gen.V9 m ρ c (Pipeline.arrRef Cert.KernelIdeal.spec2 8) : FVec Ideal ⟨2, ![1, 32]⟩ .f32) (ix2 (0 : Fin 1) k)
      = ((StableHlo.after Cert.ReferenceIdeal.RefRun.seg3 R2) (Proc.devRef .tc Cert.ReferenceIdeal.main_arg10) : FVec Ideal ⟨1, ![32]⟩ .f32) (ix1 k) :=
  (Cert.KernelIdeal.KKeep.hostOps2_2_main_v107 (Cert.KernelIdeal.Gen.W8 m ρ c) k).trans (congrFun (((Cert.KernelIdeal.KKeep.hostOps2_1_keep (Cert.KernelIdeal.Gen.W7 m ρ c) Cert.KernelIdeal.main_arg10 (by decide)).trans ((Cert.KernelIdeal.KKeep.hostOps2_keep (Cert.KernelIdeal.Gen.W6 m ρ c) Cert.KernelIdeal.main_arg10 (by decide)).trans (hA.bs.trans (Cert.ReferenceIdeal.RefRead.seg3_keep_arg10 R2).symm)))) (ix1 k))

/-- The aggregated features the region finds are the reference's. -/
theorem feat (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) :
    (Cert.KernelIdeal.Gen.V9 m ρ c (Pipeline.arrRef Cert.KernelIdeal.spec2 0) : FVec Ideal ⟨2, ![50000, 256]⟩ .f32) = (StableHlo.after Cert.ReferenceIdeal.RefRun.seg3 R2) (Proc.devRef .tc Cert.ReferenceIdeal.main_v116) :=
  (Cert.KernelIdeal.KKeep.hostOps2_2_keep (Cert.KernelIdeal.Gen.W8 m ρ c) Cert.KernelIdeal.main_v97 (by decide)).trans ((Cert.KernelIdeal.KKeep.hostOps2_1_keep (Cert.KernelIdeal.Gen.W7 m ρ c) Cert.KernelIdeal.main_v97 (by decide)).trans (Cert.Bridge.Agg2.agg (Cert.KernelIdeal.Gen.W6 m ρ c) R2 hF hA.src hA.dst))

/-- The location head's weights, entry by entry. -/
theorem w_loc (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) (k : Fin 256) (g : Fin 32) :
    (Cert.KernelIdeal.Gen.V9 m ρ c (Pipeline.arrRef Cert.KernelIdeal.spec2 5) : FVec Ideal ⟨2, ![256, 32]⟩ .bf16) (ix2 k g)
      = ((StableHlo.after Cert.ReferenceIdeal.RefRun.seg3 R2) (Proc.devRef .tc Cert.ReferenceIdeal.main_arg7) : FVec Ideal ⟨2, ![256, 32]⟩ .f32) (ix2 k g) :=
  (congrFun ((Cert.KernelIdeal.KKeep.hostOps2_2_keep (Cert.KernelIdeal.Gen.W8 m ρ c) Cert.KernelIdeal.main_v6 (by decide)).trans ((Cert.KernelIdeal.KKeep.hostOps2_1_keep (Cert.KernelIdeal.Gen.W7 m ρ c) Cert.KernelIdeal.main_v6 (by decide)).trans (Cert.KernelIdeal.KKeep.hostOps2_keep (Cert.KernelIdeal.Gen.W6 m ρ c) Cert.KernelIdeal.main_v6 (by decide)))) (ix2 k g)).trans
    ((hA.wl k g).trans (congrFun (Cert.ReferenceIdeal.RefRead.seg3_keep_arg7 R2).symm (ix2 k g)))

/-- The scale head's weights, entry by entry. -/
theorem w_std (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) (k : Fin 256) (g : Fin 32) :
    (Cert.KernelIdeal.Gen.V9 m ρ c (Pipeline.arrRef Cert.KernelIdeal.spec2 7) : FVec Ideal ⟨2, ![256, 32]⟩ .bf16) (ix2 k g)
      = ((StableHlo.after Cert.ReferenceIdeal.RefRun.seg3 R2) (Proc.devRef .tc Cert.ReferenceIdeal.main_arg9) : FVec Ideal ⟨2, ![256, 32]⟩ .f32) (ix2 k g) :=
  (congrFun ((Cert.KernelIdeal.KKeep.hostOps2_2_keep (Cert.KernelIdeal.Gen.W8 m ρ c) Cert.KernelIdeal.main_v7 (by decide)).trans ((Cert.KernelIdeal.KKeep.hostOps2_1_keep (Cert.KernelIdeal.Gen.W7 m ρ c) Cert.KernelIdeal.main_v7 (by decide)).trans (Cert.KernelIdeal.KKeep.hostOps2_keep (Cert.KernelIdeal.Gen.W6 m ρ c) Cert.KernelIdeal.main_v7 (by decide)))) (ix2 k g)).trans
    ((hA.ws k g).trans (congrFun (Cert.ReferenceIdeal.RefRead.seg3_keep_arg9 R2).symm (ix2 k g)))

/-! ## The two heads -/

/-- The kernel program's location output is the reference's. -/
theorem loc (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) :
    (Cert.KernelIdeal.Gen.W10 m ρ c (Proc.devRef .tc Cert.KernelIdeal.main_v108_0) : FVec Ideal ⟨2, ![50000, 32]⟩ .f32)
      = StableHlo.after Cert.ReferenceIdeal.RefRun.seg4 (StableHlo.after Cert.ReferenceIdeal.RefRun.seg3 R2) (Proc.devRef .tc Cert.ReferenceIdeal.main_v144) := by
  funext i
  obtain ⟨p, g, rfl⟩ : ∃ (p : Fin 50000) (g : Fin 32), i = ix2 p g := ⟨i 0, i 1, eq_ix2 i⟩
  refine ((congrFun (Cert.KernelIdeal.Gen.W10_arr m ρ c 9) (ix2 p g)).trans (Cert.R2.arr_loc (Cert.KernelIdeal.Gen.V9 m ρ) c p g)).trans ?_
  refine Eq.trans ?_ (congrFun (Cert.ReferenceIdeal.RefRead.s4_loc (StableHlo.after Cert.ReferenceIdeal.RefRun.seg3 R2)).symm (ix2 p g))
  refine Eq.trans ?_ (ref_locHead _ _ _ _ _ _ _ p g).symm
  exact locHead_congr p g (row_γ m ρ c R2 hA hF) (row_β m ρ c R2 hA hF) (row_μ m ρ c R2 hA hF) (row_v m ρ c R2 hA hF)
    (fun k => congrFun (feat m ρ c R2 hA hF) (ix2 p k)) (fun k => w_loc m ρ c R2 hA hF k g) (row_bl m ρ c R2 hA hF g)

/-- The kernel program's scale output is the reference's. -/
theorem std (hA : Cert.Bridge.Agree (Cert.KernelIdeal.Gen.W6 m ρ c) R2)
    (hF : (Cert.KernelIdeal.Gen.W6 m ρ c (Proc.devRef .tc Cert.KernelIdeal.main_v57) : FVec Ideal ⟨2, ![50000, 256]⟩ .f32) = R2 (Proc.devRef .tc Cert.ReferenceIdeal.main_v76)) :
    (Cert.KernelIdeal.Gen.W10 m ρ c (Proc.devRef .tc Cert.KernelIdeal.main_v108_1) : FVec Ideal ⟨2, ![50000, 32]⟩ .f32)
      = StableHlo.after Cert.ReferenceIdeal.RefRun.seg4 (StableHlo.after Cert.ReferenceIdeal.RefRun.seg3 R2) (Proc.devRef .tc Cert.ReferenceIdeal.main_v151) := by
  funext i
  obtain ⟨p, g, rfl⟩ : ∃ (p : Fin 50000) (g : Fin 32), i = ix2 p g := ⟨i 0, i 1, eq_ix2 i⟩
  refine ((congrFun (Cert.KernelIdeal.Gen.W10_arr m ρ c 10) (ix2 p g)).trans (Cert.R2.arr_std (Cert.KernelIdeal.Gen.V9 m ρ) c p g)).trans ?_
  refine Eq.trans ?_ (congrFun (Cert.ReferenceIdeal.RefRead.s4_std (StableHlo.after Cert.ReferenceIdeal.RefRun.seg3 R2)).symm (ix2 p g))
  refine Eq.trans ?_ (ref_stdHead _ _ _ _ _ _ _ p g).symm
  exact stdHead_congr p g (row_γ m ρ c R2 hA hF) (row_β m ρ c R2 hA hF) (row_μ m ρ c R2 hA hF) (row_v m ρ c R2 hA hF)
    (fun k => congrFun (feat m ρ c R2 hA hF) (ix2 p k)) (fun k => w_std m ρ c R2 hA hF k g) (row_bs m ρ c R2 hA hF g)

end Cert.Bridge.Stage2

end
-- ==== Proof.BridgeAll.lean ====
/-
  The two programs end with equal results.

  Stage by stage the kernel program's buffer contents and the reference's agree on what the next stage reads: after
  the first region and the reference's first stage, the projected features, the row totals and the edge rows; after
  the first layer's aggregation and the second region, the second projection; after the second layer's aggregation
  and the third region, the location and scale heads.  Everything else the stages read is carried unchanged by both.
  So from memories that agree on the twelve arguments the three result buffers end equal.
-/
import proofs.«166412_j21423296872856_1_alg».proof.Proof.Bridge0
import proofs.«166412_j21423296872856_1_alg».proof.Proof.BridgeAgree0
import proofs.«166412_j21423296872856_1_alg».proof.Proof.Bridge1
import proofs.«166412_j21423296872856_1_alg».proof.Proof.BridgeSteps
import proofs.«166412_j21423296872856_1_alg».proof.Proof.Bridge2
import proofs.«166412_j21423296872856_1_alg».proof.Proof.RefRun

noncomputable section

namespace Cert.Bridge

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (W' : Valuation Cert.ReferenceIdeal.τ Cert.ReferenceIdeal.sig (Elt Ideal))

/-- From launch contents that agree on the twelve arguments, the kernel program's three result buffers at its last
    boundary are the reference's three result buffers after all its operations. -/
theorem results
    (h0 : (m ((c : Thread Cert.KernelIdeal.nD Cert.KernelIdeal.τ).loc Cert.KernelIdeal.main_arg0) : FVec Ideal ⟨2, ![50000, 1000]⟩ .f32) = W' (Proc.devRef .tc Cert.ReferenceIdeal.main_arg0))
    (h1 : (m ((c : Thread Cert.KernelIdeal.nD Cert.KernelIdeal.τ).loc Cert.KernelIdeal.main_arg1) : FVec Ideal ⟨2, ![1000, 256]⟩ .f32) = W' (Proc.devRef .tc Cert.ReferenceIdeal.main_arg1))
    (h2 : (m ((c : Thread Cert.KernelIdeal.nD Cert.KernelIdeal.τ).loc Cert.KernelIdeal.main_arg2) : FVec Ideal ⟨1, ![256]⟩ .f32) = W' (Proc.devRef .tc Cert.ReferenceIdeal.main_arg2))
    (h3 : (m ((c : Thread Cert.KernelIdeal.nD Cert.KernelIdeal.τ).loc Cert.KernelIdeal.main_arg3) : FVec Ideal ⟨1, ![256]⟩ .f32) = W' (Proc.devRef .tc Cert.ReferenceIdeal.main_arg3))
    (h4 : (m ((c : Thread Cert.KernelIdeal.nD Cert.KernelIdeal.τ).loc Cert.KernelIdeal.main_arg4) : FVec Ideal ⟨2, ![256, 256]⟩ .f32) = W' (Proc.devRef .tc Cert.ReferenceIdeal.main_arg4))
    (h5 : (m ((c : Thread Cert.KernelIdeal.nD Cert.KernelIdeal.τ).loc Cert.KernelIdeal.main_arg5) : FVec Ideal ⟨1, ![256]⟩ .f32) = W' (Proc.devRef .tc Cert.ReferenceIdeal.main_arg5))
    (h6 : (m ((c : Thread Cert.KernelIdeal.nD Cert.KernelIdeal.τ).loc Cert.KernelIdeal.main_arg6) : FVec Ideal ⟨1, ![256]⟩ .f32) = W' (Proc.devRef .tc Cert.ReferenceIdeal.main_arg6))
    (h7 : (m ((c : Thread Cert.KernelIdeal.nD Cert.KernelIdeal.τ).loc Cert.KernelIdeal.main_arg7) : FVec Ideal ⟨2, ![256, 32]⟩ .f32) = W' (Proc.devRef .tc Cert.ReferenceIdeal.main_arg7))
    (h8 : (m ((c : Thread Cert.KernelIdeal.nD Cert.KernelIdeal.τ).loc Cert.KernelIdeal.main_arg8) : FVec Ideal ⟨1, ![32]⟩ .f32) = W' (Proc.devRef .tc Cert.ReferenceIdeal.main_arg8))
    (h9 : (m ((c : Thread Cert.KernelIdeal.nD Cert.KernelIdeal.τ).loc Cert.KernelIdeal.main_arg9) : FVec Ideal ⟨2, ![256, 32]⟩ .f32) = W' (Proc.devRef .tc Cert.ReferenceIdeal.main_arg9))
    (h10 : (m ((c : Thread Cert.KernelIdeal.nD Cert.KernelIdeal.τ).loc Cert.KernelIdeal.main_arg10) : FVec Ideal ⟨1, ![32]⟩ .f32) = W' (Proc.devRef .tc Cert.ReferenceIdeal.main_arg10))
    (h11 : (m ((c : Thread Cert.KernelIdeal.nD Cert.KernelIdeal.τ).loc Cert.KernelIdeal.main_arg11) : IVec ⟨2, ![2, 800000]⟩ 32) = W' (Proc.devRef .tc Cert.ReferenceIdeal.main_arg11)) :
    (Cert.KernelIdeal.Gen.W10 m ρ c (Proc.devRef .tc Cert.KernelIdeal.main_v108_0) : FVec Ideal ⟨2, ![50000, 32]⟩ .f32) = after Cert.ReferenceIdeal.RefRun.ops W' (Proc.devRef .tc Cert.ReferenceIdeal.main_v144)
    ∧ (Cert.KernelIdeal.Gen.W10 m ρ c (Proc.devRef .tc Cert.KernelIdeal.main_v108_1) : FVec Ideal ⟨2, ![50000, 32]⟩ .f32) = after Cert.ReferenceIdeal.RefRun.ops W' (Proc.devRef .tc Cert.ReferenceIdeal.main_v151)
    ∧ (Cert.KernelIdeal.Gen.W10 m ρ c (Proc.devRef .tc Cert.KernelIdeal.main_v8_1) : FVec Ideal ⟨2, ![50000, 1]⟩ .f32) = after Cert.ReferenceIdeal.RefRun.ops W' (Proc.devRef .tc Cert.ReferenceIdeal.main_v5) := by
  rw [Cert.ReferenceIdeal.RefRun.after_ops W']
  have A0 := Stage0.agree0 m ρ c W' h0 h1 h2 h3 h4 h5 h6 h7 h8 h9 h10 h11
  have F0 := Stage0.proj m ρ c W' h0 h1
  have F2 := Stage1.proj m ρ c _ A0 F0
  have A2 := Steps.layer1 m ρ c _ A0
  exact ⟨Stage2.loc m ρ c _ A2 F2, Stage2.std m ρ c _ A2 F2, Steps.total_final m ρ c _ A2⟩

end Cert.Bridge

end
-- ==== Proof.lean ====
/-
  A graph-convolutional encoder over 50000 cells, 1000 genes and 800000 edges: library-size normalisation
  log(1 + x · 10000 / rowsum x), two layers (projection, degree-normalised neighbour aggregation with self loops,
  batch normalisation with batch statistics, leaky rectifier) and two heads (a location, and a scale through softplus
  plus 1e-7).  The kernel program computes the three dense pieces — the normalisation with the first projection,
  the first layer's normalisation and rectifier with the second projection, the second layer's with both heads — in
  three kernel regions over 25 row blocks of 2000, with bf16 operands into the matrix unit, and leaves the graph
  aggregation and the batch statistics to the same host operations the reference uses.

  Over the extended reals a change of float format is the identity and a sum is a sum however it is tiled, so each
  region's output array is, index by index, the closed form of Proof/Spec.lean of the arrays the region reads, and so
  is the reference's matching stage of its own buffers; the host operations between the regions are the same
  compositions in both programs.  Stage by stage the two programs' buffer contents therefore agree (Proof/BridgeAll.lean),
  and the three results — location, scale, row totals — end equal.  No law that needs finite inputs is used: the
  precondition is never opened.  The idealised kernel program is the kernel program's own text read over the
  extended reals (no rewrite was applied), so the preservation claim has nothing to state.
-/
import proofs.«166412_j21423296872856_1_alg».proof.Defs
import proofs.«166412_j21423296872856_1_alg».proof.Proof.Gen.Kernel
import proofs.«166412_j21423296872856_1_alg».proof.Proof.Gen.Kernel.Frame
import proofs.«166412_j21423296872856_1_alg».proof.Proof.Gen.KernelIdeal
import proofs.«166412_j21423296872856_1_alg».proof.Proof.Gen.KernelIdeal.Frame
import proofs.«166412_j21423296872856_1_alg».proof.Proof.Gen.ReferenceIdeal
import proofs.«166412_j21423296872856_1_alg».proof.Proof.Gen.Pre_finite_inputs
import proofs.«166412_j21423296872856_1_alg».proof.Proof.KRunHand
import proofs.«166412_j21423296872856_1_alg».proof.Proof.RefRun
import proofs.«166412_j21423296872856_1_alg».proof.Proof.BridgeAll

noncomputable section

namespace Cert.Proof

open Idealize.ShloMosaic Idealize.ShloMosaic.TcCoe Idealize.SL.Sem Idealize.ShloMosaic.StableHlo

/-- The kernel program runs and keeps its arguments: the generated frame. -/
theorem frame_kernel : Cert.frame_Kernel := fun m ρ _ => Cert.Kernel.Gen.frame m ρ

/-- The same program read over the extended reals runs and keeps its arguments: the generated frame. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _)⟩)
    (Cert.ReferenceIdeal.RefRun.run_main m ρ)

/-- No operation was rewritten when the kernel program was read over the extended reals. -/
theorem preserves : Cert.preserves_Kernel_KernelIdeal := trivial

/-- Both programs run; the kernel program's three result buffers end at its last boundary's contents, the
    reference's at the fold of its operations over the launch contents, and from agreeing arguments these are equal. -/
theorem algebraic : Cert.algebraic_KernelIdeal_ReferenceIdeal := by
  intro m ρ m' ρ' _ hagree
  refine ⟨fun c => Cert.KernelIdeal.Gen.W10 m ρ c (Proc.devRef .tc Cert.KernelIdeal.main_v108_0), fun c => Cert.KernelIdeal.Gen.W10 m ρ c (Proc.devRef .tc Cert.KernelIdeal.main_v108_1),
    fun c => Cert.KernelIdeal.Gen.W10 m ρ c (Proc.devRef .tc Cert.KernelIdeal.main_v8_1), ?_, ?_⟩
  · refine (θ_run Cert.KernelIdeal.defs _ _).mono (fun r h c =>
      ⟨h c Cert.KernelIdeal.main_v108_0 (by decide), h c Cert.KernelIdeal.main_v108_1 (by decide), h c Cert.KernelIdeal.main_v8_1 (by decide),
       (h c Cert.KernelIdeal.main_arg0 (by decide)).trans (Cert.KernelIdeal.Gen.W10_main_arg0 m ρ c),
       (h c Cert.KernelIdeal.main_arg1 (by decide)).trans (Cert.KernelIdeal.Gen.W10_main_arg1 m ρ c),
       (h c Cert.KernelIdeal.main_arg2 (by decide)).trans (Cert.KernelIdeal.Gen.W10_main_arg2 m ρ c),
       (h c Cert.KernelIdeal.main_arg3 (by decide)).trans (Cert.KernelIdeal.Gen.W10_main_arg3 m ρ c),
       (h c Cert.KernelIdeal.main_arg4 (by decide)).trans (Cert.KernelIdeal.Gen.W10_main_arg4 m ρ c),
       (h c Cert.KernelIdeal.main_arg5 (by decide)).trans (Cert.KernelIdeal.Gen.W10_main_arg5 m ρ c),
       (h c Cert.KernelIdeal.main_arg6 (by decide)).trans (Cert.KernelIdeal.Gen.W10_main_arg6 m ρ c),
       (h c Cert.KernelIdeal.main_arg7 (by decide)).trans (Cert.KernelIdeal.Gen.W10_main_arg7 m ρ c),
       (h c Cert.KernelIdeal.main_arg8 (by decide)).trans (Cert.KernelIdeal.Gen.W10_main_arg8 m ρ c),
       (h c Cert.KernelIdeal.main_arg9 (by decide)).trans (Cert.KernelIdeal.Gen.W10_main_arg9 m ρ c),
       (h c Cert.KernelIdeal.main_arg10 (by decide)).trans (Cert.KernelIdeal.Gen.W10_main_arg10 m ρ c),
       (h c Cert.KernelIdeal.main_arg11 (by decide)).trans (Cert.KernelIdeal.Gen.W10_main_arg11 m ρ c)⟩)
      (Cert.KernelIdeal.KRunHand.run_all m ρ)
  · refine (θ_run Cert.ReferenceIdeal.defs _ _).mono (fun r h c => ?_) (Cert.ReferenceIdeal.RefRun.run_main m' ρ')
    obtain ⟨e0, e1, e2, e3, e4, e5, e6, e7, e8, e9, e10, e11⟩ := hagree c
    have B := Cert.Bridge.results m ρ c (launchContents m' c) e0.symm e1.symm e2.symm e3.symm e4.symm e5.symm e6.symm e7.symm e8.symm e9.symm e10.symm e11.symm
    exact ⟨(h c Cert.ReferenceIdeal.main_v144).trans B.1.symm, (h c Cert.ReferenceIdeal.main_v151).trans B.2.1.symm, (h c Cert.ReferenceIdeal.main_v5).trans B.2.2.symm,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _)⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
